-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8192x256 .f32) (main_arg1 : FVec F S8192x8192 .f32) (main_arg2 : FVec F S8192x8192 .f32) (main_arg3 : FVec F S256x128 .f32) (main_arg4 : FVec F S128 .f32) (main_arg5 : FVec F S128x64 .f32) (main_arg6 : FVec F S64 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x64 : Shape := ⟨2, ![128, 64]⟩
abbrev S64 : Shape := ⟨1, ![64]⟩
abbrev S1x128 : Shape := ⟨2, ![1, 128]⟩
abbrev S8192x128 : Shape := ⟨2, ![8192, 128]⟩
abbrev S512x512 : Shape := ⟨2, ![512, 512]⟩
abbrev S512x128 : Shape := ⟨2, ![512, 128]⟩
abbrev S1x64 : Shape := ⟨2, ![1, 64]⟩
abbrev S8192x64 : Shape := ⟨2, ![8192, 64]⟩
abbrev S512x64 : Shape := ⟨2, ![512, 64]⟩

abbrev nBuf : Space → Nat
  | .hbm => 13
  | .vmem => 31
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x128, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S1x64, .f32⟩
  | .hbm, ⟨12, _⟩ => ⟨S8192x64, .f32⟩
  | .local _ .vmem, ⟨0, _⟩ => ⟨S8192x256, .f32⟩
  | .local _ .vmem, ⟨1, _⟩ => ⟨S256x128, .f32⟩
  | .local _ .vmem, ⟨2, _⟩ => ⟨S1x128, .f32⟩
  | .local _ .vmem, ⟨3, _⟩ => ⟨S8192x128, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x512, .f32⟩
  | .local _ .vmem, ⟨19, _⟩ => ⟨S512x512, .f32⟩
  | .local _ .vmem, ⟨20, _⟩ => ⟨S512x128, .f32⟩
  | .local _ .vmem, ⟨21, _⟩ => ⟨S512x128, .f32⟩
  | .local _ .vmem, ⟨22, _⟩ => ⟨S512x128, .f32⟩
  | .local _ .vmem, ⟨23, _⟩ => ⟨S512x128, .f32⟩
  | .local _ .vmem, ⟨24, _⟩ => ⟨S512x128, .f32⟩
  | .local _ .vmem, ⟨25, _⟩ => ⟨S512x128, .f32⟩
  | .local _ .vmem, ⟨26, _⟩ => ⟨S128x64, .f32⟩
  | .local _ .vmem, ⟨27, _⟩ => ⟨S1x64, .f32⟩
  | .local _ .vmem, ⟨28, _⟩ => ⟨S512x64, .f32⟩
  | .local _ .vmem, ⟨29, _⟩ => ⟨S512x64, .f32⟩
  | .local _ .vmem, ⟨30, _⟩ => ⟨S512x128, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc1_scratch0 : Ref sig .tc := ⟨.vmem, 16, rfl⟩
abbrev cc1_scratch1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_scratch0 : Ref sig .tc := ⟨.vmem, 30, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := .none

abbrev stage0_0 : Fin 1 → Memref sig .tc .vmem S8192x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_15 : BitVec 32 := 0#32
  let v24 : BitVec 1 := Scalar.cmpi .ne v23 c0_i32_15
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![16, 16], ![false, false]⟩

def k2_cond2 (i : grid2.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S512x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 2 → Memref sig .tc .vmem S512x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  shapeCasts_S128_S1x128 : S128.ShapeCasts S1x128
  inb_S8192x256_S8192x256_0_0 : ∀ a, (![0, 0] : Fin 2 → Nat) a + S8192x256.size a ≤ S8192x256.size a
  h_S8192x256 : 0 < S8192x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S8192x128_S8192x128_0_0 : ∀ a, (![0, 0] : Fin 2 → Nat) a + S8192x128.size a ≤ S8192x128.size a
  h_S8192x128 : 0 < S8192x128.numel
  inb_S512x128_S512x128_0_0 : ∀ a, (![0, 0] : Fin 2 → Nat) a + S512x128.size a ≤ S512x128.size a
  h_S512x128 : 0 < S512x128.numel
  shapeCasts_S512x128_S512x128 : S512x128.ShapeCasts S512x128
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  dot_S8192x256_S256x128_S8192x128_1_0_0_1_n_n_wf : DotDims.WF S8192x256 S256x128 S8192x128 [1] [0] [0] [1] [] []
  dot_S512x512_S512x128_S512x128_1_0_0_1_n_n_wf : DotDims.WF S512x512 S512x128 S512x128 [1] [0] [0] [1] [] []
  dot_S512x128_S128x64_S512x64_1_0_0_1_n_n_wf : DotDims.WF S512x128 S128x64 S512x64 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S8192x8192.size a
  hwx1_0 : ∀ i : grid1.Coords, EltTy.bits .f32 = 32 ∨ (Rect.block (s := S8192x8192) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S8192x8192.size a
  hwx1_1 : ∀ i : grid1.Coords, EltTy.bits .f32 = 32 ∨ (Rect.block (s := S8192x8192) S512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x128.size a ≤ S8192x128.size a
  hwx1_2 : ∀ i : grid1.Coords, EltTy.bits .f32 = 32 ∨ (Rect.block (s := S8192x128) S512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S8192x128.size a
  hwx1_3 : ∀ i : grid1.Coords, EltTy.bits .f32 = 32 ∨ (Rect.block (s := S8192x128) S512x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S8192x128.size a
  hwx1_4 : ∀ i : grid1.Coords, EltTy.bits .f32 = 32 ∨ (Rect.block (s := S8192x128) S512x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S8192x128.size a
  hwx1_5 : ∀ i : grid1.Coords, EltTy.bits .f32 = 32 ∨ (Rect.block (s := S8192x128) S512x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x512.size a ≤ S8192x8192.size a
  hwx2_0 : ∀ i : grid2.Coords, EltTy.bits .f32 = 32 ∨ (Rect.block (s := S8192x8192) S512x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x128.size a ≤ S8192x128.size a
  hwx2_1 : ∀ i : grid2.Coords, EltTy.bits .f32 = 32 ∨ (Rect.block (s := S8192x128) S512x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x128.size a ≤ S8192x128.size a
  hwx2_2 : ∀ i : grid2.Coords, EltTy.bits .f32 = 32 ∨ (Rect.block (s := S8192x128) S512x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x128.size a ≤ S8192x128.size a
  hwx2_3 : ∀ i : grid2.Coords, EltTy.bits .f32 = 32 ∨ (Rect.block (s := S8192x128) S512x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x64.size a ≤ S8192x64.size a
  hwx2_6 : ∀ i : grid2.Coords, EltTy.bits .f32 = 32 ∨ (Rect.block (s := S8192x64) S512x64.size (cc2_transform_6 i) (hinb2_6 i)).WholeWords (EltTy.packing .f32)

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x64_S512x64_1_0_0_1_n_n : DotDims S512x128 S128x64 S512x64 where
  lhsContracting := [1]
  rhsContracting := [0]
  lhsNonContracting := [0]
  rhsNonContracting := [1]
  lhsBatch := []
  rhsBatch := []
  wf := dot_S512x128_S128x64_S512x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v2_0) S512x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v2_1) S512x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

abbrev win2_0 : Pipeline.Window sig grid2 :=
  Pipeline.Window.ofSpec (Memref.whole main_arg1) S512x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S512x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_0) S512x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2_1) S512x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v3) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v4) S512x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S8192x8192 : Shape := ⟨2, ![8192, 8192]⟩
abbrev S256x128 : Shape := ⟨2, ![256, 128]⟩
abbrev S128 : Shape := ⟨1, ![128]⟩
abbrev S128x64 : Shape := ⟨2, ![128, 64]⟩
abbrev S64 : Shape := ⟨1, ![64]⟩
abbrev S8192x128 : Shape := ⟨2, ![8192, 128]⟩
abbrev S1x128 : Shape := ⟨2, ![1, 128]⟩
abbrev S_ : Shape := ⟨0, ![]⟩
abbrev S8192x64 : Shape := ⟨2, ![8192, 64]⟩
abbrev S1x64 : Shape := ⟨2, ![1, 64]⟩

abbrev nBuf : Space → Nat
  | .hbm => 44
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x8192, .f32⟩
  | .hbm, ⟨2, _⟩ => ⟨S8192x8192, .f32⟩
  | .hbm, ⟨3, _⟩ => ⟨S256x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S8192x128, .f32⟩
  | .hbm, ⟨8, _⟩ => ⟨S1x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192x128, .f32⟩
  | .hbm, ⟨13, _⟩ => ⟨S8192x128, .f32⟩
  | .hbm, ⟨14, _⟩ => ⟨S8192x128, .f32⟩
  | .hbm, ⟨15, _⟩ => ⟨S_, .f32⟩
  | .hbm, ⟨16, _⟩ => ⟨S8192x128, .f32⟩
  | .hbm, ⟨17, _⟩ => ⟨S8192x128, .f32⟩
  | .hbm, ⟨18, _⟩ => ⟨S8192x128, .f32⟩
  | .hbm, ⟨19, _⟩ => ⟨S8192x128, .f32⟩
  | .hbm, ⟨20, _⟩ => ⟨S_, .f32⟩
  | .hbm, ⟨21, _⟩ => ⟨S8192x128, .f32⟩
  | .hbm, ⟨22, _⟩ => ⟨S8192x128, .f32⟩
  | .hbm, ⟨23, _⟩ => ⟨S8192x128, .f32⟩
  | .hbm, ⟨24, _⟩ => ⟨S_, .f32⟩
  | .hbm, ⟨25, _⟩ => ⟨S8192x128, .f32⟩
  | .hbm, ⟨26, _⟩ => ⟨S8192x128, .f32⟩
  | .hbm, ⟨27, _⟩ => ⟨S8192x128, .f32⟩
  | .hbm, ⟨28, _⟩ => ⟨S_, .f32⟩
  | .hbm, ⟨29, _⟩ => ⟨S8192x128, .f32⟩
  | .hbm, ⟨30, _⟩ => ⟨S8192x128, .f32⟩
  | .hbm, ⟨31, _⟩ => ⟨S8192x128, .f32⟩
  | .hbm, ⟨32, _⟩ => ⟨S8192x128, .f32⟩
  | .hbm, ⟨33, _⟩ => ⟨S_, .f32⟩
  | .hbm, ⟨34, _⟩ => ⟨S8192x128, .f32⟩
  | .hbm, ⟨35, _⟩ => ⟨S8192x128, .f32⟩
  | .hbm, ⟨36, _⟩ => ⟨S8192x128, .f32⟩
  | .hbm, ⟨37, _⟩ => ⟨S_, .f32⟩
  | .hbm, ⟨38, _⟩ => ⟨S8192x128, .f32⟩
  | .hbm, ⟨39, _⟩ => ⟨S8192x128, .f32⟩
  | .hbm, ⟨40, _⟩ => ⟨S8192x64, .f32⟩
  | .hbm, ⟨41, _⟩ => ⟨S1x64, .f32⟩
  | .hbm, ⟨42, _⟩ => ⟨S8192x64, .f32⟩
  | .hbm, ⟨43, _⟩ => ⟨S8192x64, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  dot_S8192x256_S256x128_S8192x128_1_0_0_1_n_n_wf : DotDims.WF S8192x256 S256x128 S8192x128 [1] [0] [0] [1] [] []
  dot_S8192x8192_S8192x128_S8192x128_1_0_0_1_n_n_wf : DotDims.WF S8192x8192 S8192x128 S8192x128 [1] [0] [0] [1] [] []
  dot_S8192x128_S128x64_S8192x64_1_0_0_1_n_n_wf : DotDims.WF S8192x128 S128x64 S8192x64 [1] [0] [0] [1] [] []

variable [Facts₀]

def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf

class Facts : Prop extends Facts₀ where

variable [Facts]
-- ==== Proof.K.Run.lean ====
/-
  THE RUN of @main through its five segments — the host stretch `hostOps0`, region 0, region 1, the host stretch
  `hostOps2`, region 2 — over `Pipeline.θ_run_regions_kit`, stated over ABSTRACT halves of the three regions: proof data
  `dat0 dat1 dat2` at a parameter valuation, and of each only that its arrays are read off the valuation, the share it
  holds each input array at, that it owes and bounds nothing, its body obligation, and its invariant into and out of the
  class-A one (`Half0`, `Half1`, `Half2`).

  The buffer contents at the segment boundaries are a fold from the launch memory: `W1` after `hostOps0`; `W2` region 0's
  arrays at what its write-backs leave; `W3` region 1's two output arrays at what its write-backs leave; `W4` after
  `hostOps2`; `W5` region 2's output array at what its write-backs leave. Regions 1 and 2 each hand ONE array to two input
  windows: at the entry that array's full share is split into its left and right halves, one per window, and at the exit
  the two halves — an input array is never written, so both still hold the entry contents — are joined into the full
  share again. The conclusion `run_main`: every final state has every unscoped buffer of every core at `W5`.
-/
import proofs.«171258_g71622874628668_fold_wed_m_490_3_alg».proof.Proof.Gen.Kernel.Launch
import proofs.«171258_g71622874628668_fold_wed_m_490_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The TensorCore's buffer contents on every core: what a region's half is stated at. -/
abbrev VT (F : FTy → Type) : Type := (c : Dev nD) → (b : Ref sig .tc) → Buf (Elt F) ((c : Thread nD τ).loc b)

/-! ## Regions whose windows share an array: the arrays out of the unscoped buffers and back -/

section Shared

variable {c : Dev nD}

/-- The distinct buffers behind region 1's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_arg2) ↦{fullShare} V main_arg2)
          ∗ (((c : Thread nD τ).loc main_v1) ↦{fullShare} V main_v1) ∗ (((c : Thread nD τ).loc main_v2_0) ↦{fullShare} V main_v2_0)
          ∗ (((c : Thread nD τ).loc main_v2_1) ↦{fullShare} V main_v2_1)) := by
  unfold Pipeline.arrBufs
  exact bigSep_eq_bigSepL_of_eq [main_arg1, main_arg2, main_v1, main_v2_0, main_v2_1] (by decide) (by decide) _

/-- Region 1's arrays, window by window: each a whole buffer at the window's share. -/
theorem arrays1_eq (dat : Dat τ (Elt F) Unit ℕ (UR sig nD τ) ℕ cfg1 c)
    (hq0 : dat.q 0 = fullShare) (hq1 : dat.q 1 = fullShare) (hq2 : dat.q 2 = fullShare.left) (hq3 : dat.q 3 = fullShare.right)
    (G : (w : Fin cfg1.W) → Buf (Elt F) ((cfg1.win w).arr.view.loc (c : Thread nD τ))) :
    (dat.arrays G : sProp 𝕄)
      = iprop((((c : Thread nD τ).loc main_arg1) ↦{fullShare} G 0) ∗ (((c : Thread nD τ).loc main_arg2) ↦{fullShare} G 1)
          ∗ (((c : Thread nD τ).loc main_v1) ↦{fullShare.left} G 2) ∗ (((c : Thread nD τ).loc main_v1) ↦{fullShare.right} G 3)
          ∗ (((c : Thread nD τ).loc main_v2_0) ↦{fullShare} G 4) ∗ (((c : Thread nD τ).loc main_v2_1) ↦{fullShare} G 5)) := by
  unfold Dat.arrays
  rw [bigSep_W1]
  rw [(arr_whole1 0).set_eq_univ, (arr_whole1 1).set_eq_univ, (arr_whole1 2).set_eq_univ,
    (arr_whole1 4).set_eq_univ, (arr_whole1 5).set_eq_univ]
  rw [show dat.share 0 = fullShare from hq0, show dat.share 1 = fullShare from hq1, show dat.share 2 = fullShare.left from hq2,
    show dat.share 3 = fullShare.right from hq3, show dat.share 4 = fullShare from rfl, show dat.share 5 = fullShare from rfl]

end Shared

section Shared1

variable {c : Dev nD}

/-- ENTRY of region 1, the arrays' part (the library's `arrays_of_unscopedBufs` without the arrays' distinctness): the
    buffer behind windows 2 and 3 is dealt to them in halves. -/
theorem arrays_of_unscopedBufs1 (dat : Dat τ (Elt F) Unit ℕ (UR sig nD τ) ℕ cfg1 c)
    (hq0 : dat.q 0 = fullShare) (hq1 : dat.q 1 = fullShare) (hq2 : dat.q 2 = fullShare.left) (hq3 : dat.q 3 = fullShare.right)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  rw [Pipeline.unscopedBufs_split₀ cfgs 1 winFacts₀1.arr_unscoped c V]
  refine sep_mono ?_ .rfl
  rw [show Pipeline.arrBufs (cfgs 1).spec c V = Pipeline.arrBufs spec1 c V from rfl, arrBufs1_eq, arrays1_eq dat hq0 hq1 hq2 hq3]
  simp only [show ∀ w, dat.arrAt w 0 = dat.A w from fun _ => rfl, hA]
  iintro ⟨H0, H1, H2, H4, H5⟩
  isplitl [H0]; · iexact H0
  isplitl [H1]; · iexact H1
  ihave H := (pointsTo_share (PosShare.mem_left_op_right fullShare)).1 $$ H2
  icases H with ⟨Hl, Hr⟩
  isplitl [Hl]; · iexact Hl
  isplitl [Hr]; · iexact Hr
  isplitl [H4]; · iexact H4
  iexact H5

/-- EXIT of region 1, the arrays' part (the library's `unscopedBufs_of_arrays` without the arrays' distinctness): the
    two halves of the shared input, still at the entry contents, make its buffer whole again. -/
theorem unscopedBufs_of_arrays1 (dat : Dat τ (Elt F) Unit ℕ (UR sig nD τ) ℕ cfg1 c)
    (hq0 : dat.q 0 = fullShare) (hq1 : dat.q 1 = fullShare) (hq2 : dat.q 2 = fullShare.left) (hq3 : dat.q 3 = fullShare.right)
    (V V' : (b : Ref sig .tc) → Buf (Elt F) ((c : Thread nD τ).loc b))
    (hF : ∀ w, dat.arrAt w cfg1.N = V' (Pipeline.arrRef spec1 w))
    (hrest : ∀ b, b ∉ Finset.univ.image (Pipeline.arrRef spec1) → V' b = V b) :
    iprop(dat.arrays (dat.arrAt · cfg1.N) ∗ Pipeline.unscopedRest spec1 c V) ⊢ (unscopedBufs c V' : sProp 𝕄) := by
  rw [Pipeline.unscopedBufs_split₀ cfgs 1 winFacts₀1.arr_unscoped c V']
  refine sep_mono ?_ (Entails.of_eq ?_)
  · rw [show Pipeline.arrBufs (cfgs 1).spec c V' = Pipeline.arrBufs spec1 c V' from rfl, arrBufs1_eq, arrays1_eq dat hq0 hq1 hq2 hq3]
    simp only [hF]
    iintro ⟨H0, H1, Hl, Hr, H4, H5⟩
    isplitl [H0]; · iexact H0
    isplitl [H1]; · iexact H1
    isplitl [Hl Hr]
    · iapply (pointsTo_share (PosShare.mem_left_op_right fullShare)).2
      isplitl [Hl]; · iexact Hl
      iexact Hr
    isplitl [H4]; · iexact H4
    iexact H5
  · show Pipeline.unscopedRest spec1 c V = Pipeline.unscopedRest spec1 c V'
    unfold Pipeline.unscopedRest
    exact bigSep_congr fun b hb => by rw [hrest b (Finset.mem_sdiff.mp hb).2]

end Shared1

section Shared2

variable {c : Dev nD}

/-- The distinct buffers behind region 2's arrays, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg1) ↦{fullShare} V main_arg1) ∗ (((c : Thread nD τ).loc main_v2_0) ↦{fullShare} V main_v2_0)
          ∗ (((c : Thread nD τ).loc main_v2_1) ↦{fullShare} V main_v2_1) ∗ (((c : Thread nD τ).loc main_arg5) ↦{fullShare} V main_arg5)
          ∗ (((c : Thread nD τ).loc main_v3) ↦{fullShare} V main_v3) ∗ (((c : Thread nD τ).loc main_v4) ↦{fullShare} V main_v4)) := by
  unfold Pipeline.arrBufs
  exact bigSep_eq_bigSepL_of_eq [main_arg1, main_v2_0, main_v2_1, main_arg5, main_v3, main_v4] (by decide) (by decide) _

/-- Region 2's arrays, window by window: each a whole buffer at the window's share. -/
theorem arrays2_eq (dat : Dat τ (Elt F) Unit ℕ (UR sig nD τ) ℕ cfg2 c)
    (hq0 : dat.q 0 = fullShare) (hq1 : dat.q 1 = fullShare.left) (hq2 : dat.q 2 = fullShare.right) (hq3 : dat.q 3 = fullShare)
    (hq4 : dat.q 4 = fullShare) (hq5 : dat.q 5 = fullShare)
    (G : (w : Fin cfg2.W) → Buf (Elt F) ((cfg2.win w).arr.view.loc (c : Thread nD τ))) :
    (dat.arrays G : sProp 𝕄)
      = iprop((((c : Thread nD τ).loc main_arg1) ↦{fullShare} G 0)
          ∗ (((c : Thread nD τ).loc main_v2_0) ↦{fullShare.left} G 1) ∗ (((c : Thread nD τ).loc main_v2_0) ↦{fullShare.right} G 2)
          ∗ (((c : Thread nD τ).loc main_v2_1) ↦{fullShare} G 3) ∗ (((c : Thread nD τ).loc main_arg5) ↦{fullShare} G 4)
          ∗ (((c : Thread nD τ).loc main_v3) ↦{fullShare} G 5) ∗ (((c : Thread nD τ).loc main_v4) ↦{fullShare} G 6)) := by
  unfold Dat.arrays
  rw [bigSep_W2]
  rw [(arr_whole2 0).set_eq_univ, (arr_whole2 1).set_eq_univ, (arr_whole2 3).set_eq_univ,
    (arr_whole2 4).set_eq_univ, (arr_whole2 5).set_eq_univ, (arr_whole2 6).set_eq_univ]
  rw [show dat.share 0 = fullShare from hq0, show dat.share 1 = fullShare.left from hq1, show dat.share 2 = fullShare.right from hq2,
    show dat.share 3 = fullShare from hq3, show dat.share 4 = fullShare from hq4, show dat.share 5 = fullShare from hq5,
    show dat.share 6 = fullShare from rfl]

/-- ENTRY of region 2, the arrays' part: the buffer behind windows 1 and 2 is dealt to them in halves. -/
theorem arrays_of_unscopedBufs2 (dat : Dat τ (Elt F) Unit ℕ (UR sig nD τ) ℕ cfg2 c)
    (hq0 : dat.q 0 = fullShare) (hq1 : dat.q 1 = fullShare.left) (hq2 : dat.q 2 = fullShare.right) (hq3 : dat.q 3 = fullShare)
    (hq4 : dat.q 4 = fullShare) (hq5 : dat.q 5 = fullShare)
    (V : (b : Ref sig .tc) → Buf (Elt F) ((c : Thread nD τ).loc b)) (hA : ∀ w, dat.A w = V (Pipeline.arrRef spec2 w)) :
    (unscopedBufs c V : sProp 𝕄) ⊢ iprop(dat.arrays (dat.arrAt · 0) ∗ Pipeline.unscopedRest spec2 c V) := by
  rw [Pipeline.unscopedBufs_split₀ cfgs 2 winFacts₀2.arr_unscoped c V]
  refine sep_mono ?_ .rfl
  rw [show Pipeline.arrBufs (cfgs 2).spec c V = Pipeline.arrBufs spec2 c V from rfl, arrBufs2_eq, arrays2_eq dat hq0 hq1 hq2 hq3 hq4 hq5]
  simp only [show ∀ w, dat.arrAt w 0 = dat.A w from fun _ => rfl, hA]
  iintro ⟨H0, H1, H3, H4, H5, H6⟩
  isplitl [H0]; · iexact H0
  ihave H := (pointsTo_share (PosShare.mem_left_op_right fullShare)).1 $$ H1
  icases H with ⟨Hl, Hr⟩
  isplitl [Hl]; · iexact Hl
  isplitl [Hr]; · iexact Hr
  isplitl [H3]; · iexact H3
  isplitl [H4]; · iexact H4
  isplitl [H5]; · iexact H5
  iexact H6

/-- EXIT of region 2, the arrays' part: the two halves of the shared input, still at the entry contents, make its
    buffer whole again. -/
theorem unscopedBufs_of_arrays2 (dat : Dat τ (Elt F) Unit ℕ (UR sig nD τ) ℕ cfg2 c)
    (hq0 : dat.q 0 = fullShare) (hq1 : dat.q 1 = fullShare.left) (hq2 : dat.q 2 = fullShare.right) (hq3 : dat.q 3 = fullShare)
    (hq4 : dat.q 4 = fullShare) (hq5 : dat.q 5 = fullShare)
    (V V' : (b : Ref sig .tc) → Buf (Elt F) ((c : Thread nD τ).loc b))
    (hF : ∀ w, dat.arrAt w cfg2.N = V' (Pipeline.arrRef spec2 w))
    (hrest : ∀ b, b ∉ Finset.univ.image (Pipeline.arrRef spec2) → V' b = V b) :
    iprop(dat.arrays (dat.arrAt · cfg2.N) ∗ Pipeline.unscopedRest spec2 c V) ⊢ (unscopedBufs c V' : sProp 𝕄) := by
  rw [Pipeline.unscopedBufs_split₀ cfgs 2 winFacts₀2.arr_unscoped c V']
  refine sep_mono ?_ (Entails.of_eq ?_)
  · rw [show Pipeline.arrBufs (cfgs 2).spec c V' = Pipeline.arrBufs spec2 c V' from rfl, arrBufs2_eq, arrays2_eq dat hq0 hq1 hq2 hq3 hq4 hq5]
    simp only [hF]
    iintro ⟨H0, Hl, Hr, H3, H4, H5, H6⟩
    isplitl [H0]; · iexact H0
    isplitl [Hl Hr]
    · iapply (pointsTo_share (PosShare.mem_left_op_right fullShare)).2
      isplitl [Hl]; · iexact Hl
      iexact Hr
    isplitl [H3]; · iexact H3
    isplitl [H4]; · iexact H4
    isplitl [H5]; · iexact H5
    iexact H6
  · show Pipeline.unscopedRest spec2 c V = Pipeline.unscopedRest spec2 c V'
    unfold Pipeline.unscopedRest
    exact bigSep_congr fun b hb => by rw [hrest b (Finset.mem_sdiff.mp hb).2]

end Shared2

section Owes

variable {cfg : Cfg sig Λ₀} {c : Dev nD}

/-- A core owing nothing, its recorded pairs unconstrained, is what a pipeline that owes nothing at its first point and
    bounds nothing there is entered with. -/
theorem owesAt_zero_of (dat : Dat τ (Elt F) Unit ℕ (UR sig nD τ) ℕ cfg c) (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [ho, hr]
  iintro ⟨%W, HO⟩; iexists W; isplitr; · ipureintro; exact fun _ _ => Or.inl trivial
  iexact HO

/-- A pipeline that owes nothing after its last point leaves the core owing nothing. -/
theorem owes_of_owesAt_last (dat : Dat τ (Elt F) Unit ℕ (UR sig nD τ) ℕ cfg c) (ho : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

end Owes

/-! # What the run needs of a region's half -/

/-- Region 0's half (class A): the arrays read off the entry contents, full shares, nothing owed or bounded, the body
    obligation, the invariant into and out of the class-A one. -/
structure Half0 (dat0 : VT F → (c : Dev nD) → Dat τ (Elt F) Unit ℕ (UR sig nD τ) ℕ cfg0 c) : Prop where
  A_eq : ∀ (V : VT F) (c : Dev nD) (w : Fin cfg0.W), (dat0 V c).A w = V c (Pipeline.arrRef spec0 w)
  hq : ∀ (V : VT F) (c : Dev nD) (w : Fin cfg0.W), (dat0 V c).q w = fullShare
  howed : ∀ (V : VT F) (c : Dev nD) (t : Fin (cfg0.N + 1)), (dat0 V c).owed t = 0
  hrec : ∀ (V : VT F) (c : Dev nD), (dat0 V c).recorded 0 = Set.univ
  hbody : ∀ (V : VT F) (c : Dev nD), BodyObligation (dat0 V c) (defs₀ (F := F)) Variants.none () Set.univ
  hin : ∀ (V : VT F) (c : Dev nD), (Pipeline.ΦA spec0 c : sProp 𝕄) ⊢ (dat0 V c).Φ 0
  hout : ∀ (V : VT F) (c : Dev nD), (dat0 V c).Φ (Fin.last cfg0.N) ⊢ (Pipeline.ΦA spec0 c : sProp 𝕄)

/-- Region 1's half (class R): windows 2 and 3 hold their common array in halves. -/
structure Half1 (dat1 : VT F → (c : Dev nD) → Dat τ (Elt F) Unit ℕ (UR sig nD τ) ℕ cfg1 c) : Prop where
  A_eq : ∀ (V : VT F) (c : Dev nD) (w : Fin cfg1.W), (dat1 V c).A w = V c (Pipeline.arrRef spec1 w)
  hq0 : ∀ (V : VT F) (c : Dev nD), (dat1 V c).q 0 = fullShare
  hq1 : ∀ (V : VT F) (c : Dev nD), (dat1 V c).q 1 = fullShare
  hq2 : ∀ (V : VT F) (c : Dev nD), (dat1 V c).q 2 = fullShare.left
  hq3 : ∀ (V : VT F) (c : Dev nD), (dat1 V c).q 3 = fullShare.right
  howed : ∀ (V : VT F) (c : Dev nD) (t : Fin (cfg1.N + 1)), (dat1 V c).owed t = 0
  hrec : ∀ (V : VT F) (c : Dev nD), (dat1 V c).recorded 0 = Set.univ
  hbody : ∀ (V : VT F) (c : Dev nD), BodyObligation (dat1 V c) (defs₀ (F := F)) Variants.none () Set.univ
  hin : ∀ (V : VT F) (c : Dev nD), (Pipeline.ΦA spec1 c : sProp 𝕄) ⊢ (dat1 V c).Φ 0
  hout : ∀ (V : VT F) (c : Dev nD), (dat1 V c).Φ (Fin.last cfg1.N) ⊢ (Pipeline.ΦA spec1 c : sProp 𝕄)

/-- Region 2's half (class R): windows 1 and 2 hold their common array in halves. -/
structure Half2 (dat2 : VT F → (c : Dev nD) → Dat τ (Elt F) Unit ℕ (UR sig nD τ) ℕ cfg2 c) : Prop where
  A_eq : ∀ (V : VT F) (c : Dev nD) (w : Fin cfg2.W), (dat2 V c).A w = V c (Pipeline.arrRef spec2 w)
  hq0 : ∀ (V : VT F) (c : Dev nD), (dat2 V c).q 0 = fullShare
  hq1 : ∀ (V : VT F) (c : Dev nD), (dat2 V c).q 1 = fullShare.left
  hq2 : ∀ (V : VT F) (c : Dev nD), (dat2 V c).q 2 = fullShare.right
  hq3 : ∀ (V : VT F) (c : Dev nD), (dat2 V c).q 3 = fullShare
  hq4 : ∀ (V : VT F) (c : Dev nD), (dat2 V c).q 4 = fullShare
  hq5 : ∀ (V : VT F) (c : Dev nD), (dat2 V c).q 5 = fullShare
  howed : ∀ (V : VT F) (c : Dev nD) (t : Fin (cfg2.N + 1)), (dat2 V c).owed t = 0
  hrec : ∀ (V : VT F) (c : Dev nD), (dat2 V c).recorded 0 = Set.univ
  hbody : ∀ (V : VT F) (c : Dev nD), BodyObligation (dat2 V c) (defs₀ (F := F)) Variants.none () Set.univ
  hin : ∀ (V : VT F) (c : Dev nD), (Pipeline.ΦA spec2 c : sProp 𝕄) ⊢ (dat2 V c).Φ 0
  hout : ∀ (V : VT F) (c : Dev nD), (dat2 V c).Φ (Fin.last cfg2.N) ⊢ (Pipeline.ΦA spec2 c : sProp 𝕄)
section Run

/-! # The three regions' halves, abstractly: the proof data at a parameter and what the run needs of them -/

variable (dat0 : VT F → (c : Dev nD) → Dat τ (Elt F) Unit ℕ (UR sig nD τ) ℕ cfg0 c)
variable (dat1 : VT F → (c : Dev nD) → Dat τ (Elt F) Unit ℕ (UR sig nD τ) ℕ cfg1 c)
variable (dat2 : VT F → (c : Dev nD) → Dat τ (Elt F) Unit ℕ (UR sig nD τ) ℕ cfg2 c)

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
abbrev V1 : VT F := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 dat0 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m ρ c (Proc.devRef .tc b) = W1 m ρ c (Proc.devRef .tc b) := by
  unfold W2; exact Pipeline.withArrays_of_ne spec0 c _ _ b hb
abbrev V2 : VT F := fun c b => W2 dat0 m ρ c b
theorem hF0 (c : Dev nD) (w : Fin cfg0.W) : (dat0 (V1 m ρ) c).arrAt w cfg0.N = V2 dat0 m ρ c (Pipeline.arrRef spec0 w) :=
  (W2_arr dat0 m ρ c w).symm
theorem hrest0 (c : Dev nD) : ∀ b, b ∉ Finset.univ.image (Pipeline.arrRef spec0) → V2 dat0 m ρ c b = V1 m ρ c b :=
  fun b hb => W2_of_ne dat0 m ρ c b fun w e => hb (Finset.mem_image.mpr ⟨w, Finset.mem_univ _, e⟩)

/-- At region 1's exit: its two output arrays at what the pipeline's write-backs leave, every other buffer as entered. -/
def W3 (c : Dev nD) : Valuation τ sig (Elt F) :=
  Function.update (Function.update (W2 dat0 m ρ c) (Proc.devRef .tc main_v2_0) ((dat1 (V2 dat0 m ρ) c).arrAt 4 cfg1.N))
    (Proc.devRef .tc main_v2_1) ((dat1 (V2 dat0 m ρ) c).arrAt 5 cfg1.N)
abbrev V3 : VT F := fun c b => W3 dat0 dat1 m ρ c b
/-- After `hostOps2` (region 2's entry). -/
abbrev W4 : Dev nD → Valuation τ sig (Elt F) := fun c => StableHlo.after hostOps2 (W3 dat0 dat1 m ρ c)
abbrev V4 : VT F := fun c b => W4 dat0 dat1 m ρ c b
/-- At region 2's exit. -/
def W5 (c : Dev nD) : Valuation τ sig (Elt F) :=
  Function.update (W4 dat0 dat1 m ρ c) (Proc.devRef .tc main_v4) ((dat2 (V4 dat0 dat1 m ρ) c).arrAt 6 cfg2.N)
abbrev V5 : VT F := fun c b => W5 dat0 dat1 dat2 m ρ c b

/-! ## What each segment leaves unchanged -/

theorem W1_of (c : Dev nD) (b : Ref sig .tc) (h : b ∉ hostOps0_W) : W1 m ρ c (Proc.devRef .tc b) = W0 m ρ c (Proc.devRef .tc b) :=
  StableHlo.after_of_writes_sub hostOps0 _ hostOps0_writes h
theorem W3_of_ne (c : Dev nD) (b : Ref sig .tc) (h0 : b ≠ main_v2_0) (h1 : b ≠ main_v2_1) :
    W3 dat0 dat1 m ρ c (Proc.devRef .tc b) = W2 dat0 m ρ c (Proc.devRef .tc b) := by
  unfold W3
  rw [Function.update_of_ne (StableHlo.devRef_ne_of_ne h1), Function.update_of_ne (StableHlo.devRef_ne_of_ne h0)]
theorem W3_main_v2_0 (c : Dev nD) : W3 dat0 dat1 m ρ c (Proc.devRef .tc main_v2_0) = (dat1 (V2 dat0 m ρ) c).arrAt 4 cfg1.N := by
  unfold W3
  rw [Function.update_of_ne (StableHlo.devRef_ne_of_ne (by decide)), Function.update_self]
theorem W3_main_v2_1 (c : Dev nD) : W3 dat0 dat1 m ρ c (Proc.devRef .tc main_v2_1) = (dat1 (V2 dat0 m ρ) c).arrAt 5 cfg1.N := by
  unfold W3
  rw [Function.update_self]
theorem W4_of (c : Dev nD) (b : Ref sig .tc) (h : b ∉ hostOps2_W) :
    W4 dat0 dat1 m ρ c (Proc.devRef .tc b) = W3 dat0 dat1 m ρ c (Proc.devRef .tc b) :=
  StableHlo.after_of_writes_sub hostOps2 _ hostOps2_writes h
theorem W5_of_ne (c : Dev nD) (b : Ref sig .tc) (h : b ≠ main_v4) :
    W5 dat0 dat1 dat2 m ρ c (Proc.devRef .tc b) = W4 dat0 dat1 m ρ c (Proc.devRef .tc b) := by
  unfold W5
  rw [Function.update_of_ne (StableHlo.devRef_ne_of_ne h)]
/-- The result array at the end: what region 2's write-backs leave. -/
theorem W5_main_v4 (c : Dev nD) : W5 dat0 dat1 dat2 m ρ c (Proc.devRef .tc main_v4) = (dat2 (V4 dat0 dat1 m ρ) c).arrAt 6 cfg2.N := by
  unfold W5
  rw [Function.update_self]

variable (h0 : Half0 dat0) (h1 : Half1 dat1) (h2 : Half2 dat2)

include h0 in
/-- An input array of region 0 leaves it as it entered. -/
theorem W2_in (c : Dev nD) (w : Fin cfg0.W) (hw : (cfg0.win w).isOut = false) :
    W2 dat0 m ρ c (Proc.devRef .tc (Pipeline.arrRef spec0 w)) = W1 m ρ c (Proc.devRef .tc (Pipeline.arrRef spec0 w)) :=
  (W2_arr dat0 m ρ c w).trans (((dat0 (V1 m ρ) c).arrAt_in w hw _).trans (h0.A_eq (V1 m ρ) c w))

/-! ### The arguments end as launched -/

include h0 in
theorem W5_main_arg0 (c : Dev nD) : W5 dat0 dat1 dat2 m ρ c (Proc.devRef .tc main_arg0) = m ((c : Thread nD τ).loc main_arg0) :=
  (W5_of_ne dat0 dat1 dat2 m ρ c main_arg0 (by decide)).trans <| (W4_of dat0 dat1 m ρ c main_arg0 (by decide)).trans <|
    (W3_of_ne dat0 dat1 m ρ c main_arg0 (by decide) (by decide)).trans <| (W2_in dat0 m ρ h0 c 0 rfl).trans <|
    (W1_of m ρ c main_arg0 (by decide)).trans rfl
theorem W5_main_arg1 (c : Dev nD) : W5 dat0 dat1 dat2 m ρ c (Proc.devRef .tc main_arg1) = m ((c : Thread nD τ).loc main_arg1) :=
  (W5_of_ne dat0 dat1 dat2 m ρ c main_arg1 (by decide)).trans <| (W4_of dat0 dat1 m ρ c main_arg1 (by decide)).trans <|
    (W3_of_ne dat0 dat1 m ρ c main_arg1 (by decide) (by decide)).trans <| (W2_of_ne dat0 m ρ c main_arg1 (by decide)).trans <|
    (W1_of m ρ c main_arg1 (by decide)).trans rfl
theorem W5_main_arg2 (c : Dev nD) : W5 dat0 dat1 dat2 m ρ c (Proc.devRef .tc main_arg2) = m ((c : Thread nD τ).loc main_arg2) :=
  (W5_of_ne dat0 dat1 dat2 m ρ c main_arg2 (by decide)).trans <| (W4_of dat0 dat1 m ρ c main_arg2 (by decide)).trans <|
    (W3_of_ne dat0 dat1 m ρ c main_arg2 (by decide) (by decide)).trans <| (W2_of_ne dat0 m ρ c main_arg2 (by decide)).trans <|
    (W1_of m ρ c main_arg2 (by decide)).trans rfl
include h0 in
theorem W5_main_arg3 (c : Dev nD) : W5 dat0 dat1 dat2 m ρ c (Proc.devRef .tc main_arg3) = m ((c : Thread nD τ).loc main_arg3) :=
  (W5_of_ne dat0 dat1 dat2 m ρ c main_arg3 (by decide)).trans <| (W4_of dat0 dat1 m ρ c main_arg3 (by decide)).trans <|
    (W3_of_ne dat0 dat1 m ρ c main_arg3 (by decide) (by decide)).trans <| (W2_in dat0 m ρ h0 c 1 rfl).trans <|
    (W1_of m ρ c main_arg3 (by decide)).trans rfl
theorem W5_main_arg4 (c : Dev nD) : W5 dat0 dat1 dat2 m ρ c (Proc.devRef .tc main_arg4) = m ((c : Thread nD τ).loc main_arg4) :=
  (W5_of_ne dat0 dat1 dat2 m ρ c main_arg4 (by decide)).trans <| (W4_of dat0 dat1 m ρ c main_arg4 (by decide)).trans <|
    (W3_of_ne dat0 dat1 m ρ c main_arg4 (by decide) (by decide)).trans <| (W2_of_ne dat0 m ρ c main_arg4 (by decide)).trans <|
    (W1_of m ρ c main_arg4 (by decide)).trans rfl
theorem W5_main_arg5 (c : Dev nD) : W5 dat0 dat1 dat2 m ρ c (Proc.devRef .tc main_arg5) = m ((c : Thread nD τ).loc main_arg5) :=
  (W5_of_ne dat0 dat1 dat2 m ρ c main_arg5 (by decide)).trans <| (W4_of dat0 dat1 m ρ c main_arg5 (by decide)).trans <|
    (W3_of_ne dat0 dat1 m ρ c main_arg5 (by decide) (by decide)).trans <| (W2_of_ne dat0 m ρ c main_arg5 (by decide)).trans <|
    (W1_of m ρ c main_arg5 (by decide)).trans rfl
theorem W5_main_arg6 (c : Dev nD) : W5 dat0 dat1 dat2 m ρ c (Proc.devRef .tc main_arg6) = m ((c : Thread nD τ).loc main_arg6) :=
  (W5_of_ne dat0 dat1 dat2 m ρ c main_arg6 (by decide)).trans <| (W4_of dat0 dat1 m ρ c main_arg6 (by decide)).trans <|
    (W3_of_ne dat0 dat1 m ρ c main_arg6 (by decide) (by decide)).trans <| (W2_of_ne dat0 m ρ c main_arg6 (by decide)).trans <|
    (W1_of m ρ c main_arg6 (by decide)).trans rfl

/-! ## The proof data family and the thread state -/

/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 dat0 m ρ) c
  | ⟨2, _⟩ => fun c => dat2 (V4 dat0 dat1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W5`, the generator
    register at some state. -/
abbrev Tₙ (c : Dev nD) : sProp 𝕄 :=
  iprop(StableHlo.held (c : Thread nD τ) (Pipeline.ucRefs τ sig) (W5 dat0 dat1 dat2 m ρ c) ∗ ∃ r, prngReg c r)

/-! ### The exits' two hypotheses for regions 1 and 2 -/

include h1 in
/-- At region 1's exit each of its arrays holds what the pipeline leaves: an input as entered, an output its write-backs. -/
theorem hF1 (c : Dev nD) (w : Fin cfg1.W) : (dat1 (V2 dat0 m ρ) c).arrAt w cfg1.N = V3 dat0 dat1 m ρ c (Pipeline.arrRef spec1 w) := by
  have hin : ∀ w : Fin cfg1.W, (cfg1.win w).isOut = false → Pipeline.arrRef spec1 w ≠ main_v2_0 → Pipeline.arrRef spec1 w ≠ main_v2_1 →
      (dat1 (V2 dat0 m ρ) c).arrAt w cfg1.N = V3 dat0 dat1 m ρ c (Pipeline.arrRef spec1 w) := fun w hw e0 e1 =>
    (((dat1 (V2 dat0 m ρ) c).arrAt_in w hw _).trans (h1.A_eq (V2 dat0 m ρ) c w)).trans (W3_of_ne dat0 dat1 m ρ c _ e0 e1).symm
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact (W3_main_v2_0 dat0 dat1 m ρ c).symm
  | ⟨5, _⟩ => exact (W3_main_v2_1 dat0 dat1 m ρ c).symm
theorem hrest1 (c : Dev nD) : ∀ b, b ∉ Finset.univ.image (Pipeline.arrRef spec1) → V3 dat0 dat1 m ρ c b = V2 dat0 m ρ c b :=
  fun b hb => W3_of_ne dat0 dat1 m ρ c b
    (fun e => hb (Finset.mem_image.mpr ⟨4, Finset.mem_univ _, e.symm⟩)) (fun e => hb (Finset.mem_image.mpr ⟨5, Finset.mem_univ _, e.symm⟩))

include h2 in
/-- At region 2's exit likewise. -/
theorem hF2 (c : Dev nD) (w : Fin cfg2.W) :
    (dat2 (V4 dat0 dat1 m ρ) c).arrAt w cfg2.N = V5 dat0 dat1 dat2 m ρ c (Pipeline.arrRef spec2 w) := by
  have hin : ∀ w : Fin cfg2.W, (cfg2.win w).isOut = false → Pipeline.arrRef spec2 w ≠ main_v4 →
      (dat2 (V4 dat0 dat1 m ρ) c).arrAt w cfg2.N = V5 dat0 dat1 dat2 m ρ c (Pipeline.arrRef spec2 w) := fun w hw e =>
    (((dat2 (V4 dat0 dat1 m ρ) c).arrAt_in w hw _).trans (h2.A_eq (V4 dat0 dat1 m ρ) c w)).trans (W5_of_ne dat0 dat1 dat2 m ρ c _ e).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact (W5_main_v4 dat0 dat1 dat2 m ρ c).symm
theorem hrest2 (c : Dev nD) : ∀ b, b ∉ Finset.univ.image (Pipeline.arrRef spec2) → V5 dat0 dat1 dat2 m ρ c b = V4 dat0 dat1 m ρ c b :=
  fun b hb => W5_of_ne dat0 dat1 dat2 m ρ c b (fun e => hb (Finset.mem_image.mpr ⟨6, Finset.mem_univ _, e.symm⟩))

/-! ## The regions as segments -/

/-- The class-A invariant from what a region segment hands its invariant's entry. -/
theorem ΦA_of_entry {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp
/-- and what it gives back at the exit. -/
theorem exit_of_ΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

set_option backward.isDefEq.respectTransparency.types false in
/-- REGION 0 (custom_call 0) over the thread state: entered from every unscoped buffer at `W1`, left at `W2`. -/
def reg0 : Pipeline.RegionSeg (pcfgs (F := F)) adm (pdats dat0 dat1 dat2 m ρ) () defs₀ 𝒱₀ L lv 0 where
  win := launch0.win.to₀
  block_pos := launch0.block_pos
  stage_whole := launch0.stage_whole
  K := PEmpty
  osem k := k.elim
  ho := Pipeline.OwnSemFacts.none _
  hbody c := (h0.hbody (V1 m ρ) c).loose
  hwaits := Pipeline.hwaits_of_owed_zero _ _ _ _ L lv 0 fun c t => h0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 dat0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats dat0 dat1 dat2 m ρ) launch0.win launch0.arr_whole c
      ((pdats dat0 dat1 dat2 m ρ 0 c).share_full fun w => h0.hq (V1 m ρ) c w) (V1 m ρ c) fun w => h0.A_eq (V1 m ρ) c w
    rw [Pipeline.unscopedBufs_held] at hsplit
    have hO := owesAt_zero_of (pdats dat0 dat1 dat2 m ρ 0 c) (h0.howed (V1 m ρ) c 0) (h0.hrec (V1 m ρ) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := (ΦA_of_entry spec0 c _).trans (h0.hin (V1 m ρ) c)
  hout c := by
    rw [Pipeline.ownSems0_none]
    exact (h0.hout (V1 m ρ) c).trans (exit_of_ΦA spec0 c)
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 m ρ) ((pdats dat0 dat1 dat2 m ρ 0 c).share_full fun w => h0.hq (V1 m ρ) c w)
      (V1 m ρ c) (V2 dat0 m ρ c) ((pdats dat0 dat1 dat2 m ρ 0 c).arrAt · cfg0.N) (hF0 dat0 m ρ c) (hrest0 dat0 m ρ c)
    rw [Pipeline.unscopedBufs_held] at hjoin
    have hO := owes_of_owesAt_last (pdats dat0 dat1 dat2 m ρ 0 c) (h0.howed (V1 m ρ) c _)
    iintro ⟨Ha, HO, HY, Hrest⟩
    imodintro
    isplitl [Ha Hrest]
    · iapply hjoin; isplitl [Ha] <;> iassumption
    isplitl [HY]; · iexact HY
    iapply hO; iexact HO

set_option backward.isDefEq.respectTransparency.types false in
/-- REGION 1 (custom_call 1) over the thread state: entered from every unscoped buffer at `W2`, left at `W3`. Windows 2
    and 3 share `main_v1`: its buffer is dealt to them in halves at the entry and made whole again at the exit. -/
def reg1 : Pipeline.RegionSeg (pcfgs (F := F)) adm (pdats dat0 dat1 dat2 m ρ) () defs₀ 𝒱₀ L lv 1 where
  win := winFacts₀1
  block_pos := block_pos1
  stage_whole := stage_whole1
  K := PEmpty
  osem k := k.elim
  ho := Pipeline.OwnSemFacts.none _
  hbody c := (h1.hbody (V2 dat0 m ρ) c).loose
  hwaits := Pipeline.hwaits_of_owed_zero _ _ _ _ L lv 1 fun c t => h1.howed (V2 dat0 m ρ) c t
  pre c := iprop(StableHlo.held (c : Thread nD τ) (Pipeline.ucRefs τ sig) (W2 dat0 m ρ c) ∗ R c)
  post c := iprop(StableHlo.held (c : Thread nD τ) (Pipeline.ucRefs τ sig) (W3 dat0 dat1 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 dat0 m ρ c)
  hentry c := by
    rw [Pipeline.ownSems0_none]
    have hsplit : (unscopedBufs c (V2 dat0 m ρ c) : sProp 𝕄) ⊢ iprop((pdats dat0 dat1 dat2 m ρ 1 c).arrays ((pdats dat0 dat1 dat2 m ρ 1 c).arrAt · 0)
        ∗ Pipeline.unscopedRest spec1 c (V2 dat0 m ρ c)) :=
      arrays_of_unscopedBufs1 (dat1 (V2 dat0 m ρ) c) (h1.hq0 _ c) (h1.hq1 _ c) (h1.hq2 _ c) (h1.hq3 _ c) (V2 dat0 m ρ c) fun w => h1.A_eq (V2 dat0 m ρ) c w
    rw [Pipeline.unscopedBufs_held] at hsplit
    have hO := owesAt_zero_of (pdats dat0 dat1 dat2 m ρ 1 c) (h1.howed (V2 dat0 m ρ) c 0) (h1.hrec (V2 dat0 m ρ) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := (ΦA_of_entry spec1 c _).trans (h1.hin (V2 dat0 m ρ) c)
  hout c := by
    rw [Pipeline.ownSems0_none]
    exact (h1.hout (V2 dat0 m ρ) c).trans (exit_of_ΦA spec1 c)
  hexit c := by
    have hjoin : iprop((pdats dat0 dat1 dat2 m ρ 1 c).arrays ((pdats dat0 dat1 dat2 m ρ 1 c).arrAt · cfg1.N)
        ∗ Pipeline.unscopedRest spec1 c (V2 dat0 m ρ c)) ⊢ (unscopedBufs c (V3 dat0 dat1 m ρ c) : sProp 𝕄) :=
      unscopedBufs_of_arrays1 (dat1 (V2 dat0 m ρ) c) (h1.hq0 _ c) (h1.hq1 _ c) (h1.hq2 _ c) (h1.hq3 _ c) (V2 dat0 m ρ c) (V3 dat0 dat1 m ρ c)
        (hF1 dat0 dat1 m ρ h1 c) (hrest1 dat0 dat1 m ρ c)
    rw [Pipeline.unscopedBufs_held] at hjoin
    have hO := owes_of_owesAt_last (pdats dat0 dat1 dat2 m ρ 1 c) (h1.howed (V2 dat0 m ρ) c _)
    iintro ⟨Ha, HO, HY, Hrest⟩
    imodintro
    isplitl [Ha Hrest]
    · iapply hjoin; isplitl [Ha] <;> iassumption
    isplitl [HY]; · iexact HY
    iapply hO; iexact HO

set_option backward.isDefEq.respectTransparency.types false in
/-- REGION 2 (custom_call 2) over the thread state: entered from every unscoped buffer at `W4`, left at `W5` (what the
    launch reads at the end). Windows 1 and 2 share `main_v2_0`. -/
def reg2 : Pipeline.RegionSeg (pcfgs (F := F)) adm (pdats dat0 dat1 dat2 m ρ) () defs₀ 𝒱₀ L lv 2 where
  win := winFacts₀2
  block_pos := block_pos2
  stage_whole := stage_whole2
  K := PEmpty
  osem k := k.elim
  ho := Pipeline.OwnSemFacts.none _
  hbody c := (h2.hbody (V4 dat0 dat1 m ρ) c).loose
  hwaits := Pipeline.hwaits_of_owed_zero _ _ _ _ L lv 2 fun c t => h2.howed (V4 dat0 dat1 m ρ) c t
  pre c := iprop(StableHlo.held (c : Thread nD τ) (Pipeline.ucRefs τ sig) (W4 dat0 dat1 m ρ c) ∗ R c)
  post c := iprop(Tₙ dat0 dat1 dat2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 dat0 dat1 m ρ c)
  hentry c := by
    rw [Pipeline.ownSems0_none]
    have hsplit : (unscopedBufs c (V4 dat0 dat1 m ρ c) : sProp 𝕄) ⊢ iprop((pdats dat0 dat1 dat2 m ρ 2 c).arrays ((pdats dat0 dat1 dat2 m ρ 2 c).arrAt · 0)
        ∗ Pipeline.unscopedRest spec2 c (V4 dat0 dat1 m ρ c)) :=
      arrays_of_unscopedBufs2 (dat2 (V4 dat0 dat1 m ρ) c) (h2.hq0 _ c) (h2.hq1 _ c) (h2.hq2 _ c) (h2.hq3 _ c) (h2.hq4 _ c) (h2.hq5 _ c)
        (V4 dat0 dat1 m ρ c) fun w => h2.A_eq (V4 dat0 dat1 m ρ) c w
    rw [Pipeline.unscopedBufs_held] at hsplit
    have hO := owesAt_zero_of (pdats dat0 dat1 dat2 m ρ 2 c) (h2.howed (V4 dat0 dat1 m ρ) c 0) (h2.hrec (V4 dat0 dat1 m ρ) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := (ΦA_of_entry spec2 c _).trans (h2.hin (V4 dat0 dat1 m ρ) c)
  hout c := by
    rw [Pipeline.ownSems0_none]
    exact (h2.hout (V4 dat0 dat1 m ρ) c).trans (exit_of_ΦA spec2 c)
  hexit c := by
    have hjoin : iprop((pdats dat0 dat1 dat2 m ρ 2 c).arrays ((pdats dat0 dat1 dat2 m ρ 2 c).arrAt · cfg2.N)
        ∗ Pipeline.unscopedRest spec2 c (V4 dat0 dat1 m ρ c)) ⊢ (unscopedBufs c (V5 dat0 dat1 dat2 m ρ c) : sProp 𝕄) :=
      unscopedBufs_of_arrays2 (dat2 (V4 dat0 dat1 m ρ) c) (h2.hq0 _ c) (h2.hq1 _ c) (h2.hq2 _ c) (h2.hq3 _ c) (h2.hq4 _ c) (h2.hq5 _ c)
        (V4 dat0 dat1 m ρ c) (V5 dat0 dat1 dat2 m ρ c) (hF2 dat0 dat1 dat2 m ρ h2 c) (hrest2 dat0 dat1 dat2 m ρ c)
    rw [Pipeline.unscopedBufs_held] at hjoin
    have hO := owes_of_owesAt_last (pdats dat0 dat1 dat2 m ρ 2 c) (h2.howed (V4 dat0 dat1 m ρ) c _)
    iintro ⟨Ha, HO, HY, Hrest⟩
    imodintro
    isplitl [Ha Hrest HY]
    · isplitl [Ha Hrest]
      · iapply hjoin; isplitl [Ha] <;> iassumption
      iexact HY
    iapply hO; iexact HO

/-! ## @main as segments, and the launch -/

/-- @main's 5 segments in order: a host segment per stretch from its boundary's contents, a region per pallas_call. -/
abbrev segs : List (Pipeline.Seg (pcfgs (F := F)) adm (pdats dat0 dat1 dat2 m ρ) () defs₀ 𝒱₀ L lv) :=
  [ .host (hseg hostOps0 hostOps0_sub hostOps0_fresh (W0 m ρ)),
    .region (reg0 dat0 dat1 dat2 m ρ h0),
    .region (reg1 dat0 dat1 dat2 m ρ h1),
    .host (hseg hostOps2 hostOps2_sub hostOps2_fresh (W3 dat0 dat1 m ρ)),
    .region (reg2 dat0 dat1 dat2 m ρ h2) ]
/-- @main IS the run of the segments: `Gen.main_chain`, then the segments' run against that chain by the kernel's
    definitional check (`chain_rfl`). -/
theorem main_run (c : Dev nD) : main (F := F) c = Pipeline.Seg.run (segs dat0 dat1 dat2 m ρ h0 h1 h2) :=
  (main_chain c).trans (by chain_rfl)

include h0 h1 h2 in
set_option backward.isDefEq.respectTransparency.types false in
/-- THE RUN: at the compiled mesh, from any memory with zero counters, every weakly fair execution of @main on the
    TensorCores terminates, nothing faulting, and every final state has every unscoped buffer of every core at the last
    boundary's contents `W5`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 dat0 dat1 dat2 m ρ c b) :=
  Pipeline.θ_run_regions_kit (pcfgs (F := F)) adm (pdats dat0 dat1 dat2 m ρ) () cellOf_inj emb₁ defs₀ 𝒱₀ L lv m ρ main (segs dat0 dat1 dat2 m ρ h0 h1 h2)
    (fun c Q => by rw [main_run dat0 dat1 dat2 m ρ h0 h1 h2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ dat0 dat1 dat2 m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 dat1 dat2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 dat1 dat2 m ρ c) s')
      isplitl [Hh] <;> iassumption)
    (hQ := fun s h c => h c)

/-! ## The entry contents read back: what each region finds in the buffers its windows read -/

/-- Region 0's inputs `main_arg0`, `main_arg3` as launched; `main_v0` is what `hostOps0` leaves. -/
theorem V1_main_arg0 (c : Dev nD) : V1 m ρ c main_arg0 = m ((c : Thread nD τ).loc main_arg0) :=
  (W1_of m ρ c main_arg0 (by decide)).trans rfl
theorem V1_main_arg3 (c : Dev nD) : V1 m ρ c main_arg3 = m ((c : Thread nD τ).loc main_arg3) :=
  (W1_of m ρ c main_arg3 (by decide)).trans rfl
theorem V1_main_v0 (c : Dev nD) : V1 m ρ c main_v0 = StableHlo.after hostOps0 (W0 m ρ c) (Proc.devRef .tc main_v0) := rfl

/-- Region 1's inputs: `main_arg1`, `main_arg2` as launched, `main_v1` what region 0's write-backs leave. -/
theorem V2_main_arg1 (c : Dev nD) : V2 dat0 m ρ c main_arg1 = m ((c : Thread nD τ).loc main_arg1) :=
  (W2_of_ne dat0 m ρ c main_arg1 (by decide)).trans <| (W1_of m ρ c main_arg1 (by decide)).trans rfl
theorem V2_main_arg2 (c : Dev nD) : V2 dat0 m ρ c main_arg2 = m ((c : Thread nD τ).loc main_arg2) :=
  (W2_of_ne dat0 m ρ c main_arg2 (by decide)).trans <| (W1_of m ρ c main_arg2 (by decide)).trans rfl
theorem V2_main_v1 (c : Dev nD) : V2 dat0 m ρ c main_v1 = (dat0 (V1 m ρ) c).arrAt 3 cfg0.N := W2_arr dat0 m ρ c 3

/-- Region 2's inputs: `main_arg1`, `main_arg5` as launched, `main_v2_0`, `main_v2_1` what region 1's write-backs leave,
    `main_v3` what `hostOps2` leaves. -/
theorem V4_main_arg1 (c : Dev nD) : V4 dat0 dat1 m ρ c main_arg1 = m ((c : Thread nD τ).loc main_arg1) :=
  (W4_of dat0 dat1 m ρ c main_arg1 (by decide)).trans <| (W3_of_ne dat0 dat1 m ρ c main_arg1 (by decide) (by decide)).trans <|
    V2_main_arg1 dat0 m ρ c
theorem V4_main_arg5 (c : Dev nD) : V4 dat0 dat1 m ρ c main_arg5 = m ((c : Thread nD τ).loc main_arg5) :=
  (W4_of dat0 dat1 m ρ c main_arg5 (by decide)).trans <| (W3_of_ne dat0 dat1 m ρ c main_arg5 (by decide) (by decide)).trans <|
    (W2_of_ne dat0 m ρ c main_arg5 (by decide)).trans <| (W1_of m ρ c main_arg5 (by decide)).trans rfl
theorem V4_main_v2_0 (c : Dev nD) : V4 dat0 dat1 m ρ c main_v2_0 = (dat1 (V2 dat0 m ρ) c).arrAt 4 cfg1.N :=
  (W4_of dat0 dat1 m ρ c main_v2_0 (by decide)).trans (W3_main_v2_0 dat0 dat1 m ρ c)
theorem V4_main_v2_1 (c : Dev nD) : V4 dat0 dat1 m ρ c main_v2_1 = (dat1 (V2 dat0 m ρ) c).arrAt 5 cfg1.N :=
  (W4_of dat0 dat1 m ρ c main_v2_1 (by decide)).trans (W3_main_v2_1 dat0 dat1 m ρ c)
theorem V4_main_v3 (c : Dev nD) :
    V4 dat0 dat1 m ρ c main_v3 = StableHlo.after hostOps2 (W3 dat0 dat1 m ρ c) (Proc.devRef .tc main_v3) := rfl

end Run

end Cert.Kernel.Hand

end
-- ==== Proof.K.Reg0.lean ====
/- Region 0 of @main (custom_call 0, `cc0__h_kernel`, pipeline 0: one grid point, windows 0, 1, 2 inputs, window 3
   the output) at a PARAMETER `V` — the TensorCore's buffer contents when the region is entered —, at any `F`:
   each window's block at the point (`iblk0`), the output's staging buffer after the body (`out0_3`), the body's
   triple (`sound_kernel0`), the proof data (`dat0`) and the body obligation (`body_obligation0`). The invariant is
   the class's (`Pipeline.ΦA spec0 c`), every share is full and nothing is owed. -/
import proofs.«171258_g71622874628668_fold_wed_m_490_3_alg».proof.Proof.Gen.Kernel.Launch
import proofs.«171258_g71622874628668_fold_wed_m_490_3_alg».proof.Proof.Gen.Kernel.Skeleton
import proofs.«171258_g71622874628668_fold_wed_m_490_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): the window is uncut and
    never idle, and unfetched means the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's buffer read or written whole -/

abbrev r0_0 : Rect S8192x256 := Rect.unit (s := S8192x256) ![0, 0] S8192x256.size inb_S8192x256_S8192x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S8192x128 := Rect.unit (s := S8192x128) ![0, 0] S8192x128.size inb_S8192x128_S8192x128_0_0

/-! ## What the body leaves in the output window's buffer -/

/-- Window 3's staging buffer after the body, from the input windows' blocks: its one store, of the whole buffer,
    as a piece (the payload is the skeleton's: the product of the first two inputs plus the third's row broadcast). -/
def out0_3 (x0 : Vec F S8192x256 .f32) (x1 : Vec F S256x128 .f32) (x2 : Vec F S1x128 .f32) : Vec F S8192x128 .f32 :=
  View.canon [⟨r0_3, k0_pay1 (View.ld x0 r0_0) (View.ld x1 r0_1) (View.ld x2 r0_2)⟩]

/-- The one store is of the whole buffer, so it covers it. -/
theorem cover0_3 (p0 : Vec F S8192x128 .f32) (y : S8192x128.Idx) :
    ∃ pc ∈ ([⟨r0_3, p0⟩] : List (View.Piece (Elt F) S8192x128 .f32)), y ∈ pc.1.set :=
  View.cover_of_tiled [⟨r0_3, p0⟩] S8192x128.size (by rfl) y

/-! ## The body's triple -/

set_option maxHeartbeats 1000000 in
/-- The kernel body on whole staging memrefs, the inputs' at read contents `xW` and the output's at anything, runs to
    the continuation holding the inputs' as they were and the output's at `out0_3` of the inputs'. The body also reads
    the output's buffer before storing it; the value read is used nowhere. -/
theorem sound_kernel0 (c : Dev nD) (E : Set ℕ) (arg0 : Memref sig .tc .vmem S8192x256 .f32) (harg0 : arg0.IsWhole)
    (arg1 : Memref sig .tc .vmem S256x128 .f32) (harg1 : arg1.IsWhole) (arg2 : Memref sig .tc .vmem S1x128 .f32) (harg2 : arg2.IsWhole)
    (arg3 : Memref sig .tc .vmem S8192x128 .f32) (harg3 : arg3.IsWhole)
    (x0 : Vec F S8192x256 .f32) (x1 : Vec F S256x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__h_kernel arg0 harg0 arg1 harg1 arg2 harg2 arg3 harg3) K := by
  simp only [cc0__h_kernel_eq_skeleton]; unfold cc0__h_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The invariant before the first point is the class's, -/
theorem hin0 (c : Dev nD) : Pipeline.ΦA spec0 c ⊢ (dat0 V c).Φ 0 := .rfl

/-- and so it is after the last. -/
theorem hout0 (c : Dev nD) : (dat0 V c).Φ (Fin.last cfg0.N) ⊢ Pipeline.ΦA spec0 c := .rfl

end Cert.Kernel.Hand

end
-- ==== Proof.K.Reg1Conds.lean ====
import proofs.«171258_g71622874628668_fold_wed_m_490_3_alg».proof.Proof.Gen.Kernel.Launch
import proofs.«171258_g71622874628668_fold_wed_m_490_3_alg».proof.Proof.Gen.Kernel.Skeleton
import proofs.«171258_g71622874628668_fold_wed_m_490_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1 (`cc1__pass1_kernel`, grid 16 x 16): what its three control cases share -/

/-! ## The body's branch conditions -/

/-- The condition of the body's first `scf.if` (the reduction index is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the reduction index is 15), from the grid coordinates. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the points ≡ 15 (mod 16) outputs 4 and 5 are idle and not written back; at those points they are live. -/
theorem idleAt1_4 : ∀ t : Fin cfg1.N, ¬ t.val % 16 = 15 → cfg1.idle 4 (grid1.coords t) = true :=
  (by decide +kernel : ∀ t : Fin grid1.N, ¬ t.val % 16 = 15 → idle1 4 (grid1.coords t) = true)
theorem idleAt1_5 : ∀ t : Fin cfg1.N, ¬ t.val % 16 = 15 → cfg1.idle 5 (grid1.coords t) = true :=
  (by decide +kernel : ∀ t : Fin grid1.N, ¬ t.val % 16 = 15 → idle1 5 (grid1.coords t) = true)
theorem liveAt1_4 : ∀ t : Fin cfg1.N, t.val % 16 = 15 → cfg1.idle 4 (grid1.coords t) = false :=
  (by decide +kernel : ∀ t : Fin grid1.N, t.val % 16 = 15 → idle1 4 (grid1.coords t) = false)
theorem liveAt1_5 : ∀ t : Fin cfg1.N, t.val % 16 = 15 → cfg1.idle 5 (grid1.coords t) = false :=
  (by decide +kernel : ∀ t : Fin grid1.N, t.val % 16 = 15 → idle1 5 (grid1.coords t) = false)
theorem noFlush1_4 (t : Fin cfg1.N) (h : ¬ t.val % 16 = 15) : (cfg1.win 4).flush t = false :=
  Bool.eq_false_iff.mpr fun hf => h ((flush1_4 t).mp hf)
theorem noFlush1_5 (t : Fin cfg1.N) (h : ¬ t.val % 16 = 15) : (cfg1.win 5).flush t = false :=
  Bool.eq_false_iff.mpr fun hf => h ((flush1_5 t).mp hf)

/-- The zero offsets of a whole-buffer rectangle of rank 2. -/
theorem hz1 : (![0, 0] : Fin 2 → Nat) = fun _ => 0 := funext fun a => by fin_cases a <;> rfl

/-! ## The memrefs the body is called with -/

/-- The whole-buffer rectangles of the body's loads and stores. -/
abbrev r1_a : Rect S512x512 := Rect.unit (s := S512x512) ![0, 0] S512x512.size inb_S512x512_S512x512_0_0
abbrev r1_h : Rect S512x128 := Rect.unit (s := S512x128) ![0, 0] S512x128.size inb_S512x128_S512x128_0_0

/-- Each window's current staging memref at point `t`, as the pipeline passes it, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
/-- The two scratch operands (the accumulators): whole scoped buffers. -/
abbrev scM1_0 : Memref sig .tc .vmem S512x128 .f32 := Memref.whole cc1_scratch0
abbrev scM1_1 : Memref sig .tc .vmem S512x128 .f32 := Memref.whole cc1_scratch1

/-! ## The region invariant with the two accumulators set apart -/

/-- The core's scoped buffers that are neither a staging buffer of this region nor one of its two accumulators, each at
    some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f) ∗ (∃ f : Buf (Elt F) ((c : Thread nD τ).loc cc2_scratch0), ((c : Thread nD τ).loc cc2_scratch0) ↦{fullShare} f))

/-- The class's invariant with the accumulators as memrefs owned at some contents. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ rest1 (F := F) c ∗ (∃ r, prngReg c r)) := by
  have h₁ : (Pipeline.ΦA spec1 c : sProp 𝕄) ⊢ iprop((∃ d, owns (c : Thread nD τ) scM1_0 fullShare d) ∗ (∃ d, owns (c : Thread nD τ) scM1_1 fullShare d) ∗ rest1 (F := F) c ∗ (∃ r, prngReg c r)) := by
    unfold Pipeline.ΦA rest1; rw [scopedRest1_eq]; simp only [scM1_0, scM1_1, owns_whole]
    iintro ⟨⟨A0, A1, A2, A3, S0, S1, R⟩, Hg⟩
    isplitl [S0]; · iexact S0
    isplitl [S1]; · iexact S1
    isplitr [Hg]
    swap; · iexact Hg
    isplitl [A0]; · iexact A0
    isplitl [A1]; · iexact A1
    isplitl [A2]; · iexact A2
    isplitl [A3]; · iexact A3
    iexact R
  have h₂ : iprop((∃ d, owns (c : Thread nD τ) scM1_0 fullShare d) ∗ (∃ d, owns (c : Thread nD τ) scM1_1 fullShare d) ∗ rest1 (F := F) c ∗ (∃ r, prngReg c r)) ⊢ (Pipeline.ΦA spec1 c : sProp 𝕄) := by
    unfold Pipeline.ΦA rest1; rw [scopedRest1_eq]; simp only [scM1_0, scM1_1, owns_whole]
    iintro ⟨S0, S1, ⟨A0, A1, A2, A3, R⟩, Hg⟩
    isplitr [Hg]
    swap; · iexact Hg
    isplitl [A0]; · iexact A0
    isplitl [A1]; · iexact A1
    isplitl [A2]; · iexact A2
    isplitl [A3]; · iexact A3
    isplitl [S0]; · iexact S0
    isplitl [S1]; · iexact S1
    iexact R
  exact BI.equiv_iff.mp ⟨h₁, h₂⟩

/-! ## The windows' blocks, at the entry contents `V` -/

section Blocks
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.Kernel.Hand

end
-- ==== Proof.K.Reg1RunA.lean ====
import proofs.«171258_g71622874628668_fold_wed_m_490_3_alg».proof.Proof.K.Reg1Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- One whole-buffer store reads back as its payload; two, as the later one's. -/
private theorem cover1_1 (p0 : Vec F S512x128 .f32) (y : S512x128.Idx) :
    ∃ pc ∈ ([⟨r1_h, p0⟩] : List (View.Piece (Elt F) S512x128 .f32)), y ∈ pc.1.set :=
  ⟨⟨r1_h, p0⟩, List.mem_singleton_self _, View.mem_set_unit_zero (S := S512x128) hz1 inb_S512x128_S512x128_0_0 y⟩
private theorem cover1_2 (p0 p1 : Vec F S512x128 .f32) (y : S512x128.Idx) :
    ∃ pc ∈ ([⟨r1_h, p0⟩, ⟨r1_h, p1⟩] : List (View.Piece (Elt F) S512x128 .f32)), y ∈ pc.1.set :=
  ⟨⟨r1_h, p0⟩, List.mem_cons_self, View.mem_set_unit_zero (S := S512x128) hz1 inb_S512x128_S512x128_0_0 y⟩
private theorem read1_one {κ : Kind} {sp : Space} (v : View sig κ sp S512x128 .f32) (f : v.ty.Contents (Elt F)) (w : Vec F S512x128 .f32) :
    v.read (Elt F) (v.writes (Elt F) f [⟨r1_h, w⟩]) = w := by
  rw [View.read_writes_eq_canon _ _ _ (cover1_1 w), View.canon_unit_zero (S := S512x128) hz1]
private theorem read1_two {κ : Kind} {sp : Space} (v : View sig κ sp S512x128 .f32) (f : v.ty.Contents (Elt F)) (w w' : Vec F S512x128 .f32) :
    v.read (Elt F) (v.writes (Elt F) f [⟨r1_h, w⟩, ⟨r1_h, w'⟩]) = w := by
  rw [View.read_writes_eq_canon _ _ _ (cover1_2 w w'), View.canon_cons_unit_zero (S := S512x128) hz1]

/-! # Region 1, the case k = 0: zero both accumulators, then accumulate -/

set_option maxHeartbeats 1000000 in
/-- The body at a point whose reduction index is 0, on whole memrefs: the inputs' at read contents, the two outputs'
    (untouched) at what they held, the accumulators at anything. It runs to the continuation with every buffer as it was
    but the accumulators, which hold the zero block plus the product of the first operand block with the rounded `h` block,
    and the zero block plus that of the second. -/
theorem kernelRun1_A (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (hc0 : cond1_0 i) (hc1 : ¬cond1_1 i)
    (x0 x1 : Vec F S512x512 .f32) (x2 x3 xi4 xi5 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k1_pay4 x2 x0 k1_pay1) ∗ owns (c : Thread nD τ) arg9 fullShare (k1_pay5 x2 x1 k1_pay2)) -∗ K ⟨⟩))
      ⊢ wp frame (wpE (defs₀ (F := F)) Variants.none c none) E (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    refine (read1_two _ _ _ _).trans ?_
    sl_unfold_run_names
    simp only [View.readCov_unit_zero (S := S512x128) _ hz1, View.readAt_eq_ld, View.ld_unit_zero (S := S512x128) hz1, View.ld_unit_zero (S := S512x512) hz1]
  iexists _; isplitr
  swap; · iexact HS1
  ipureintro
  refine (read1_two _ _ _ _).trans ?_
  sl_unfold_run_names
  simp only [View.readCov_unit_zero (S := S512x128) _ hz1, View.readAt_eq_ld, View.ld_unit_zero (S := S512x128) hz1, View.ld_unit_zero (S := S512x512) hz1]

end Cert.Kernel.Hand

end
-- ==== Proof.K.Reg1RunB.lean ====
import proofs.«171258_g71622874628668_fold_wed_m_490_3_alg».proof.Proof.K.Reg1Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- One whole-buffer store reads back as its payload; two, as the later one's. -/
private theorem cover1_1 (p0 : Vec F S512x128 .f32) (y : S512x128.Idx) :
    ∃ pc ∈ ([⟨r1_h, p0⟩] : List (View.Piece (Elt F) S512x128 .f32)), y ∈ pc.1.set :=
  ⟨⟨r1_h, p0⟩, List.mem_singleton_self _, View.mem_set_unit_zero (S := S512x128) hz1 inb_S512x128_S512x128_0_0 y⟩
private theorem cover1_2 (p0 p1 : Vec F S512x128 .f32) (y : S512x128.Idx) :
    ∃ pc ∈ ([⟨r1_h, p0⟩, ⟨r1_h, p1⟩] : List (View.Piece (Elt F) S512x128 .f32)), y ∈ pc.1.set :=
  ⟨⟨r1_h, p0⟩, List.mem_cons_self, View.mem_set_unit_zero (S := S512x128) hz1 inb_S512x128_S512x128_0_0 y⟩
private theorem read1_one {κ : Kind} {sp : Space} (v : View sig κ sp S512x128 .f32) (f : v.ty.Contents (Elt F)) (w : Vec F S512x128 .f32) :
    v.read (Elt F) (v.writes (Elt F) f [⟨r1_h, w⟩]) = w := by
  rw [View.read_writes_eq_canon _ _ _ (cover1_1 w), View.canon_unit_zero (S := S512x128) hz1]
private theorem read1_two {κ : Kind} {sp : Space} (v : View sig κ sp S512x128 .f32) (f : v.ty.Contents (Elt F)) (w w' : Vec F S512x128 .f32) :
    v.read (Elt F) (v.writes (Elt F) f [⟨r1_h, w⟩, ⟨r1_h, w'⟩]) = w := by
  rw [View.read_writes_eq_canon _ _ _ (cover1_2 w w'), View.canon_cons_unit_zero (S := S512x128) hz1]

/-! # Region 1, the case 0 < k < 15: accumulate only -/

set_option maxHeartbeats 1000000 in
/-- The body at a point whose reduction index is neither 0 nor 15, on whole memrefs: the inputs' at read contents, the two
    outputs' (untouched) at what they held, the accumulators at `xs0`, `xs1`. It runs to the continuation with every buffer
    as it was but the accumulators, which hold `xs0` plus the product of the first operand block with the rounded `h` block,
    and `xs1` plus that of the second. -/
theorem kernelRun1_B (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (hc0 : ¬cond1_0 i) (hc1 : ¬cond1_1 i)
    (x0 x1 : Vec F S512x512 .f32) (x2 x3 xi4 xi5 xs0 xs1 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k1_pay4 x2 x0 xs0) ∗ owns (c : Thread nD τ) arg9 fullShare (k1_pay5 x2 x1 xs1)) -∗ K ⟨⟩))
      ⊢ wp frame (wpE (defs₀ (F := F)) Variants.none c none) E (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  subst hf0 hf1 hf2 hf3 hf4 hf5 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    refine (read1_one _ _ _).trans ?_
    simp only [View.readAt_eq_ld, View.ld_unit_zero (S := S512x128) hz1, View.ld_unit_zero (S := S512x512) hz1]
  iexists _; isplitr
  swap; · iexact HS1
  ipureintro
  refine (read1_one _ _ _).trans ?_
  simp only [View.readAt_eq_ld, View.ld_unit_zero (S := S512x128) hz1, View.ld_unit_zero (S := S512x512) hz1]

end Cert.Kernel.Hand

end
-- ==== Proof.K.Reg1RunC.lean ====
import proofs.«171258_g71622874628668_fold_wed_m_490_3_alg».proof.Proof.K.Reg1Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- One whole-buffer store reads back as its payload; two, as the later one's. -/
private theorem cover1_1 (p0 : Vec F S512x128 .f32) (y : S512x128.Idx) :
    ∃ pc ∈ ([⟨r1_h, p0⟩] : List (View.Piece (Elt F) S512x128 .f32)), y ∈ pc.1.set :=
  ⟨⟨r1_h, p0⟩, List.mem_singleton_self _, View.mem_set_unit_zero (S := S512x128) hz1 inb_S512x128_S512x128_0_0 y⟩
private theorem cover1_2 (p0 p1 : Vec F S512x128 .f32) (y : S512x128.Idx) :
    ∃ pc ∈ ([⟨r1_h, p0⟩, ⟨r1_h, p1⟩] : List (View.Piece (Elt F) S512x128 .f32)), y ∈ pc.1.set :=
  ⟨⟨r1_h, p0⟩, List.mem_cons_self, View.mem_set_unit_zero (S := S512x128) hz1 inb_S512x128_S512x128_0_0 y⟩
private theorem read1_one {κ : Kind} {sp : Space} (v : View sig κ sp S512x128 .f32) (f : v.ty.Contents (Elt F)) (w : Vec F S512x128 .f32) :
    v.read (Elt F) (v.writes (Elt F) f [⟨r1_h, w⟩]) = w := by
  rw [View.read_writes_eq_canon _ _ _ (cover1_1 w), View.canon_unit_zero (S := S512x128) hz1]
private theorem read1_two {κ : Kind} {sp : Space} (v : View sig κ sp S512x128 .f32) (f : v.ty.Contents (Elt F)) (w w' : Vec F S512x128 .f32) :
    v.read (Elt F) (v.writes (Elt F) f [⟨r1_h, w⟩, ⟨r1_h, w'⟩]) = w := by
  rw [View.read_writes_eq_canon _ _ _ (cover1_2 w w'), View.canon_cons_unit_zero (S := S512x128) hz1]

/-! # Region 1, the case k = 15: accumulate, then store the two outputs -/

set_option maxHeartbeats 1000000 in
/-- The body at a point whose reduction index is 15, on whole memrefs: the inputs' at read contents, the two outputs' at
    anything, the accumulators at `xs0`, `xs1`. It runs to the continuation with the inputs as they were, the accumulators
    advanced by this point's products, the second output at the second accumulator and the first output at half the `h` row
    block plus half of each accumulator. -/
theorem kernelRun1_C (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (hc0 : ¬cond1_0 i) (hc1 : cond1_1 i)
    (x0 x1 : Vec F S512x512 .f32) (x2 x3 xs0 xs1 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay6 (k1_pay5 x2 x1 xs1) x3 (k1_pay4 x2 x0 xs0)) ∗ owns (c : Thread nD τ) arg7 fullShare (k1_pay5 x2 x1 xs1)
            ∗ owns (c : Thread nD τ) arg8 fullShare (k1_pay4 x2 x0 xs0) ∗ owns (c : Thread nD τ) arg9 fullShare (k1_pay5 x2 x1 xs1)) -∗ K ⟨⟩))
      ⊢ wp frame (wpE (defs₀ (F := F)) Variants.none c none) E (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  subst hf0 hf1 hf2 hf3 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read1_one _ _ _).trans ?_
    sl_unfold_run_names
    simp only [View.readCov_unit_zero (S := S512x128) _ hz1, View.readAt_eq_ld, View.ld_unit_zero (S := S512x128) hz1, View.ld_unit_zero (S := S512x512) hz1]
  isplitl [H5]
  · iexists _; isplitr
    swap; · iexact H5
    ipureintro
    refine (read1_one _ _ _).trans ?_
    sl_unfold_run_names
    simp only [View.readCov_unit_zero (S := S512x128) _ hz1, View.readAt_eq_ld, View.ld_unit_zero (S := S512x128) hz1, View.ld_unit_zero (S := S512x512) hz1]
  isplitl [HS0]
  · iexists _; isplitr
    swap; · iexact HS0
    ipureintro
    refine (read1_one _ _ _).trans ?_
    simp only [View.readCov_unit_zero (S := S512x128) _ hz1, View.readAt_eq_ld, View.ld_unit_zero (S := S512x128) hz1, View.ld_unit_zero (S := S512x512) hz1]
  iexists _; isplitr
  swap; · iexact HS1
  ipureintro
  refine (read1_one _ _ _).trans ?_
  simp only [View.readCov_unit_zero (S := S512x128) _ hz1, View.readAt_eq_ld, View.ld_unit_zero (S := S512x128) hz1, View.ld_unit_zero (S := S512x512) hz1]

end Cert.Kernel.Hand

end
-- ==== Proof.K.Reg1.lean ====
import proofs.«171258_g71622874628668_fold_wed_m_490_3_alg».proof.Proof.K.Reg1RunA
import proofs.«171258_g71622874628668_fold_wed_m_490_3_alg».proof.Proof.K.Reg1RunB
import proofs.«171258_g71622874628668_fold_wed_m_490_3_alg».proof.Proof.K.Reg1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1 of @main (`cc1__pass1_kernel`, grid 16 x 16), at the entry contents `V`

Point `t` has row block `i = t / 16` and reduction index `k = t % 16`. The two scratch accumulators are carried from point to
point: zeroed at `k = 0`, advanced at every point, read out into the two outputs at `k = 15`. -/

section Region1
variable (V : (c : Dev nD) → (b : Ref sig .tc) → Buf (Elt F) ((c : Thread nD τ).loc b))

/-! ## The carried accumulators, point by point -/

/-- One point's advance of the pair of accumulators `z`: each plus the product of its operand block (window 0, window 1)
    with the `h` block of window 2. -/
abbrev acc1Step (c : Dev nD) (t : Fin cfg1.N) (z : Vec F S512x128 .f32 × Vec F S512x128 .f32) :
    Vec F S512x128 .f32 × Vec F S512x128 .f32 :=
  (k1_pay4 (iblk1 V c 2 t) (iblk1 V c 0 t) z.1, k1_pay5 (iblk1 V c 2 t) (iblk1 V c 1 t) z.2)

/-- What the two accumulators hold after the body at point `n`: the advance of the zero blocks where `n ≡ 0 (mod 16)`, of
    what point `n - 1` left elsewhere. -/
def acc1 (c : Dev nD) : (n : ℕ) → n < cfg1.N → Vec F S512x128 .f32 × Vec F S512x128 .f32
  | 0, hn => acc1Step V c ⟨0, hn⟩ (k1_pay1, k1_pay2)
  | n + 1, hn =>
    if (n + 1) % 16 = 0 then acc1Step V c ⟨n + 1, hn⟩ (k1_pay1, k1_pay2)
    else acc1Step V c ⟨n + 1, hn⟩ (acc1 c n (Nat.lt_of_succ_lt hn))

/-- At a point ≡ 0 (mod 16) the accumulators restart from the zero blocks. -/
theorem acc1_zero (c : Dev nD) (t : Fin cfg1.N) (h : t.val % 16 = 0) :
    acc1 V c t.val t.isLt = (k1_pay4 (iblk1 V c 2 t) (iblk1 V c 0 t) k1_pay1, k1_pay5 (iblk1 V c 2 t) (iblk1 V c 1 t) k1_pay2) := by
  obtain ⟨n, hn⟩ := t
  cases n with
  | zero => rfl
  | succ n => exact (if_pos h).trans rfl

/-- At any other point they advance what the point before left. -/
theorem acc1_succ (c : Dev nD) (t : Fin cfg1.N) (h : ¬t.val % 16 = 0) :
    acc1 V c t.val t.isLt
      = (k1_pay4 (iblk1 V c 2 t) (iblk1 V c 0 t) (acc1 V c (t.val - 1) (Nat.lt_of_le_of_lt (Nat.sub_le _ _) t.isLt)).1,
         k1_pay5 (iblk1 V c 2 t) (iblk1 V c 1 t) (acc1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The region invariant -/

/-- Before point 0 the class's invariant (every scoped buffer at anything); before point `n + 1` the two accumulators at what
    point `n` left, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1_0 fullShare (acc1 V c n hn).1 ∗ owns (c : Thread nD τ) scM1_1 fullShare (acc1 V c n hn).2
      ∗ rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (acc1 V c n hn).1 ∗ owns (c : Thread nD τ) scM1_1 fullShare (acc1 V c n hn).2
      ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (acc1 V c (n - 1) (by omega)).1 ∗ owns (c : Thread nD τ) scM1_1 fullShare (acc1 V c (n - 1) (by omega)).2
      ∗ rest1 (F := F) c ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block, output 5's at the second accumulator and output 4's at half the `h` row block plus half of
    each accumulator (what the body stores where `t ≡ 15 (mod 16)`; elsewhere the outputs are idle and this is not consulted);
    the invariant `PhiS1`; nothing owed; the array the windows 2 and 3 share split in two halves, the others whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay6 (acc1 V c t.val t.isLt).2 (iblk1 V c 3 t) (acc1 V c t.val t.isLt).1
    | ⟨5, _⟩ => (acc1 V c t.val t.isLt).2
  Φ t := PhiS1 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4_any (c : Dev nD) (t : Fin cfg1.N) :
    (dat1 V c).after 4 t = k1_pay6 (acc1 V c t.val t.isLt).2 (iblk1 V c 3 t) (acc1 V c t.val t.isLt).1 := by dsimp only [dat1]
theorem after1_5_any (c : Dev nD) (t : Fin cfg1.N) : (dat1 V c).after 5 t = (acc1 V c t.val t.isLt).2 := by dsimp only [dat1]
/-- At the points ≡ 15 (mod 16), where the outputs are stored and written back. -/
theorem after1_4 (c : Dev nD) (t : Fin cfg1.N) (h : t.val % 16 = 15) :
    (dat1 V c).after 4 t = k1_pay6 (acc1 V c t.val t.isLt).2 (iblk1 V c 3 t) (acc1 V c t.val t.isLt).1 := after1_4_any V c t
theorem after1_5 (c : Dev nD) (t : Fin cfg1.N) (h : t.val % 16 = 15) : (dat1 V c).after 5 t = (acc1 V c t.val t.isLt).2 :=
  after1_5_any V c t

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms of the two conditions say which case the
    point is in, and that case's run applies; the invariant hands the body the accumulators at what the point before left (at
    anything at the first point) and takes them back at this point's contents; where the outputs are idle their buffers are
    handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · -- k = 0
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t h1) (noFlush1_4 t h1)]
      rw [Dat.leavesExact_idle (dat1 V c) 5 t (idleAt1_5 t h1) (noFlush1_5 t h1)]
      rw [acc1_zero V c t h0]
      by_cases hz : t.val = 0
      · rw [PhiS1_castSucc V c t, PhiS1_zero V c _ _ hz, PhiA1_eq]
        iintro ⟨⟨HS0, HS1, HR, Hg⟩, Ho, ⟨%d0, H0⟩, ⟨%d1, H1⟩, ⟨%d2, H2⟩, ⟨%d3, H3⟩, ⟨%d4, H4⟩, ⟨%d5, H5⟩⟩
        iapply (kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1 HR Hg]
        · isplitl [HS0]; · iexact HS0
          isplitl [HS1]; · iexact HS1
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS1_castSucc V c t, PhiS1_pos V c _ _ hz]
        iintro ⟨⟨HS0, HS1, HR, Hg⟩, Ho, ⟨%d0, H0⟩, ⟨%d1, H1⟩, ⟨%d2, H2⟩, ⟨%d3, H3⟩, ⟨%d4, H4⟩, ⟨%d5, H5⟩⟩
        iapply (kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, HS0, HS1⟩
        isplitl [HS0 HS1 HR Hg]
        · isplitl [HS0]; · iexact HS0
          isplitl [HS1]; · iexact HS1
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun e => h0 (by rw [e])
    by_cases h1 : t.val % 16 = 15
    · -- k = 15
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t h1], after1_4_any]
      rw [show (dat1 V c).leavesExact 5 t = owns (c : Thread nD τ) (ms1_5 t) fullShare ((dat1 V c).after 5 t) from by
        unfold Dat.leavesExact; rw [liveAt1_5 t h1], after1_5_any]
      rw [acc1_succ V c t h0]
      · rw [PhiS1_castSucc V c t, PhiS1_pos V c _ _ hz]
        iintro ⟨⟨HS0, HS1, HR, Hg⟩, Ho, ⟨%d0, H0⟩, ⟨%d1, H1⟩, ⟨%d2, H2⟩, ⟨%d3, H3⟩, ⟨%d4, H4⟩, ⟨%d5, H5⟩⟩
        iapply (kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, H4, H5, HS0, HS1⟩
        isplitl [HS0 HS1 HR Hg]
        · isplitl [HS0]; · iexact HS0
          isplitl [HS1]; · iexact HS1
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        iexact H5
    · -- 0 < k < 15
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t h1) (noFlush1_4 t h1)]
      rw [Dat.leavesExact_idle (dat1 V c) 5 t (idleAt1_5 t h1) (noFlush1_5 t h1)]
      rw [acc1_succ V c t h0]
      · rw [PhiS1_castSucc V c t, PhiS1_pos V c _ _ hz]
        iintro ⟨⟨HS0, HS1, HR, Hg⟩, Ho, ⟨%d0, H0⟩, ⟨%d1, H1⟩, ⟨%d2, H2⟩, ⟨%d3, H3⟩, ⟨%d4, H4⟩, ⟨%d5, H5⟩⟩
        iapply (kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1 HR Hg]
        · isplitl [HS0]; · iexact HS0
          isplitl [HS1]; · iexact HS1
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, HS1, HR, Hg⟩
  isplitl [HS0]; · iexists _; iexact HS0
  isplitl [HS1]; · iexists _; iexact HS1
  isplitl [HR]; · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Region1

end Cert.Kernel.Hand

end
-- ==== Proof.K.Reg2Conds.lean ====
import proofs.«171258_g71622874628668_fold_wed_m_490_3_alg».proof.Proof.Gen.Kernel.Launch
import proofs.«171258_g71622874628668_fold_wed_m_490_3_alg».proof.Proof.Gen.Kernel.Skeleton
import proofs.«171258_g71622874628668_fold_wed_m_490_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when region 2 is entered: the parameter the region's half is stated at
variable (V : (c : Dev nD) → (b : Ref sig .tc) → Buf (Elt F) ((c : Thread nD τ).loc b))

/-! # REGION 2 of @main: custom_call 2, `cc2__pass2_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the
    block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, the
    block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the reduction coordinate is 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 16) — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second `scf.if` (the reduction coordinate is 15). -/
abbrev cond2_1 (i : grid2.Coords) : Prop := k2_cond2 i = 1#1
/-- It holds at the points ≡ 15 (mod 16) — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- Where the second condition fails output 6 is idle: nothing is stored into it there, -/
theorem idleAt2_6 : ∀ t : Fin cfg2.N, ¬cond2_1 (grid2.coords t) → cfg2.idle 6 (grid2.coords t) = true := by decide +kernel
/-- and its block is not written back there. -/
theorem noFlush2_6 : ∀ t : Fin cfg2.N, ¬cond2_1 (grid2.coords t) → (cfg2.win 6).flush t = false := by decide +kernel
/-- Where it holds output 6 is live: the epilogue stores into it. -/
theorem liveAt2_6 : ∀ t : Fin cfg2.N, cond2_1 (grid2.coords t) → cfg2.idle 6 (grid2.coords t) = false := by decide +kernel

/-! ## The memrefs the body is called with -/

abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x64 .f32 := win2_6.stage (cfg2.slots t 6)
abbrev hs2_6 (t : Fin cfg2.N) : (ms2_6 t).IsWhole := hstage2_6 ((cfg2.slots t 6).cast nbuf2_6)
/-- The scratch operand: a whole scoped buffer of the kernel's own, carried between points. -/
abbrev scM2_0 : Memref sig .tc .vmem S512x128 .f32 := Memref.whole cc2_scratch0

/-! ## The scoped rest, the carried scratch apart -/

/-- The core's scoped buffers that are neither a staging buffer of this pipeline nor its scratch, each whole at
    some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class's invariant with the scratch operand as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ d, owns (c : Thread nD τ) scM2_0 fullShare d)) ∗ (∃ r, prngReg c r)) := by
  unfold Pipeline.ΦA; rw [scopedRest2_eq]; simp only [scM2_0, owns_whole]; try rfl

/-- The invariant hands out the scratch at some contents beside the rest, -/
theorem PhiA2_split (c : Dev nD) :
    (Pipeline.ΦA spec2 c : sProp 𝕄) ⊢ iprop(iprop(rest2 (F := F) c ∗ (∃ d, owns (c : Thread nD τ) scM2_0 fullShare d)) ∗ (∃ r, prngReg c r)) := by
  rw [PhiA2_eq]; unfold rest2
  iintro ⟨⟨E0, E1, E2, E3, E4, E5, E6, E7, E8, E9, E10, E11, E12, E13, E14, E15, E16, E17, HS⟩, Hg⟩
  isplitr [Hg]
  · isplitr [HS]
    · isplitl [E0]; · iexact E0
      isplitl [E1]; · iexact E1
      isplitl [E2]; · iexact E2
      isplitl [E3]; · iexact E3
      isplitl [E4]; · iexact E4
      isplitl [E5]; · iexact E5
      isplitl [E6]; · iexact E6
      isplitl [E7]; · iexact E7
      isplitl [E8]; · iexact E8
      isplitl [E9]; · iexact E9
      isplitl [E10]; · iexact E10
      isplitl [E11]; · iexact E11
      isplitl [E12]; · iexact E12
      isplitl [E13]; · iexact E13
      isplitl [E14]; · iexact E14
      isplitl [E15]; · iexact E15
      isplitl [E16]; · iexact E16
      iexact E17
    · iexact HS
  · iexact Hg

/-- and takes it back. -/
theorem PhiA2_join (c : Dev nD) :
    iprop(iprop(rest2 (F := F) c ∗ (∃ d, owns (c : Thread nD τ) scM2_0 fullShare d)) ∗ (∃ r, prngReg c r)) ⊢ (Pipeline.ΦA spec2 c : sProp 𝕄) := by
  rw [PhiA2_eq]; unfold rest2
  iintro ⟨⟨⟨E0, E1, E2, E3, E4, E5, E6, E7, E8, E9, E10, E11, E12, E13, E14, E15, E16, E17⟩, HS⟩, Hg⟩
  isplitr [Hg]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    isplitl [E11]; · iexact E11
    isplitl [E12]; · iexact E12
    isplitl [E13]; · iexact E13
    isplitl [E14]; · iexact E14
    isplitl [E15]; · iexact E15
    isplitl [E16]; · iexact E16
    isplitl [E17]; · iexact E17
    iexact HS
  · iexact Hg

end Cert.Kernel.Hand

end
-- ==== Proof.K.Reg2Dat.lean ====
import proofs.«171258_g71622874628668_fold_wed_m_490_3_alg».proof.Proof.K.Reg2Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What the carried scratch holds after each point -/

/-- THE ACCUMULATION. What the scratch accumulator holds after the body at position `n`: the body's accumulating
    store (`k2_pay2`) of the point's blocks of windows 0 and 1 over what it read from the scratch — the zero fill
    (`k2_pay1`) where the reduction coordinate is 0, else what the point before left. -/
def acc2 (c : Dev nD) : (n : ℕ) → n < cfg2.N → Vec F S512x128 .f32
  | 0, hn => k2_pay2 (k2_pay1 (F := F)) (iblk2 V c 0 ⟨0, hn⟩) (iblk2 V c 1 ⟨0, hn⟩)
  | n + 1, hn => k2_pay2 (if (n + 1) % 16 = 0 then k2_pay1 (F := F) else acc2 c n (Nat.lt_of_succ_lt hn))
      (iblk2 V c 0 ⟨n + 1, hn⟩) (iblk2 V c 1 ⟨n + 1, hn⟩)

/-- At a point whose reduction coordinate is 0 the accumulation restarts from the zero fill. -/
theorem acc2_zero (c : Dev nD) (t : Fin cfg2.N) (h0 : t.val % 16 = 0) :
    acc2 V c t.val t.isLt = k2_pay2 (k2_pay1 (F := F)) (iblk2 V c 0 t) (iblk2 V c 1 t) := by
  obtain ⟨n, hn⟩ := t
  cases n with
  | zero => rfl
  | succ n => exact congrArg (fun z => k2_pay2 z (iblk2 V c 0 ⟨n + 1, hn⟩) (iblk2 V c 1 ⟨n + 1, hn⟩)) (if_pos h0)

/-- At any other point it continues from what the point before left. -/
theorem acc2_succ (c : Dev nD) (t : Fin cfg2.N) (h0 : ¬t.val % 16 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact congrArg (fun z => k2_pay2 z (iblk2 V c 0 ⟨n + 1, hn⟩) (iblk2 V c 1 ⟨n + 1, hn⟩)) (if_neg h0)

/-! ## The region invariant -/

/-- The region invariant before position `n`: the scoped rest and the generator register at some state throughout;
    the carried scratch at anything before the first point, afterwards at what the point before left (`acc2`). -/
def PhiS2 (c : Dev nD) : (n : ℕ) → n ≤ cfg2.N → sProp 𝕄
  | 0, _ => iprop(iprop(rest2 (F := F) c ∗ (∃ d, owns (c : Thread nD τ) scM2_0 fullShare d)) ∗ (∃ r, prngReg c r))
  | n + 1, hn => iprop(iprop(rest2 (F := F) c ∗ owns (c : Thread nD τ) scM2_0 fullShare (acc2 V c n hn)) ∗ (∃ r, prngReg c r))

theorem PhiS2_zero (c : Dev nD) (n : ℕ) (h : n ≤ cfg2.N) (hz : n = 0) :
    PhiS2 V c n h = iprop(iprop(rest2 (F := F) c ∗ (∃ d, owns (c : Thread nD τ) scM2_0 fullShare d)) ∗ (∃ r, prngReg c r)) := by
  subst hz; rfl

/-- After point `n` (before point `n + 1`): the carried scratch at that point's contents. -/
theorem PhiS2_succ (c : Dev nD) (n : ℕ) (hn : n < cfg2.N) :
    PhiS2 V c (n + 1) hn = iprop(iprop(rest2 (F := F) c ∗ owns (c : Thread nD τ) scM2_0 fullShare (acc2 V c n hn)) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(rest2 (F := F) c ∗ owns (c : Thread nD τ) scM2_0 fullShare (acc2 V c (n - 1) (by omega))) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the output's at the epilogue's payload of the blocks and the accumulation
    (consulted only where the reduction coordinate is 15: elsewhere the window is idle and not written back); the
    invariant `PhiS2`; nothing owed; the two windows of the shared array at the halves of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay3 (iblk2 V c 2 t) (acc2 V c t.val t.isLt) (iblk2 V c 3 t) (iblk2 V c 4 t) (iblk2 V c 5 t)
  Φ t := PhiS2 V c t.val (Nat.le_of_lt_succ t.isLt)
  q w := match w with
    | ⟨1, _⟩ => fullShare.left
    | ⟨2, _⟩ => fullShare.right
    | _ => fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
/-- The output's buffer after the epilogue (the reduction coordinate is 15): the epilogue's payload of window 2's,
    3's, 4's and 5's blocks and the accumulation at the point. -/
theorem after2_6 (c : Dev nD) (t : Fin cfg2.N) (h : t.val % 16 = 15) :
    (dat2 V c).after 6 t = k2_pay3 (iblk2 V c 2 t) (acc2 V c t.val t.isLt) (iblk2 V c 3 t) (iblk2 V c 4 t) (iblk2 V c 5 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

end Cert.Kernel.Hand

end
-- ==== Proof.K.Reg2RunA.lean ====
import proofs.«171258_g71622874628668_fold_wed_m_490_3_alg».proof.Proof.K.Reg2Conds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of the whole-buffer rectangles, as a constant function. -/
theorem hz2_A : (![0, 0] : Fin 2 → Nat) = fun _ => 0 := funext fun a => by fin_cases a <;> rfl

set_option maxHeartbeats 1000000 in
/-- The body where the reduction coordinate is 0 (first `scf.if` taken, second not): on whole memrefs, the inputs' at
    their contents, the idle output's at contents handed back untouched, the scratch at anything, it runs to the
    continuation holding the inputs' and the output's as they were and the scratch at the accumulating store's
    payload over the zero fill: the fill covers the scratch, so the load after it reads the fill, and the last
    store, covering too, reads back as its payload. -/
theorem kernelRun2_A (c : Dev nD) (E : Set ℕ) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : cond2_0 i) (hc1 : ¬cond2_1 i)
    (x0 : Vec F S512x512 .f32) (x1 : Vec F S512x128 .f32) (x2 : Vec F S512x128 .f32) (x3 : Vec F S512x128 .f32) (x4 : Vec F S128x64 .f32) (x5 : Vec F S1x64 .f32) (xi6 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare (k2_pay2 (k2_pay1 (F := F)) x0 x1)) -∗ K ⟨⟩))
      ⊢ wp frame (wpE (defs₀ (F := F)) Variants.none c none) E (cc2__pass2_kernel i arg2 harg2 arg3 harg3 arg4 harg4 arg5 harg5 arg6 harg6 arg7 harg7 arg8 harg8 arg9 harg9) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  subst hf0 hf1 hf2 hf3 hf4 hf5 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  sl_unfold_run_names
  rw [View.read_writes_eq_canon _ _ _ (fun y => ⟨_, List.mem_cons_self, View.mem_set_unit_zero hz2_A inb_S512x128_S512x128_0_0 y⟩), View.canon_cons_unit_zero hz2_A]
  rw [View.readCov_unit_zero (S := S512x128) _ hz2_A]
  simp only [View.readAt_eq_ld, View.ld_unit_zero (S := S512x128) hz2_A, View.ld_unit_zero (S := S512x512) hz2_A, View.ld_unit_zero (S := S128x64) hz2_A, View.ld_unit_zero (S := S1x64) hz2_A]

end Cert.Kernel.Hand

end
-- ==== Proof.K.Reg2RunB.lean ====
import proofs.«171258_g71622874628668_fold_wed_m_490_3_alg».proof.Proof.K.Reg2Conds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of the whole-buffer rectangles, as a constant function. -/
theorem hz2_B : (![0, 0] : Fin 2 → Nat) = fun _ => 0 := funext fun a => by fin_cases a <;> rfl

set_option maxHeartbeats 1000000 in
/-- The body where the reduction coordinate is neither 0 nor 15 (neither `scf.if` taken): on whole memrefs, the
    inputs' at their contents, the idle output's at contents handed back untouched, the scratch at what the point
    before left (`xs`), it runs to the continuation holding the inputs' and the output's as they were and the scratch
    at the accumulating store's payload over `xs`. -/
theorem kernelRun2_B (c : Dev nD) (E : Set ℕ) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : ¬cond2_1 i)
    (x0 : Vec F S512x512 .f32) (x1 : Vec F S512x128 .f32) (x2 : Vec F S512x128 .f32) (x3 : Vec F S512x128 .f32) (x4 : Vec F S128x64 .f32) (x5 : Vec F S1x64 .f32) (xi6 : Vec F S512x64 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare (k2_pay2 xs x0 x1)) -∗ K ⟨⟩))
      ⊢ wp frame (wpE (defs₀ (F := F)) Variants.none c none) E (cc2__pass2_kernel i arg2 harg2 arg3 harg3 arg4 harg4 arg5 harg5 arg6 harg6 arg7 harg7 arg8 harg8 arg9 harg9) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  sl_unfold_run_names
  rw [View.read_writes_eq_canon _ _ _ (fun y => ⟨_, List.mem_cons_self, View.mem_set_unit_zero hz2_B inb_S512x128_S512x128_0_0 y⟩), View.canon_cons_unit_zero hz2_B]
  simp only [View.readAt_eq_ld, View.ld_unit_zero (S := S512x128) hz2_B, View.ld_unit_zero (S := S512x512) hz2_B, View.ld_unit_zero (S := S128x64) hz2_B, View.ld_unit_zero (S := S1x64) hz2_B]

end Cert.Kernel.Hand

end
-- ==== Proof.K.Reg2RunC.lean ====
import proofs.«171258_g71622874628668_fold_wed_m_490_3_alg».proof.Proof.K.Reg2Conds
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The zero offsets of the whole-buffer rectangles, as a constant function. -/
theorem hz2_C : (![0, 0] : Fin 2 → Nat) = fun _ => 0 := funext fun a => by fin_cases a <;> rfl

set_option maxHeartbeats 1000000 in
/-- The body where the reduction coordinate is 15 (first `scf.if` not taken, second taken): on whole memrefs, the
    inputs' at their contents, the output's at anything, the scratch at what the point before left (`xs`), it runs to
    the continuation holding the inputs' as they were, the scratch at the accumulating store's payload over `xs` and
    the output's at the epilogue's payload of the inputs and that accumulation (the epilogue's load of the scratch
    reads the covering store before it). -/
theorem kernelRun2_C (c : Dev nD) (E : Set ℕ) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 : Vec F S512x128 .f32) (x2 : Vec F S512x128 .f32) (x3 : Vec F S512x128 .f32) (x4 : Vec F S128x64 .f32) (x5 : Vec F S1x64 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k2_pay3 x2 (k2_pay2 xs x0 x1) x3 x4 x5) ∗ owns (c : Thread nD τ) arg9 fullShare (k2_pay2 xs x0 x1)) -∗ K ⟨⟩))
      ⊢ wp frame (wpE (defs₀ (F := F)) Variants.none c none) E (cc2__pass2_kernel i arg2 harg2 arg3 harg3 arg4 harg4 arg5 harg5 arg6 harg6 arg7 harg7 arg8 harg8 arg9 harg9) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (fun y => ⟨_, List.mem_cons_self, View.mem_set_unit_zero hz2_C inb_S512x64_S512x64_0_0 y⟩), View.canon_cons_unit_zero hz2_C]
    rw [View.readCov_unit_zero (S := S512x128) _ hz2_C]
    simp only [View.readAt_eq_ld, View.ld_unit_zero (S := S512x128) hz2_C, View.ld_unit_zero (S := S512x512) hz2_C, View.ld_unit_zero (S := S128x64) hz2_C, View.ld_unit_zero (S := S1x64) hz2_C]
  iexists _; isplitr
  swap; · iexact HS
  ipureintro
  sl_unfold_run_names
  rw [View.read_writes_eq_canon _ _ _ (fun y => ⟨_, List.mem_cons_self, View.mem_set_unit_zero hz2_C inb_S512x128_S512x128_0_0 y⟩), View.canon_cons_unit_zero hz2_C]
  simp only [View.readAt_eq_ld, View.ld_unit_zero (S := S512x128) hz2_C, View.ld_unit_zero (S := S512x512) hz2_C, View.ld_unit_zero (S := S128x64) hz2_C, View.ld_unit_zero (S := S1x64) hz2_C]

end Cert.Kernel.Hand

end
-- ==== Proof.K.Reg2.lean ====
import proofs.«171258_g71622874628668_fold_wed_m_490_3_alg».proof.Proof.K.Reg2Dat
import proofs.«171258_g71622874628668_fold_wed_m_490_3_alg».proof.Proof.K.Reg2RunA
import proofs.«171258_g71622874628668_fold_wed_m_490_3_alg».proof.Proof.K.Reg2RunB
import proofs.«171258_g71622874628668_fold_wed_m_490_3_alg».proof.Proof.K.Reg2RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body obligation of pipeline 2, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms of the two conditions say which of
    the three cases the point is in; the invariant hands the body the carried scratch at what the point before left
    (at anything at the first point) and takes it back at this point's accumulation (`acc2_zero` where the reduction
    coordinate is 0, `acc2_succ` elsewhere); the output window is handed back untouched where the epilogue does not run
    (idle there and not written back) and holds the epilogue's payload where it does; the core owes nothing
    throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 16 = 0
  · have h1 : ¬t.val % 16 = 15 := by omega
    rw [Dat.leavesExact_idle (dat2 V c) 6 t (idleAt2_6 t (fun h => h1 ((hcond2_1 t).mp h))) (noFlush2_6 t (fun h => h1 ((hcond2_1 t).mp h)))]
    rw [acc2_zero V c t h0]
    by_cases hz : t.val = 0
    · rw [PhiS2_castSucc V c t, PhiS2_zero V c _ _ hz]
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun2_A c Set.univ (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun2_A c Set.univ (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [acc2_succ V c t h0]
    rw [PhiS2_castSucc V c t, PhiS2_pos V c _ _ hz]
    by_cases h1 : t.val % 16 = 15
    · rw [show (dat2 V c).leavesExact 6 t = owns (c : Thread nD τ) (ms2_6 t) fullShare ((dat2 V c).after 6 t) from by
        unfold Dat.leavesExact; rw [liveAt2_6 t ((hcond2_1 t).mpr h1)], after2_6 V c t h1, acc2_succ V c t h0]
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun2_C c Set.univ (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat2 V c) 6 t (idleAt2_6 t (fun h => h1 ((hcond2_1 t).mp h))) (noFlush2_6 t (fun h => h1 ((hcond2_1 t).mp h)))]
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun2_B c Set.univ (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point: the scratch split off the scoped rest. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  exact PhiA2_split c

/-- After any point but the first the invariant gives the class's back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine Idealize.SL.BI.BIBase.Entails.trans ?_ (PhiA2_join c)
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 256 := N_2; omega)

end Cert.Kernel.Hand

end
-- ==== Proof.K.Frame.lean ====
/- The three regions' halves put into the run of @main: every weakly fair execution terminates, nothing faults, and
   every unscoped buffer ends at the last boundary's contents — in particular the seven argument arrays end as
   launched (the frame), and the result array ends at what region 2's write-backs leave. -/
import proofs.«171258_g71622874628668_fold_wed_m_490_3_alg».proof.Proof.K.Run
import proofs.«171258_g71622874628668_fold_wed_m_490_3_alg».proof.Proof.K.Reg0
import proofs.«171258_g71622874628668_fold_wed_m_490_3_alg».proof.Proof.K.Reg1
import proofs.«171258_g71622874628668_fold_wed_m_490_3_alg».proof.Proof.K.Reg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-- Region 0's half meets what the run asks of it. -/
theorem half0 : Half0 (F := F) dat0 :=
  ⟨fun V c w => A_eq0 V c w, fun _ _ _ => rfl, fun _ _ _ => rfl, fun _ _ => rfl,
    fun V c => body_obligation0 V c, fun V c => hin0 V c, fun V c => hout0 V c⟩

/-- Region 1's half: windows 2 and 3 hold the array they share in halves. -/
theorem half1 : Half1 (F := F) dat1 :=
  ⟨fun V c w => A_eq1 V c w, fun _ _ => rfl, fun _ _ => rfl, fun _ _ => rfl, fun _ _ => rfl, fun _ _ _ => rfl, fun _ _ => rfl,
    fun V c => body_obligation1 V c, fun V c => hin1 V c, fun V c => hout1 V c⟩

/-- Region 2's half: windows 1 and 2 hold the array they share in halves. -/
theorem half2 : Half2 (F := F) dat2 :=
  ⟨fun V c w => A_eq2 V c w, fun _ _ => rfl, fun _ _ => rfl, fun _ _ => rfl, fun _ _ => rfl, fun _ _ => rfl, fun _ _ => rfl,
    fun _ _ _ => rfl, fun _ _ => rfl, fun V c => body_obligation2 V c, fun V c => hin2 V c, fun V c => hout2 V c⟩

variable (m : (ℓ : Loc nD τ sig) → Buf (Elt F) ℓ) (ρ : Dev nD → PrngReg)

/-- The run with every unscoped buffer's final contents named. -/
theorem run_named : θ_run defs (onTc (τ := τ) (main (F := F))) ⟨m, fun _ => 0, ρ⟩ (fun r => ∀ c : Dev nD,
      ∀ b ∈ Pipeline.ucRefs τ sig, r.2.mem ((c : Thread nD τ).1, b) = W5 dat0 dat1 dat2 m ρ c b) :=
  run_main dat0 dat1 dat2 m ρ half0 half1 half2

/-- The run with the result array and the seven argument arrays read off. -/
theorem run_value : θ_run defs (onTc (τ := τ) (main (F := F))) ⟨m, fun _ => 0, ρ⟩ (fun r => ∀ c : Dev nD,
      r.2.mem ((c.tc : Thread nD τ).loc main_v4) = (dat2 (V4 dat0 dat1 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (W5_main_v4 _ _ _ m ρ c),
     (h c _ (mem_uc main_arg0 (by decide))).trans (W5_main_arg0 _ _ _ m ρ half0 c),
     (h c _ (mem_uc main_arg1 (by decide))).trans (W5_main_arg1 _ _ _ m ρ c),
     (h c _ (mem_uc main_arg2 (by decide))).trans (W5_main_arg2 _ _ _ m ρ c),
     (h c _ (mem_uc main_arg3 (by decide))).trans (W5_main_arg3 _ _ _ m ρ half0 c),
     (h c _ (mem_uc main_arg4 (by decide))).trans (W5_main_arg4 _ _ _ m ρ c),
     (h c _ (mem_uc main_arg5 (by decide))).trans (W5_main_arg5 _ _ _ m ρ c),
     (h c _ (mem_uc main_arg6 (by decide))).trans (W5_main_arg6 _ _ _ m ρ c)⟩)
    (run_named m ρ)

/-- THE FRAME: the program runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.Kernel.Hand

end
-- ==== Proof.KI.Run.lean ====
/-
  THE RUN of @main through its five segments — the host stretch `hostOps0`, region 0, region 1, the host stretch
  `hostOps2`, region 2 — over `Pipeline.θ_run_regions_kit`, stated over ABSTRACT halves of the three regions: proof data
  `dat0 dat1 dat2` at a parameter valuation, and of each only that its arrays are read off the valuation, the share it
  holds each input array at, that it owes and bounds nothing, its body obligation, and its invariant into and out of the
  class-A one (`Half0`, `Half1`, `Half2`).

  The buffer contents at the segment boundaries are a fold from the launch memory: `W1` after `hostOps0`; `W2` region 0's
  arrays at what its write-backs leave; `W3` region 1's two output arrays at what its write-backs leave; `W4` after
  `hostOps2`; `W5` region 2's output array at what its write-backs leave. Regions 1 and 2 each hand ONE array to two input
  windows: at the entry that array's full share is split into its left and right halves, one per window, and at the exit
  the two halves — an input array is never written, so both still hold the entry contents — are joined into the full
  share again. The conclusion `run_main`: every final state has every unscoped buffer of every core at `W5`.
-/
import proofs.«171258_g71622874628668_fold_wed_m_490_3_alg».proof.Proof.Gen.KernelIdeal.Launch
import proofs.«171258_g71622874628668_fold_wed_m_490_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The TensorCore's buffer contents on every core: what a region's half is stated at. -/
abbrev VT (F : FTy → Type) : Type := (c : Dev nD) → (b : Ref sig .tc) → Buf (Elt F) ((c : Thread nD τ).loc b)

/-! ## Regions whose windows share an array: the arrays out of the unscoped buffers and back -/

section Shared

variable {c : Dev nD}

/-- The distinct buffers behind region 1's arrays, one by one. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_arg1) ↦{fullShare} V main_arg1) ∗ (((c : Thread nD τ).loc main_arg2) ↦{fullShare} V main_arg2)
          ∗ (((c : Thread nD τ).loc main_v1) ↦{fullShare} V main_v1) ∗ (((c : Thread nD τ).loc main_v2_0) ↦{fullShare} V main_v2_0)
          ∗ (((c : Thread nD τ).loc main_v2_1) ↦{fullShare} V main_v2_1)) := by
  unfold Pipeline.arrBufs
  exact bigSep_eq_bigSepL_of_eq [main_arg1, main_arg2, main_v1, main_v2_0, main_v2_1] (by decide) (by decide) _

/-- Region 1's arrays, window by window: each a whole buffer at the window's share. -/
theorem arrays1_eq (dat : Dat τ (Elt F) Unit ℕ (UR sig nD τ) ℕ cfg1 c)
    (hq0 : dat.q 0 = fullShare) (hq1 : dat.q 1 = fullShare) (hq2 : dat.q 2 = fullShare.left) (hq3 : dat.q 3 = fullShare.right)
    (G : (w : Fin cfg1.W) → Buf (Elt F) ((cfg1.win w).arr.view.loc (c : Thread nD τ))) :
    (dat.arrays G : sProp 𝕄)
      = iprop((((c : Thread nD τ).loc main_arg1) ↦{fullShare} G 0) ∗ (((c : Thread nD τ).loc main_arg2) ↦{fullShare} G 1)
          ∗ (((c : Thread nD τ).loc main_v1) ↦{fullShare.left} G 2) ∗ (((c : Thread nD τ).loc main_v1) ↦{fullShare.right} G 3)
          ∗ (((c : Thread nD τ).loc main_v2_0) ↦{fullShare} G 4) ∗ (((c : Thread nD τ).loc main_v2_1) ↦{fullShare} G 5)) := by
  unfold Dat.arrays
  rw [bigSep_W1]
  rw [(arr_whole1 0).set_eq_univ, (arr_whole1 1).set_eq_univ, (arr_whole1 2).set_eq_univ,
    (arr_whole1 4).set_eq_univ, (arr_whole1 5).set_eq_univ]
  rw [show dat.share 0 = fullShare from hq0, show dat.share 1 = fullShare from hq1, show dat.share 2 = fullShare.left from hq2,
    show dat.share 3 = fullShare.right from hq3, show dat.share 4 = fullShare from rfl, show dat.share 5 = fullShare from rfl]

end Shared

section Shared1

variable {c : Dev nD}

/-- ENTRY of region 1, the arrays' part (the library's `arrays_of_unscopedBufs` without the arrays' distinctness): the
    buffer behind windows 2 and 3 is dealt to them in halves. -/
theorem arrays_of_unscopedBufs1 (dat : Dat τ (Elt F) Unit ℕ (UR sig nD τ) ℕ cfg1 c)
    (hq0 : dat.q 0 = fullShare) (hq1 : dat.q 1 = fullShare) (hq2 : dat.q 2 = fullShare.left) (hq3 : dat.q 3 = fullShare.right)
    (V : (b : Ref sig .tc) → Buf (Elt F) ((c : Thread nD τ).loc b)) (hA : ∀ w, dat.A w = V (Pipeline.arrRef spec1 w)) :
    (unscopedBufs c V : sProp 𝕄) ⊢ iprop(dat.arrays (dat.arrAt · 0) ∗ Pipeline.unscopedRest spec1 c V) := by
  rw [Pipeline.unscopedBufs_split₀ cfgs 1 winFacts₀1.arr_unscoped c V]
  refine sep_mono ?_ .rfl
  rw [show Pipeline.arrBufs (cfgs 1).spec c V = Pipeline.arrBufs spec1 c V from rfl, arrBufs1_eq, arrays1_eq dat hq0 hq1 hq2 hq3]
  simp only [show ∀ w, dat.arrAt w 0 = dat.A w from fun _ => rfl, hA]
  iintro ⟨H0, H1, H2, H4, H5⟩
  isplitl [H0]; · iexact H0
  isplitl [H1]; · iexact H1
  ihave H := (pointsTo_share (PosShare.mem_left_op_right fullShare)).1 $$ H2
  icases H with ⟨Hl, Hr⟩
  isplitl [Hl]; · iexact Hl
  isplitl [Hr]; · iexact Hr
  isplitl [H4]; · iexact H4
  iexact H5

/-- EXIT of region 1, the arrays' part (the library's `unscopedBufs_of_arrays` without the arrays' distinctness): the
    two halves of the shared input, still at the entry contents, make its buffer whole again. -/
theorem unscopedBufs_of_arrays1 (dat : Dat τ (Elt F) Unit ℕ (UR sig nD τ) ℕ cfg1 c)
    (hq0 : dat.q 0 = fullShare) (hq1 : dat.q 1 = fullShare) (hq2 : dat.q 2 = fullShare.left) (hq3 : dat.q 3 = fullShare.right)
    (V V' : (b : Ref sig .tc) → Buf (Elt F) ((c : Thread nD τ).loc b))
    (hF : ∀ w, dat.arrAt w cfg1.N = V' (Pipeline.arrRef spec1 w))
    (hrest : ∀ b, b ∉ Finset.univ.image (Pipeline.arrRef spec1) → V' b = V b) :
    iprop(dat.arrays (dat.arrAt · cfg1.N) ∗ Pipeline.unscopedRest spec1 c V) ⊢ (unscopedBufs c V' : sProp 𝕄) := by
  rw [Pipeline.unscopedBufs_split₀ cfgs 1 winFacts₀1.arr_unscoped c V']
  refine sep_mono ?_ (Entails.of_eq ?_)
  · rw [show Pipeline.arrBufs (cfgs 1).spec c V' = Pipeline.arrBufs spec1 c V' from rfl, arrBufs1_eq, arrays1_eq dat hq0 hq1 hq2 hq3]
    simp only [hF]
    iintro ⟨H0, H1, Hl, Hr, H4, H5⟩
    isplitl [H0]; · iexact H0
    isplitl [H1]; · iexact H1
    isplitl [Hl Hr]
    · iapply (pointsTo_share (PosShare.mem_left_op_right fullShare)).2
      isplitl [Hl]; · iexact Hl
      iexact Hr
    isplitl [H4]; · iexact H4
    iexact H5
  · show Pipeline.unscopedRest spec1 c V = Pipeline.unscopedRest spec1 c V'
    unfold Pipeline.unscopedRest
    exact bigSep_congr fun b hb => by rw [hrest b (Finset.mem_sdiff.mp hb).2]

end Shared1

section Shared2

variable {c : Dev nD}

/-- The distinct buffers behind region 2's arrays, one by one. -/
theorem arrBufs2_eq (c : Dev nD) (V : (b : Ref sig .tc) → Buf (Elt F) ((c : Thread nD τ).loc b)) :
    (Pipeline.arrBufs (Ix := Unit) (Name := ℕ) (U := UR sig nD τ) (Lvl := ℕ) spec2 c V : sProp 𝕄)
      = iprop((((c : Thread nD τ).loc main_arg1) ↦{fullShare} V main_arg1) ∗ (((c : Thread nD τ).loc main_v2_0) ↦{fullShare} V main_v2_0)
          ∗ (((c : Thread nD τ).loc main_v2_1) ↦{fullShare} V main_v2_1) ∗ (((c : Thread nD τ).loc main_arg5) ↦{fullShare} V main_arg5)
          ∗ (((c : Thread nD τ).loc main_v3) ↦{fullShare} V main_v3) ∗ (((c : Thread nD τ).loc main_v4) ↦{fullShare} V main_v4)) := by
  unfold Pipeline.arrBufs
  exact bigSep_eq_bigSepL_of_eq [main_arg1, main_v2_0, main_v2_1, main_arg5, main_v3, main_v4] (by decide) (by decide) _

/-- Region 2's arrays, window by window: each a whole buffer at the window's share. -/
theorem arrays2_eq (dat : Dat τ (Elt F) Unit ℕ (UR sig nD τ) ℕ cfg2 c)
    (hq0 : dat.q 0 = fullShare) (hq1 : dat.q 1 = fullShare.left) (hq2 : dat.q 2 = fullShare.right) (hq3 : dat.q 3 = fullShare)
    (hq4 : dat.q 4 = fullShare) (hq5 : dat.q 5 = fullShare)
    (G : (w : Fin cfg2.W) → Buf (Elt F) ((cfg2.win w).arr.view.loc (c : Thread nD τ))) :
    (dat.arrays G : sProp 𝕄)
      = iprop((((c : Thread nD τ).loc main_arg1) ↦{fullShare} G 0)
          ∗ (((c : Thread nD τ).loc main_v2_0) ↦{fullShare.left} G 1) ∗ (((c : Thread nD τ).loc main_v2_0) ↦{fullShare.right} G 2)
          ∗ (((c : Thread nD τ).loc main_v2_1) ↦{fullShare} G 3) ∗ (((c : Thread nD τ).loc main_arg5) ↦{fullShare} G 4)
          ∗ (((c : Thread nD τ).loc main_v3) ↦{fullShare} G 5) ∗ (((c : Thread nD τ).loc main_v4) ↦{fullShare} G 6)) := by
  unfold Dat.arrays
  rw [bigSep_W2]
  rw [(arr_whole2 0).set_eq_univ, (arr_whole2 1).set_eq_univ, (arr_whole2 3).set_eq_univ,
    (arr_whole2 4).set_eq_univ, (arr_whole2 5).set_eq_univ, (arr_whole2 6).set_eq_univ]
  rw [show dat.share 0 = fullShare from hq0, show dat.share 1 = fullShare.left from hq1, show dat.share 2 = fullShare.right from hq2,
    show dat.share 3 = fullShare from hq3, show dat.share 4 = fullShare from hq4, show dat.share 5 = fullShare from hq5,
    show dat.share 6 = fullShare from rfl]

/-- ENTRY of region 2, the arrays' part: the buffer behind windows 1 and 2 is dealt to them in halves. -/
theorem arrays_of_unscopedBufs2 (dat : Dat τ (Elt F) Unit ℕ (UR sig nD τ) ℕ cfg2 c)
    (hq0 : dat.q 0 = fullShare) (hq1 : dat.q 1 = fullShare.left) (hq2 : dat.q 2 = fullShare.right) (hq3 : dat.q 3 = fullShare)
    (hq4 : dat.q 4 = fullShare) (hq5 : dat.q 5 = fullShare)
    (V : (b : Ref sig .tc) → Buf (Elt F) ((c : Thread nD τ).loc b)) (hA : ∀ w, dat.A w = V (Pipeline.arrRef spec2 w)) :
    (unscopedBufs c V : sProp 𝕄) ⊢ iprop(dat.arrays (dat.arrAt · 0) ∗ Pipeline.unscopedRest spec2 c V) := by
  rw [Pipeline.unscopedBufs_split₀ cfgs 2 winFacts₀2.arr_unscoped c V]
  refine sep_mono ?_ .rfl
  rw [show Pipeline.arrBufs (cfgs 2).spec c V = Pipeline.arrBufs spec2 c V from rfl, arrBufs2_eq, arrays2_eq dat hq0 hq1 hq2 hq3 hq4 hq5]
  simp only [show ∀ w, dat.arrAt w 0 = dat.A w from fun _ => rfl, hA]
  iintro ⟨H0, H1, H3, H4, H5, H6⟩
  isplitl [H0]; · iexact H0
  ihave H := (pointsTo_share (PosShare.mem_left_op_right fullShare)).1 $$ H1
  icases H with ⟨Hl, Hr⟩
  isplitl [Hl]; · iexact Hl
  isplitl [Hr]; · iexact Hr
  isplitl [H3]; · iexact H3
  isplitl [H4]; · iexact H4
  isplitl [H5]; · iexact H5
  iexact H6

/-- EXIT of region 2, the arrays' part: the two halves of the shared input, still at the entry contents, make its
    buffer whole again. -/
theorem unscopedBufs_of_arrays2 (dat : Dat τ (Elt F) Unit ℕ (UR sig nD τ) ℕ cfg2 c)
    (hq0 : dat.q 0 = fullShare) (hq1 : dat.q 1 = fullShare.left) (hq2 : dat.q 2 = fullShare.right) (hq3 : dat.q 3 = fullShare)
    (hq4 : dat.q 4 = fullShare) (hq5 : dat.q 5 = fullShare)
    (V V' : (b : Ref sig .tc) → Buf (Elt F) ((c : Thread nD τ).loc b))
    (hF : ∀ w, dat.arrAt w cfg2.N = V' (Pipeline.arrRef spec2 w))
    (hrest : ∀ b, b ∉ Finset.univ.image (Pipeline.arrRef spec2) → V' b = V b) :
    iprop(dat.arrays (dat.arrAt · cfg2.N) ∗ Pipeline.unscopedRest spec2 c V) ⊢ (unscopedBufs c V' : sProp 𝕄) := by
  rw [Pipeline.unscopedBufs_split₀ cfgs 2 winFacts₀2.arr_unscoped c V']
  refine sep_mono ?_ (Entails.of_eq ?_)
  · rw [show Pipeline.arrBufs (cfgs 2).spec c V' = Pipeline.arrBufs spec2 c V' from rfl, arrBufs2_eq, arrays2_eq dat hq0 hq1 hq2 hq3 hq4 hq5]
    simp only [hF]
    iintro ⟨H0, Hl, Hr, H3, H4, H5, H6⟩
    isplitl [H0]; · iexact H0
    isplitl [Hl Hr]
    · iapply (pointsTo_share (PosShare.mem_left_op_right fullShare)).2
      isplitl [Hl]; · iexact Hl
      iexact Hr
    isplitl [H3]; · iexact H3
    isplitl [H4]; · iexact H4
    isplitl [H5]; · iexact H5
    iexact H6
  · show Pipeline.unscopedRest spec2 c V = Pipeline.unscopedRest spec2 c V'
    unfold Pipeline.unscopedRest
    exact bigSep_congr fun b hb => by rw [hrest b (Finset.mem_sdiff.mp hb).2]

end Shared2

section Owes

variable {cfg : Cfg sig Λ₀} {c : Dev nD}

/-- A core owing nothing, its recorded pairs unconstrained, is what a pipeline that owes nothing at its first point and
    bounds nothing there is entered with. -/
theorem owesAt_zero_of (dat : Dat τ (Elt F) Unit ℕ (UR sig nD τ) ℕ cfg c) (ho : dat.owed 0 = 0) (hr : dat.recorded 0 = Set.univ) :
    (iprop(∃ W, owes (c : Thread nD τ) (0 : CellTallies nD τ sig Unit) W) : sProp 𝕄) ⊢ dat.owesAt () 0 := by
  unfold Pipeline.Dat.owesAt Pipeline.owesWithin Pipeline.Dat.bound
  rw [ho, hr]
  iintro ⟨%W, HO⟩; iexists W; isplitr; · ipureintro; exact fun _ _ => Or.inl trivial
  iexact HO

/-- A pipeline that owes nothing after its last point leaves the core owing nothing. -/
theorem owes_of_owesAt_last (dat : Dat τ (Elt F) Unit ℕ (UR sig nD τ) ℕ cfg c) (ho : dat.owed (Fin.last cfg.N) = 0) :
    dat.owesAt () (Fin.last cfg.N) ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

end Owes

/-! # What the run needs of a region's half -/

/-- Region 0's half (class A): the arrays read off the entry contents, full shares, nothing owed or bounded, the body
    obligation, the invariant into and out of the class-A one. -/
structure Half0 (dat0 : VT F → (c : Dev nD) → Dat τ (Elt F) Unit ℕ (UR sig nD τ) ℕ cfg0 c) : Prop where
  A_eq : ∀ (V : VT F) (c : Dev nD) (w : Fin cfg0.W), (dat0 V c).A w = V c (Pipeline.arrRef spec0 w)
  hq : ∀ (V : VT F) (c : Dev nD) (w : Fin cfg0.W), (dat0 V c).q w = fullShare
  howed : ∀ (V : VT F) (c : Dev nD) (t : Fin (cfg0.N + 1)), (dat0 V c).owed t = 0
  hrec : ∀ (V : VT F) (c : Dev nD), (dat0 V c).recorded 0 = Set.univ
  hbody : ∀ (V : VT F) (c : Dev nD), BodyObligation (dat0 V c) (defs₀ (F := F)) Variants.none () Set.univ
  hin : ∀ (V : VT F) (c : Dev nD), (Pipeline.ΦA spec0 c : sProp 𝕄) ⊢ (dat0 V c).Φ 0
  hout : ∀ (V : VT F) (c : Dev nD), (dat0 V c).Φ (Fin.last cfg0.N) ⊢ (Pipeline.ΦA spec0 c : sProp 𝕄)

/-- Region 1's half (class R): windows 2 and 3 hold their common array in halves. -/
structure Half1 (dat1 : VT F → (c : Dev nD) → Dat τ (Elt F) Unit ℕ (UR sig nD τ) ℕ cfg1 c) : Prop where
  A_eq : ∀ (V : VT F) (c : Dev nD) (w : Fin cfg1.W), (dat1 V c).A w = V c (Pipeline.arrRef spec1 w)
  hq0 : ∀ (V : VT F) (c : Dev nD), (dat1 V c).q 0 = fullShare
  hq1 : ∀ (V : VT F) (c : Dev nD), (dat1 V c).q 1 = fullShare
  hq2 : ∀ (V : VT F) (c : Dev nD), (dat1 V c).q 2 = fullShare.left
  hq3 : ∀ (V : VT F) (c : Dev nD), (dat1 V c).q 3 = fullShare.right
  howed : ∀ (V : VT F) (c : Dev nD) (t : Fin (cfg1.N + 1)), (dat1 V c).owed t = 0
  hrec : ∀ (V : VT F) (c : Dev nD), (dat1 V c).recorded 0 = Set.univ
  hbody : ∀ (V : VT F) (c : Dev nD), BodyObligation (dat1 V c) (defs₀ (F := F)) Variants.none () Set.univ
  hin : ∀ (V : VT F) (c : Dev nD), (Pipeline.ΦA spec1 c : sProp 𝕄) ⊢ (dat1 V c).Φ 0
  hout : ∀ (V : VT F) (c : Dev nD), (dat1 V c).Φ (Fin.last cfg1.N) ⊢ (Pipeline.ΦA spec1 c : sProp 𝕄)

/-- Region 2's half (class R): windows 1 and 2 hold their common array in halves. -/
structure Half2 (dat2 : VT F → (c : Dev nD) → Dat τ (Elt F) Unit ℕ (UR sig nD τ) ℕ cfg2 c) : Prop where
  A_eq : ∀ (V : VT F) (c : Dev nD) (w : Fin cfg2.W), (dat2 V c).A w = V c (Pipeline.arrRef spec2 w)
  hq0 : ∀ (V : VT F) (c : Dev nD), (dat2 V c).q 0 = fullShare
  hq1 : ∀ (V : VT F) (c : Dev nD), (dat2 V c).q 1 = fullShare.left
  hq2 : ∀ (V : VT F) (c : Dev nD), (dat2 V c).q 2 = fullShare.right
  hq3 : ∀ (V : VT F) (c : Dev nD), (dat2 V c).q 3 = fullShare
  hq4 : ∀ (V : VT F) (c : Dev nD), (dat2 V c).q 4 = fullShare
  hq5 : ∀ (V : VT F) (c : Dev nD), (dat2 V c).q 5 = fullShare
  howed : ∀ (V : VT F) (c : Dev nD) (t : Fin (cfg2.N + 1)), (dat2 V c).owed t = 0
  hrec : ∀ (V : VT F) (c : Dev nD), (dat2 V c).recorded 0 = Set.univ
  hbody : ∀ (V : VT F) (c : Dev nD), BodyObligation (dat2 V c) (defs₀ (F := F)) Variants.none () Set.univ
  hin : ∀ (V : VT F) (c : Dev nD), (Pipeline.ΦA spec2 c : sProp 𝕄) ⊢ (dat2 V c).Φ 0
  hout : ∀ (V : VT F) (c : Dev nD), (dat2 V c).Φ (Fin.last cfg2.N) ⊢ (Pipeline.ΦA spec2 c : sProp 𝕄)
section Run

/-! # The three regions' halves, abstractly: the proof data at a parameter and what the run needs of them -/

variable (dat0 : VT F → (c : Dev nD) → Dat τ (Elt F) Unit ℕ (UR sig nD τ) ℕ cfg0 c)
variable (dat1 : VT F → (c : Dev nD) → Dat τ (Elt F) Unit ℕ (UR sig nD τ) ℕ cfg1 c)
variable (dat2 : VT F → (c : Dev nD) → Dat τ (Elt F) Unit ℕ (UR sig nD τ) ℕ cfg2 c)

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After `hostOps0` (region 0's entry). -/
abbrev W1 : Dev nD → Valuation τ sig (Elt F) := fun c => StableHlo.after hostOps0 (W0 m ρ c)
abbrev V1 : VT F := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 dat0 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 dat0 m ρ c (Proc.devRef .tc b) = W1 m ρ c (Proc.devRef .tc b) := by
  unfold W2; exact Pipeline.withArrays_of_ne spec0 c _ _ b hb
abbrev V2 : VT F := fun c b => W2 dat0 m ρ c b
theorem hF0 (c : Dev nD) (w : Fin cfg0.W) : (dat0 (V1 m ρ) c).arrAt w cfg0.N = V2 dat0 m ρ c (Pipeline.arrRef spec0 w) :=
  (W2_arr dat0 m ρ c w).symm
theorem hrest0 (c : Dev nD) : ∀ b, b ∉ Finset.univ.image (Pipeline.arrRef spec0) → V2 dat0 m ρ c b = V1 m ρ c b :=
  fun b hb => W2_of_ne dat0 m ρ c b fun w e => hb (Finset.mem_image.mpr ⟨w, Finset.mem_univ _, e⟩)

/-- At region 1's exit: its two output arrays at what the pipeline's write-backs leave, every other buffer as entered. -/
def W3 (c : Dev nD) : Valuation τ sig (Elt F) :=
  Function.update (Function.update (W2 dat0 m ρ c) (Proc.devRef .tc main_v2_0) ((dat1 (V2 dat0 m ρ) c).arrAt 4 cfg1.N))
    (Proc.devRef .tc main_v2_1) ((dat1 (V2 dat0 m ρ) c).arrAt 5 cfg1.N)
abbrev V3 : VT F := fun c b => W3 dat0 dat1 m ρ c b
/-- After `hostOps2` (region 2's entry). -/
abbrev W4 : Dev nD → Valuation τ sig (Elt F) := fun c => StableHlo.after hostOps2 (W3 dat0 dat1 m ρ c)
abbrev V4 : VT F := fun c b => W4 dat0 dat1 m ρ c b
/-- At region 2's exit. -/
def W5 (c : Dev nD) : Valuation τ sig (Elt F) :=
  Function.update (W4 dat0 dat1 m ρ c) (Proc.devRef .tc main_v4) ((dat2 (V4 dat0 dat1 m ρ) c).arrAt 6 cfg2.N)
abbrev V5 : VT F := fun c b => W5 dat0 dat1 dat2 m ρ c b

/-! ## What each segment leaves unchanged -/

theorem W1_of (c : Dev nD) (b : Ref sig .tc) (h : b ∉ hostOps0_W) : W1 m ρ c (Proc.devRef .tc b) = W0 m ρ c (Proc.devRef .tc b) :=
  StableHlo.after_of_writes_sub hostOps0 _ hostOps0_writes h
theorem W3_of_ne (c : Dev nD) (b : Ref sig .tc) (h0 : b ≠ main_v2_0) (h1 : b ≠ main_v2_1) :
    W3 dat0 dat1 m ρ c (Proc.devRef .tc b) = W2 dat0 m ρ c (Proc.devRef .tc b) := by
  unfold W3
  rw [Function.update_of_ne (StableHlo.devRef_ne_of_ne h1), Function.update_of_ne (StableHlo.devRef_ne_of_ne h0)]
theorem W3_main_v2_0 (c : Dev nD) : W3 dat0 dat1 m ρ c (Proc.devRef .tc main_v2_0) = (dat1 (V2 dat0 m ρ) c).arrAt 4 cfg1.N := by
  unfold W3
  rw [Function.update_of_ne (StableHlo.devRef_ne_of_ne (by decide)), Function.update_self]
theorem W3_main_v2_1 (c : Dev nD) : W3 dat0 dat1 m ρ c (Proc.devRef .tc main_v2_1) = (dat1 (V2 dat0 m ρ) c).arrAt 5 cfg1.N := by
  unfold W3
  rw [Function.update_self]
theorem W4_of (c : Dev nD) (b : Ref sig .tc) (h : b ∉ hostOps2_W) :
    W4 dat0 dat1 m ρ c (Proc.devRef .tc b) = W3 dat0 dat1 m ρ c (Proc.devRef .tc b) :=
  StableHlo.after_of_writes_sub hostOps2 _ hostOps2_writes h
theorem W5_of_ne (c : Dev nD) (b : Ref sig .tc) (h : b ≠ main_v4) :
    W5 dat0 dat1 dat2 m ρ c (Proc.devRef .tc b) = W4 dat0 dat1 m ρ c (Proc.devRef .tc b) := by
  unfold W5
  rw [Function.update_of_ne (StableHlo.devRef_ne_of_ne h)]
/-- The result array at the end: what region 2's write-backs leave. -/
theorem W5_main_v4 (c : Dev nD) : W5 dat0 dat1 dat2 m ρ c (Proc.devRef .tc main_v4) = (dat2 (V4 dat0 dat1 m ρ) c).arrAt 6 cfg2.N := by
  unfold W5
  rw [Function.update_self]

variable (h0 : Half0 dat0) (h1 : Half1 dat1) (h2 : Half2 dat2)

include h0 in
/-- An input array of region 0 leaves it as it entered. -/
theorem W2_in (c : Dev nD) (w : Fin cfg0.W) (hw : (cfg0.win w).isOut = false) :
    W2 dat0 m ρ c (Proc.devRef .tc (Pipeline.arrRef spec0 w)) = W1 m ρ c (Proc.devRef .tc (Pipeline.arrRef spec0 w)) :=
  (W2_arr dat0 m ρ c w).trans (((dat0 (V1 m ρ) c).arrAt_in w hw _).trans (h0.A_eq (V1 m ρ) c w))

/-! ### The arguments end as launched -/

include h0 in
theorem W5_main_arg0 (c : Dev nD) : W5 dat0 dat1 dat2 m ρ c (Proc.devRef .tc main_arg0) = m ((c : Thread nD τ).loc main_arg0) :=
  (W5_of_ne dat0 dat1 dat2 m ρ c main_arg0 (by decide)).trans <| (W4_of dat0 dat1 m ρ c main_arg0 (by decide)).trans <|
    (W3_of_ne dat0 dat1 m ρ c main_arg0 (by decide) (by decide)).trans <| (W2_in dat0 m ρ h0 c 0 rfl).trans <|
    (W1_of m ρ c main_arg0 (by decide)).trans rfl
theorem W5_main_arg1 (c : Dev nD) : W5 dat0 dat1 dat2 m ρ c (Proc.devRef .tc main_arg1) = m ((c : Thread nD τ).loc main_arg1) :=
  (W5_of_ne dat0 dat1 dat2 m ρ c main_arg1 (by decide)).trans <| (W4_of dat0 dat1 m ρ c main_arg1 (by decide)).trans <|
    (W3_of_ne dat0 dat1 m ρ c main_arg1 (by decide) (by decide)).trans <| (W2_of_ne dat0 m ρ c main_arg1 (by decide)).trans <|
    (W1_of m ρ c main_arg1 (by decide)).trans rfl
theorem W5_main_arg2 (c : Dev nD) : W5 dat0 dat1 dat2 m ρ c (Proc.devRef .tc main_arg2) = m ((c : Thread nD τ).loc main_arg2) :=
  (W5_of_ne dat0 dat1 dat2 m ρ c main_arg2 (by decide)).trans <| (W4_of dat0 dat1 m ρ c main_arg2 (by decide)).trans <|
    (W3_of_ne dat0 dat1 m ρ c main_arg2 (by decide) (by decide)).trans <| (W2_of_ne dat0 m ρ c main_arg2 (by decide)).trans <|
    (W1_of m ρ c main_arg2 (by decide)).trans rfl
include h0 in
theorem W5_main_arg3 (c : Dev nD) : W5 dat0 dat1 dat2 m ρ c (Proc.devRef .tc main_arg3) = m ((c : Thread nD τ).loc main_arg3) :=
  (W5_of_ne dat0 dat1 dat2 m ρ c main_arg3 (by decide)).trans <| (W4_of dat0 dat1 m ρ c main_arg3 (by decide)).trans <|
    (W3_of_ne dat0 dat1 m ρ c main_arg3 (by decide) (by decide)).trans <| (W2_in dat0 m ρ h0 c 1 rfl).trans <|
    (W1_of m ρ c main_arg3 (by decide)).trans rfl
theorem W5_main_arg4 (c : Dev nD) : W5 dat0 dat1 dat2 m ρ c (Proc.devRef .tc main_arg4) = m ((c : Thread nD τ).loc main_arg4) :=
  (W5_of_ne dat0 dat1 dat2 m ρ c main_arg4 (by decide)).trans <| (W4_of dat0 dat1 m ρ c main_arg4 (by decide)).trans <|
    (W3_of_ne dat0 dat1 m ρ c main_arg4 (by decide) (by decide)).trans <| (W2_of_ne dat0 m ρ c main_arg4 (by decide)).trans <|
    (W1_of m ρ c main_arg4 (by decide)).trans rfl
theorem W5_main_arg5 (c : Dev nD) : W5 dat0 dat1 dat2 m ρ c (Proc.devRef .tc main_arg5) = m ((c : Thread nD τ).loc main_arg5) :=
  (W5_of_ne dat0 dat1 dat2 m ρ c main_arg5 (by decide)).trans <| (W4_of dat0 dat1 m ρ c main_arg5 (by decide)).trans <|
    (W3_of_ne dat0 dat1 m ρ c main_arg5 (by decide) (by decide)).trans <| (W2_of_ne dat0 m ρ c main_arg5 (by decide)).trans <|
    (W1_of m ρ c main_arg5 (by decide)).trans rfl
theorem W5_main_arg6 (c : Dev nD) : W5 dat0 dat1 dat2 m ρ c (Proc.devRef .tc main_arg6) = m ((c : Thread nD τ).loc main_arg6) :=
  (W5_of_ne dat0 dat1 dat2 m ρ c main_arg6 (by decide)).trans <| (W4_of dat0 dat1 m ρ c main_arg6 (by decide)).trans <|
    (W3_of_ne dat0 dat1 m ρ c main_arg6 (by decide) (by decide)).trans <| (W2_of_ne dat0 m ρ c main_arg6 (by decide)).trans <|
    (W1_of m ρ c main_arg6 (by decide)).trans rfl

/-! ## The proof data family and the thread state -/

/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 dat0 m ρ) c
  | ⟨2, _⟩ => fun c => dat2 (V4 dat0 dat1 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its `owes`, at
    nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents `W5`, the generator
    register at some state. -/
abbrev Tₙ (c : Dev nD) : sProp 𝕄 :=
  iprop(StableHlo.held (c : Thread nD τ) (Pipeline.ucRefs τ sig) (W5 dat0 dat1 dat2 m ρ c) ∗ ∃ r, prngReg c r)

/-! ### The exits' two hypotheses for regions 1 and 2 -/

include h1 in
/-- At region 1's exit each of its arrays holds what the pipeline leaves: an input as entered, an output its write-backs. -/
theorem hF1 (c : Dev nD) (w : Fin cfg1.W) : (dat1 (V2 dat0 m ρ) c).arrAt w cfg1.N = V3 dat0 dat1 m ρ c (Pipeline.arrRef spec1 w) := by
  have hin : ∀ w : Fin cfg1.W, (cfg1.win w).isOut = false → Pipeline.arrRef spec1 w ≠ main_v2_0 → Pipeline.arrRef spec1 w ≠ main_v2_1 →
      (dat1 (V2 dat0 m ρ) c).arrAt w cfg1.N = V3 dat0 dat1 m ρ c (Pipeline.arrRef spec1 w) := fun w hw e0 e1 =>
    (((dat1 (V2 dat0 m ρ) c).arrAt_in w hw _).trans (h1.A_eq (V2 dat0 m ρ) c w)).trans (W3_of_ne dat0 dat1 m ρ c _ e0 e1).symm
  match w with
  | ⟨0, _⟩ => exact hin 0 rfl (by decide) (by decide)
  | ⟨1, _⟩ => exact hin 1 rfl (by decide) (by decide)
  | ⟨2, _⟩ => exact hin 2 rfl (by decide) (by decide)
  | ⟨3, _⟩ => exact hin 3 rfl (by decide) (by decide)
  | ⟨4, _⟩ => exact (W3_main_v2_0 dat0 dat1 m ρ c).symm
  | ⟨5, _⟩ => exact (W3_main_v2_1 dat0 dat1 m ρ c).symm
theorem hrest1 (c : Dev nD) : ∀ b, b ∉ Finset.univ.image (Pipeline.arrRef spec1) → V3 dat0 dat1 m ρ c b = V2 dat0 m ρ c b :=
  fun b hb => W3_of_ne dat0 dat1 m ρ c b
    (fun e => hb (Finset.mem_image.mpr ⟨4, Finset.mem_univ _, e.symm⟩)) (fun e => hb (Finset.mem_image.mpr ⟨5, Finset.mem_univ _, e.symm⟩))

include h2 in
/-- At region 2's exit likewise. -/
theorem hF2 (c : Dev nD) (w : Fin cfg2.W) :
    (dat2 (V4 dat0 dat1 m ρ) c).arrAt w cfg2.N = V5 dat0 dat1 dat2 m ρ c (Pipeline.arrRef spec2 w) := by
  have hin : ∀ w : Fin cfg2.W, (cfg2.win w).isOut = false → Pipeline.arrRef spec2 w ≠ main_v4 →
      (dat2 (V4 dat0 dat1 m ρ) c).arrAt w cfg2.N = V5 dat0 dat1 dat2 m ρ c (Pipeline.arrRef spec2 w) := fun w hw e =>
    (((dat2 (V4 dat0 dat1 m ρ) c).arrAt_in w hw _).trans (h2.A_eq (V4 dat0 dat1 m ρ) c w)).trans (W5_of_ne dat0 dat1 dat2 m ρ c _ e).symm
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact hin 4 rfl (by decide)
  | ⟨5, _⟩ => exact hin 5 rfl (by decide)
  | ⟨6, _⟩ => exact (W5_main_v4 dat0 dat1 dat2 m ρ c).symm
theorem hrest2 (c : Dev nD) : ∀ b, b ∉ Finset.univ.image (Pipeline.arrRef spec2) → V5 dat0 dat1 dat2 m ρ c b = V4 dat0 dat1 m ρ c b :=
  fun b hb => W5_of_ne dat0 dat1 dat2 m ρ c b (fun e => hb (Finset.mem_image.mpr ⟨6, Finset.mem_univ _, e.symm⟩))

/-! ## The regions as segments -/

/-- The class-A invariant from what a region segment hands its invariant's entry. -/
theorem ΦA_of_entry {gr W : Nat} (win : Fin W → Pipeline.WinSpec sig gr) (c : Dev nD) (P : sProp 𝕄) :
    iprop((∃ r, prngReg c r) ∗ P ∗ Pipeline.scopedRest win c) ⊢ (Pipeline.ΦA win c : sProp 𝕄) := by
  unfold Pipeline.ΦA
  iintro ⟨Hp, -, Hr⟩
  isplitl [Hr]; · iexact Hr
  iexact Hp
/-- and what it gives back at the exit. -/
theorem exit_of_ΦA {gr W : Nat} (win : Fin W → Pipeline.WinSpec sig gr) (c : Dev nD) :
    (Pipeline.ΦA win c : sProp 𝕄) ⊢ iprop((∃ r, prngReg c r) ∗ BI.emp ∗ Pipeline.scopedRest win c) := by
  unfold Pipeline.ΦA
  iintro ⟨Hr, Hp⟩
  isplitl [Hp]; · iexact Hp
  isplitr; · iempintro
  iexact Hr

set_option backward.isDefEq.respectTransparency.types false in
/-- REGION 0 (custom_call 0) over the thread state: entered from every unscoped buffer at `W1`, left at `W2`. -/
def reg0 : Pipeline.RegionSeg (pcfgs (F := F)) adm (pdats dat0 dat1 dat2 m ρ) () defs₀ 𝒱₀ L lv 0 where
  win := launch0.win.to₀
  block_pos := launch0.block_pos
  stage_whole := launch0.stage_whole
  K := PEmpty
  osem k := k.elim
  ho := Pipeline.OwnSemFacts.none _
  hbody c := (h0.hbody (V1 m ρ) c).loose
  hwaits := Pipeline.hwaits_of_owed_zero _ _ _ _ L lv 0 fun c t => h0.howed (V1 m ρ) c t
  pre c := iprop(StableHlo.held (c : Thread nD τ) (Pipeline.ucRefs τ sig) (W1 m ρ c) ∗ R c)
  post c := iprop(StableHlo.held (c : Thread nD τ) (Pipeline.ucRefs τ sig) (W2 dat0 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats dat0 dat1 dat2 m ρ) launch0.win launch0.arr_whole c
      ((pdats dat0 dat1 dat2 m ρ 0 c).share_full fun w => h0.hq (V1 m ρ) c w) (V1 m ρ c) fun w => h0.A_eq (V1 m ρ) c w
    rw [Pipeline.unscopedBufs_held] at hsplit
    have hO := owesAt_zero_of (pdats dat0 dat1 dat2 m ρ 0 c) (h0.howed (V1 m ρ) c 0) (h0.hrec (V1 m ρ) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := (ΦA_of_entry spec0 c _).trans (h0.hin (V1 m ρ) c)
  hout c := by
    rw [Pipeline.ownSems0_none]
    exact (h0.hout (V1 m ρ) c).trans (exit_of_ΦA spec0 c)
  hexit c := by
    have hjoin := Pipeline.unscopedBufs_of_arrays (p := 0) (pcfgs (F := F)) adm (Ix := Unit) (Name := ℕ) (U := UR sig nD τ) (Lvl := ℕ)
      launch0.win launch0.arr_whole c (pdats dat0 dat1 dat2 m ρ) ((pdats dat0 dat1 dat2 m ρ 0 c).share_full fun w => h0.hq (V1 m ρ) c w)
      (V1 m ρ c) (V2 dat0 m ρ c) ((pdats dat0 dat1 dat2 m ρ 0 c).arrAt · cfg0.N) (hF0 dat0 m ρ c) (hrest0 dat0 m ρ c)
    rw [Pipeline.unscopedBufs_held] at hjoin
    have hO := owes_of_owesAt_last (pdats dat0 dat1 dat2 m ρ 0 c) (h0.howed (V1 m ρ) c _)
    iintro ⟨Ha, HO, HY, Hrest⟩
    imodintro
    isplitl [Ha Hrest]
    · iapply hjoin; isplitl [Ha] <;> iassumption
    isplitl [HY]; · iexact HY
    iapply hO; iexact HO

set_option backward.isDefEq.respectTransparency.types false in
/-- REGION 1 (custom_call 1) over the thread state: entered from every unscoped buffer at `W2`, left at `W3`. Windows 2
    and 3 share `main_v1`: its buffer is dealt to them in halves at the entry and made whole again at the exit. -/
def reg1 : Pipeline.RegionSeg (pcfgs (F := F)) adm (pdats dat0 dat1 dat2 m ρ) () defs₀ 𝒱₀ L lv 1 where
  win := winFacts₀1
  block_pos := block_pos1
  stage_whole := stage_whole1
  K := PEmpty
  osem k := k.elim
  ho := Pipeline.OwnSemFacts.none _
  hbody c := (h1.hbody (V2 dat0 m ρ) c).loose
  hwaits := Pipeline.hwaits_of_owed_zero _ _ _ _ L lv 1 fun c t => h1.howed (V2 dat0 m ρ) c t
  pre c := iprop(StableHlo.held (c : Thread nD τ) (Pipeline.ucRefs τ sig) (W2 dat0 m ρ c) ∗ R c)
  post c := iprop(StableHlo.held (c : Thread nD τ) (Pipeline.ucRefs τ sig) (W3 dat0 dat1 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 dat0 m ρ c)
  hentry c := by
    rw [Pipeline.ownSems0_none]
    have hsplit : (unscopedBufs c (V2 dat0 m ρ c) : sProp 𝕄) ⊢ iprop((pdats dat0 dat1 dat2 m ρ 1 c).arrays ((pdats dat0 dat1 dat2 m ρ 1 c).arrAt · 0)
        ∗ Pipeline.unscopedRest spec1 c (V2 dat0 m ρ c)) :=
      arrays_of_unscopedBufs1 (dat1 (V2 dat0 m ρ) c) (h1.hq0 _ c) (h1.hq1 _ c) (h1.hq2 _ c) (h1.hq3 _ c) (V2 dat0 m ρ c) fun w => h1.A_eq (V2 dat0 m ρ) c w
    rw [Pipeline.unscopedBufs_held] at hsplit
    have hO := owesAt_zero_of (pdats dat0 dat1 dat2 m ρ 1 c) (h1.howed (V2 dat0 m ρ) c 0) (h1.hrec (V2 dat0 m ρ) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := (ΦA_of_entry spec1 c _).trans (h1.hin (V2 dat0 m ρ) c)
  hout c := by
    rw [Pipeline.ownSems0_none]
    exact (h1.hout (V2 dat0 m ρ) c).trans (exit_of_ΦA spec1 c)
  hexit c := by
    have hjoin : iprop((pdats dat0 dat1 dat2 m ρ 1 c).arrays ((pdats dat0 dat1 dat2 m ρ 1 c).arrAt · cfg1.N)
        ∗ Pipeline.unscopedRest spec1 c (V2 dat0 m ρ c)) ⊢ (unscopedBufs c (V3 dat0 dat1 m ρ c) : sProp 𝕄) :=
      unscopedBufs_of_arrays1 (dat1 (V2 dat0 m ρ) c) (h1.hq0 _ c) (h1.hq1 _ c) (h1.hq2 _ c) (h1.hq3 _ c) (V2 dat0 m ρ c) (V3 dat0 dat1 m ρ c)
        (hF1 dat0 dat1 m ρ h1 c) (hrest1 dat0 dat1 m ρ c)
    rw [Pipeline.unscopedBufs_held] at hjoin
    have hO := owes_of_owesAt_last (pdats dat0 dat1 dat2 m ρ 1 c) (h1.howed (V2 dat0 m ρ) c _)
    iintro ⟨Ha, HO, HY, Hrest⟩
    imodintro
    isplitl [Ha Hrest]
    · iapply hjoin; isplitl [Ha] <;> iassumption
    isplitl [HY]; · iexact HY
    iapply hO; iexact HO

set_option backward.isDefEq.respectTransparency.types false in
/-- REGION 2 (custom_call 2) over the thread state: entered from every unscoped buffer at `W4`, left at `W5` (what the
    launch reads at the end). Windows 1 and 2 share `main_v2_0`. -/
def reg2 : Pipeline.RegionSeg (pcfgs (F := F)) adm (pdats dat0 dat1 dat2 m ρ) () defs₀ 𝒱₀ L lv 2 where
  win := winFacts₀2
  block_pos := block_pos2
  stage_whole := stage_whole2
  K := PEmpty
  osem k := k.elim
  ho := Pipeline.OwnSemFacts.none _
  hbody c := (h2.hbody (V4 dat0 dat1 m ρ) c).loose
  hwaits := Pipeline.hwaits_of_owed_zero _ _ _ _ L lv 2 fun c t => h2.howed (V4 dat0 dat1 m ρ) c t
  pre c := iprop(StableHlo.held (c : Thread nD τ) (Pipeline.ucRefs τ sig) (W4 dat0 dat1 m ρ c) ∗ R c)
  post c := iprop(Tₙ dat0 dat1 dat2 m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V4 dat0 dat1 m ρ c)
  hentry c := by
    rw [Pipeline.ownSems0_none]
    have hsplit : (unscopedBufs c (V4 dat0 dat1 m ρ c) : sProp 𝕄) ⊢ iprop((pdats dat0 dat1 dat2 m ρ 2 c).arrays ((pdats dat0 dat1 dat2 m ρ 2 c).arrAt · 0)
        ∗ Pipeline.unscopedRest spec2 c (V4 dat0 dat1 m ρ c)) :=
      arrays_of_unscopedBufs2 (dat2 (V4 dat0 dat1 m ρ) c) (h2.hq0 _ c) (h2.hq1 _ c) (h2.hq2 _ c) (h2.hq3 _ c) (h2.hq4 _ c) (h2.hq5 _ c)
        (V4 dat0 dat1 m ρ c) fun w => h2.A_eq (V4 dat0 dat1 m ρ) c w
    rw [Pipeline.unscopedBufs_held] at hsplit
    have hO := owesAt_zero_of (pdats dat0 dat1 dat2 m ρ 2 c) (h2.howed (V4 dat0 dat1 m ρ) c 0) (h2.hrec (V4 dat0 dat1 m ρ) c)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := (ΦA_of_entry spec2 c _).trans (h2.hin (V4 dat0 dat1 m ρ) c)
  hout c := by
    rw [Pipeline.ownSems0_none]
    exact (h2.hout (V4 dat0 dat1 m ρ) c).trans (exit_of_ΦA spec2 c)
  hexit c := by
    have hjoin : iprop((pdats dat0 dat1 dat2 m ρ 2 c).arrays ((pdats dat0 dat1 dat2 m ρ 2 c).arrAt · cfg2.N)
        ∗ Pipeline.unscopedRest spec2 c (V4 dat0 dat1 m ρ c)) ⊢ (unscopedBufs c (V5 dat0 dat1 dat2 m ρ c) : sProp 𝕄) :=
      unscopedBufs_of_arrays2 (dat2 (V4 dat0 dat1 m ρ) c) (h2.hq0 _ c) (h2.hq1 _ c) (h2.hq2 _ c) (h2.hq3 _ c) (h2.hq4 _ c) (h2.hq5 _ c)
        (V4 dat0 dat1 m ρ c) (V5 dat0 dat1 dat2 m ρ c) (hF2 dat0 dat1 dat2 m ρ h2 c) (hrest2 dat0 dat1 dat2 m ρ c)
    rw [Pipeline.unscopedBufs_held] at hjoin
    have hO := owes_of_owesAt_last (pdats dat0 dat1 dat2 m ρ 2 c) (h2.howed (V4 dat0 dat1 m ρ) c _)
    iintro ⟨Ha, HO, HY, Hrest⟩
    imodintro
    isplitl [Ha Hrest HY]
    · isplitl [Ha Hrest]
      · iapply hjoin; isplitl [Ha] <;> iassumption
      iexact HY
    iapply hO; iexact HO

/-! ## @main as segments, and the launch -/

/-- @main's 5 segments in order: a host segment per stretch from its boundary's contents, a region per pallas_call. -/
abbrev segs : List (Pipeline.Seg (pcfgs (F := F)) adm (pdats dat0 dat1 dat2 m ρ) () defs₀ 𝒱₀ L lv) :=
  [ .host (hseg hostOps0 hostOps0_sub hostOps0_fresh (W0 m ρ)),
    .region (reg0 dat0 dat1 dat2 m ρ h0),
    .region (reg1 dat0 dat1 dat2 m ρ h1),
    .host (hseg hostOps2 hostOps2_sub hostOps2_fresh (W3 dat0 dat1 m ρ)),
    .region (reg2 dat0 dat1 dat2 m ρ h2) ]
/-- @main IS the run of the segments: `Gen.main_chain`, then the segments' run against that chain by the kernel's
    definitional check (`chain_rfl`). -/
theorem main_run (c : Dev nD) : main (F := F) c = Pipeline.Seg.run (segs dat0 dat1 dat2 m ρ h0 h1 h2) :=
  (main_chain c).trans (by chain_rfl)

include h0 h1 h2 in
set_option backward.isDefEq.respectTransparency.types false in
/-- THE RUN: at the compiled mesh, from any memory with zero counters, every weakly fair execution of @main on the
    TensorCores terminates, nothing faulting, and every final state has every unscoped buffer of every core at the last
    boundary's contents `W5`. -/
theorem run_main : θ_run defs (onTc (τ := τ) (main (F := F))) ⟨m, fun _ => 0, ρ⟩ (fun r => ∀ c : Dev nD,
      ∀ b ∈ Pipeline.ucRefs τ sig, r.2.mem ((c : Thread nD τ).1, b) = W5 dat0 dat1 dat2 m ρ c b) :=
  Pipeline.θ_run_regions_kit (pcfgs (F := F)) adm (pdats dat0 dat1 dat2 m ρ) () cellOf_inj emb₁ defs₀ 𝒱₀ L lv m ρ main (segs dat0 dat1 dat2 m ρ h0 h1 h2)
    (fun c Q => by rw [main_run dat0 dat1 dat2 m ρ h0 h1 h2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ dat0 dat1 dat2 m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 dat0 dat1 dat2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 dat0 dat1 dat2 m ρ c) s')
      isplitl [Hh] <;> iassumption)
    (hQ := fun s h c => h c)

/-! ## The entry contents read back: what each region finds in the buffers its windows read -/

/-- Region 0's inputs `main_arg0`, `main_arg3` as launched; `main_v0` is what `hostOps0` leaves. -/
theorem V1_main_arg0 (c : Dev nD) : V1 m ρ c main_arg0 = m ((c : Thread nD τ).loc main_arg0) :=
  (W1_of m ρ c main_arg0 (by decide)).trans rfl
theorem V1_main_arg3 (c : Dev nD) : V1 m ρ c main_arg3 = m ((c : Thread nD τ).loc main_arg3) :=
  (W1_of m ρ c main_arg3 (by decide)).trans rfl
theorem V1_main_v0 (c : Dev nD) : V1 m ρ c main_v0 = StableHlo.after hostOps0 (W0 m ρ c) (Proc.devRef .tc main_v0) := rfl

/-- Region 1's inputs: `main_arg1`, `main_arg2` as launched, `main_v1` what region 0's write-backs leave. -/
theorem V2_main_arg1 (c : Dev nD) : V2 dat0 m ρ c main_arg1 = m ((c : Thread nD τ).loc main_arg1) :=
  (W2_of_ne dat0 m ρ c main_arg1 (by decide)).trans <| (W1_of m ρ c main_arg1 (by decide)).trans rfl
theorem V2_main_arg2 (c : Dev nD) : V2 dat0 m ρ c main_arg2 = m ((c : Thread nD τ).loc main_arg2) :=
  (W2_of_ne dat0 m ρ c main_arg2 (by decide)).trans <| (W1_of m ρ c main_arg2 (by decide)).trans rfl
theorem V2_main_v1 (c : Dev nD) : V2 dat0 m ρ c main_v1 = (dat0 (V1 m ρ) c).arrAt 3 cfg0.N := W2_arr dat0 m ρ c 3

/-- Region 2's inputs: `main_arg1`, `main_arg5` as launched, `main_v2_0`, `main_v2_1` what region 1's write-backs leave,
    `main_v3` what `hostOps2` leaves. -/
theorem V4_main_arg1 (c : Dev nD) : V4 dat0 dat1 m ρ c main_arg1 = m ((c : Thread nD τ).loc main_arg1) :=
  (W4_of dat0 dat1 m ρ c main_arg1 (by decide)).trans <| (W3_of_ne dat0 dat1 m ρ c main_arg1 (by decide) (by decide)).trans <|
    V2_main_arg1 dat0 m ρ c
theorem V4_main_arg5 (c : Dev nD) : V4 dat0 dat1 m ρ c main_arg5 = m ((c : Thread nD τ).loc main_arg5) :=
  (W4_of dat0 dat1 m ρ c main_arg5 (by decide)).trans <| (W3_of_ne dat0 dat1 m ρ c main_arg5 (by decide) (by decide)).trans <|
    (W2_of_ne dat0 m ρ c main_arg5 (by decide)).trans <| (W1_of m ρ c main_arg5 (by decide)).trans rfl
theorem V4_main_v2_0 (c : Dev nD) : V4 dat0 dat1 m ρ c main_v2_0 = (dat1 (V2 dat0 m ρ) c).arrAt 4 cfg1.N :=
  (W4_of dat0 dat1 m ρ c main_v2_0 (by decide)).trans (W3_main_v2_0 dat0 dat1 m ρ c)
theorem V4_main_v2_1 (c : Dev nD) : V4 dat0 dat1 m ρ c main_v2_1 = (dat1 (V2 dat0 m ρ) c).arrAt 5 cfg1.N :=
  (W4_of dat0 dat1 m ρ c main_v2_1 (by decide)).trans (W3_main_v2_1 dat0 dat1 m ρ c)
theorem V4_main_v3 (c : Dev nD) :
    V4 dat0 dat1 m ρ c main_v3 = StableHlo.after hostOps2 (W3 dat0 dat1 m ρ c) (Proc.devRef .tc main_v3) := rfl

end Run

end Cert.KernelIdeal.Hand

end
-- ==== Proof.KI.Reg0.lean ====
/- Region 0 of @main (custom_call 0, `cc0__h_kernel`, pipeline 0: one grid point, windows 0, 1, 2 inputs, window 3
   the output) at a PARAMETER `V` — the TensorCore's buffer contents when the region is entered —, at any `F`:
   each window's block at the point (`iblk0`), the output's staging buffer after the body (`out0_3`), the body's
   triple (`sound_kernel0`), the proof data (`dat0`) and the body obligation (`body_obligation0`). The invariant is
   the class's (`Pipeline.ΦA spec0 c`), every share is full and nothing is owed. -/
import proofs.«171258_g71622874628668_fold_wed_m_490_3_alg».proof.Proof.Gen.KernelIdeal.Launch
import proofs.«171258_g71622874628668_fold_wed_m_490_3_alg».proof.Proof.Gen.KernelIdeal.Skeleton
import proofs.«171258_g71622874628668_fold_wed_m_490_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents: the elaborator's structural look recurses once per coordinate
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): the window is uncut and
    never idle, and unfetched means the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same of input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each window's buffer read or written whole -/

abbrev r0_0 : Rect S8192x256 := Rect.unit (s := S8192x256) ![0, 0] S8192x256.size inb_S8192x256_S8192x256_0_0
abbrev r0_1 : Rect S256x128 := Rect.unit (s := S256x128) ![0, 0] S256x128.size inb_S256x128_S256x128_0_0
abbrev r0_2 : Rect S1x128 := Rect.unit (s := S1x128) ![0, 0] S1x128.size inb_S1x128_S1x128_0_0
abbrev r0_3 : Rect S8192x128 := Rect.unit (s := S8192x128) ![0, 0] S8192x128.size inb_S8192x128_S8192x128_0_0

/-! ## What the body leaves in the output window's buffer -/

/-- Window 3's staging buffer after the body, from the input windows' blocks: its one store, of the whole buffer,
    as a piece (the payload is the skeleton's: the product of the first two inputs plus the third's row broadcast). -/
def out0_3 (x0 : Vec F S8192x256 .f32) (x1 : Vec F S256x128 .f32) (x2 : Vec F S1x128 .f32) : Vec F S8192x128 .f32 :=
  View.canon [⟨r0_3, k0_pay1 (View.ld x0 r0_0) (View.ld x1 r0_1) (View.ld x2 r0_2)⟩]

/-- The one store is of the whole buffer, so it covers it. -/
theorem cover0_3 (p0 : Vec F S8192x128 .f32) (y : S8192x128.Idx) :
    ∃ pc ∈ ([⟨r0_3, p0⟩] : List (View.Piece (Elt F) S8192x128 .f32)), y ∈ pc.1.set :=
  View.cover_of_tiled [⟨r0_3, p0⟩] S8192x128.size (by rfl) y

/-! ## The body's triple -/

set_option maxHeartbeats 1000000 in
/-- The kernel body on whole staging memrefs, the inputs' at read contents `xW` and the output's at anything, runs to
    the continuation holding the inputs' as they were and the output's at `out0_3` of the inputs'. The body also reads
    the output's buffer before storing it; the value read is used nowhere. -/
theorem sound_kernel0 (c : Dev nD) (E : Set ℕ) (arg0 : Memref sig .tc .vmem S8192x256 .f32) (harg0 : arg0.IsWhole)
    (arg1 : Memref sig .tc .vmem S256x128 .f32) (harg1 : arg1.IsWhole) (arg2 : Memref sig .tc .vmem S1x128 .f32) (harg2 : arg2.IsWhole)
    (arg3 : Memref sig .tc .vmem S8192x128 .f32) (harg3 : arg3.IsWhole)
    (x0 : Vec F S8192x256 .f32) (x1 : Vec F S256x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2
        ∗ (∃ d, owns (c : Thread nD τ) arg3 fullShare d)
        ∗ (iprop(owns (c : Thread nD τ) arg0 fullShare x0 ∗ owns (c : Thread nD τ) arg1 fullShare x1 ∗ owns (c : Thread nD τ) arg2 fullShare x2
            ∗ owns (c : Thread nD τ) arg3 fullShare (out0_3 x0 x1 x2)) -∗ K ⟨⟩))
      ⊢ wp frame (wpE (defs₀ (F := F)) Variants.none c none) E (cc0__h_kernel arg0 harg0 arg1 harg1 arg2 harg2 arg3 harg3) K := by
  simp only [cc0__h_kernel_eq_skeleton]; unfold cc0__h_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at
    point `t` each input's buffer at its block and the output's at `out0_3` of the input blocks; the invariant the
    class's (the scoped rest and the generator register, untouched); nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The invariant at the region's ends -/

/-- The invariant before the first point is the class's, -/
theorem hin0 (c : Dev nD) : Pipeline.ΦA spec0 c ⊢ (dat0 V c).Φ 0 := .rfl

/-- and so it is after the last. -/
theorem hout0 (c : Dev nD) : (dat0 V c).Φ (Fin.last cfg0.N) ⊢ Pipeline.ΦA spec0 c := .rfl

end Cert.KernelIdeal.Hand

end
-- ==== Proof.KI.Reg1Conds.lean ====
import proofs.«171258_g71622874628668_fold_wed_m_490_3_alg».proof.Proof.Gen.KernelIdeal.Launch
import proofs.«171258_g71622874628668_fold_wed_m_490_3_alg».proof.Proof.Gen.KernelIdeal.Skeleton
import proofs.«171258_g71622874628668_fold_wed_m_490_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1 (`cc1__pass1_kernel`, grid 16 x 16): what its three control cases share -/

/-! ## The body's branch conditions -/

/-- The condition of the body's first `scf.if` (the reduction index is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `scf.if` (the reduction index is 15), from the grid coordinates. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
theorem liveAt1_3 : ∀ t : Fin cfg1.N, cfg1.idle 3 (grid1.coords t) = false := fun _ => rfl
/-- Away from the points ≡ 15 (mod 16) outputs 4 and 5 are idle and not written back; at those points they are live. -/
theorem idleAt1_4 : ∀ t : Fin cfg1.N, ¬ t.val % 16 = 15 → cfg1.idle 4 (grid1.coords t) = true :=
  (by decide +kernel : ∀ t : Fin grid1.N, ¬ t.val % 16 = 15 → idle1 4 (grid1.coords t) = true)
theorem idleAt1_5 : ∀ t : Fin cfg1.N, ¬ t.val % 16 = 15 → cfg1.idle 5 (grid1.coords t) = true :=
  (by decide +kernel : ∀ t : Fin grid1.N, ¬ t.val % 16 = 15 → idle1 5 (grid1.coords t) = true)
theorem liveAt1_4 : ∀ t : Fin cfg1.N, t.val % 16 = 15 → cfg1.idle 4 (grid1.coords t) = false :=
  (by decide +kernel : ∀ t : Fin grid1.N, t.val % 16 = 15 → idle1 4 (grid1.coords t) = false)
theorem liveAt1_5 : ∀ t : Fin cfg1.N, t.val % 16 = 15 → cfg1.idle 5 (grid1.coords t) = false :=
  (by decide +kernel : ∀ t : Fin grid1.N, t.val % 16 = 15 → idle1 5 (grid1.coords t) = false)
theorem noFlush1_4 (t : Fin cfg1.N) (h : ¬ t.val % 16 = 15) : (cfg1.win 4).flush t = false :=
  Bool.eq_false_iff.mpr fun hf => h ((flush1_4 t).mp hf)
theorem noFlush1_5 (t : Fin cfg1.N) (h : ¬ t.val % 16 = 15) : (cfg1.win 5).flush t = false :=
  Bool.eq_false_iff.mpr fun hf => h ((flush1_5 t).mp hf)

/-- The zero offsets of a whole-buffer rectangle of rank 2. -/
theorem hz1 : (![0, 0] : Fin 2 → Nat) = fun _ => 0 := funext fun a => by fin_cases a <;> rfl

/-! ## The memrefs the body is called with -/

/-- The whole-buffer rectangles of the body's loads and stores. -/
abbrev r1_a : Rect S512x512 := Rect.unit (s := S512x512) ![0, 0] S512x512.size inb_S512x512_S512x512_0_0
abbrev r1_h : Rect S512x128 := Rect.unit (s := S512x128) ![0, 0] S512x128.size inb_S512x128_S512x128_0_0

/-- Each window's current staging memref at point `t`, as the pipeline passes it, and its wholeness. -/
abbrev ms1_0 (t : Fin cfg1.N) : Memref sig .tc .vmem S512x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x128 .f32 := win1_5.stage (cfg1.slots t 5)
abbrev hs1_5 (t : Fin cfg1.N) : (ms1_5 t).IsWhole := hstage1_5 ((cfg1.slots t 5).cast nbuf1_5)
/-- The two scratch operands (the accumulators): whole scoped buffers. -/
abbrev scM1_0 : Memref sig .tc .vmem S512x128 .f32 := Memref.whole cc1_scratch0
abbrev scM1_1 : Memref sig .tc .vmem S512x128 .f32 := Memref.whole cc1_scratch1

/-! ## The region invariant with the two accumulators set apart -/

/-- The core's scoped buffers that are neither a staging buffer of this region nor one of its two accumulators, each at
    some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg6_0), ((c : Thread nD τ).loc cc2_stg6_0) ↦{fullShare} f) ∗ (∃ f : Buf (Elt F) ((c : Thread nD τ).loc cc2_stg6_1), ((c : Thread nD τ).loc cc2_stg6_1) ↦{fullShare} f) ∗ (∃ f : Buf (Elt F) ((c : Thread nD τ).loc cc2_scratch0), ((c : Thread nD τ).loc cc2_scratch0) ↦{fullShare} f))

/-- The class's invariant with the accumulators as memrefs owned at some contents. -/
theorem PhiA1_eq (c : Dev nD) :
    (Pipeline.ΦA spec1 c : sProp 𝕄)
      = iprop((∃ d, owns (c : Thread nD τ) scM1_0 fullShare d) ∗ (∃ d, owns (c : Thread nD τ) scM1_1 fullShare d) ∗ rest1 (F := F) c ∗ (∃ r, prngReg c r)) := by
  have h₁ : (Pipeline.ΦA spec1 c : sProp 𝕄) ⊢ iprop((∃ d, owns (c : Thread nD τ) scM1_0 fullShare d) ∗ (∃ d, owns (c : Thread nD τ) scM1_1 fullShare d) ∗ rest1 (F := F) c ∗ (∃ r, prngReg c r)) := by
    unfold Pipeline.ΦA rest1; rw [scopedRest1_eq]; simp only [scM1_0, scM1_1, owns_whole]
    iintro ⟨⟨A0, A1, A2, A3, S0, S1, R⟩, Hg⟩
    isplitl [S0]; · iexact S0
    isplitl [S1]; · iexact S1
    isplitr [Hg]
    swap; · iexact Hg
    isplitl [A0]; · iexact A0
    isplitl [A1]; · iexact A1
    isplitl [A2]; · iexact A2
    isplitl [A3]; · iexact A3
    iexact R
  have h₂ : iprop((∃ d, owns (c : Thread nD τ) scM1_0 fullShare d) ∗ (∃ d, owns (c : Thread nD τ) scM1_1 fullShare d) ∗ rest1 (F := F) c ∗ (∃ r, prngReg c r)) ⊢ (Pipeline.ΦA spec1 c : sProp 𝕄) := by
    unfold Pipeline.ΦA rest1; rw [scopedRest1_eq]; simp only [scM1_0, scM1_1, owns_whole]
    iintro ⟨S0, S1, ⟨A0, A1, A2, A3, R⟩, Hg⟩
    isplitr [Hg]
    swap; · iexact Hg
    isplitl [A0]; · iexact A0
    isplitl [A1]; · iexact A1
    isplitl [A2]; · iexact A2
    isplitl [A3]; · iexact A3
    isplitl [S0]; · iexact S0
    isplitl [S1]; · iexact S1
    iexact R
  exact BI.equiv_iff.mp ⟨h₁, h₂⟩

/-! ## The windows' blocks, at the entry contents `V` -/

section Blocks
variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: unfetched, the block index has not moved. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Blocks

end Cert.KernelIdeal.Hand

end
-- ==== Proof.KI.Reg1RunA.lean ====
import proofs.«171258_g71622874628668_fold_wed_m_490_3_alg».proof.Proof.KI.Reg1Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One whole-buffer store reads back as its payload; two, as the later one's. -/
private theorem cover1_1 (p0 : Vec F S512x128 .f32) (y : S512x128.Idx) :
    ∃ pc ∈ ([⟨r1_h, p0⟩] : List (View.Piece (Elt F) S512x128 .f32)), y ∈ pc.1.set :=
  ⟨⟨r1_h, p0⟩, List.mem_singleton_self _, View.mem_set_unit_zero (S := S512x128) hz1 inb_S512x128_S512x128_0_0 y⟩
private theorem cover1_2 (p0 p1 : Vec F S512x128 .f32) (y : S512x128.Idx) :
    ∃ pc ∈ ([⟨r1_h, p0⟩, ⟨r1_h, p1⟩] : List (View.Piece (Elt F) S512x128 .f32)), y ∈ pc.1.set :=
  ⟨⟨r1_h, p0⟩, List.mem_cons_self, View.mem_set_unit_zero (S := S512x128) hz1 inb_S512x128_S512x128_0_0 y⟩
private theorem read1_one {κ : Kind} {sp : Space} (v : View sig κ sp S512x128 .f32) (f : v.ty.Contents (Elt F)) (w : Vec F S512x128 .f32) :
    v.read (Elt F) (v.writes (Elt F) f [⟨r1_h, w⟩]) = w := by
  rw [View.read_writes_eq_canon _ _ _ (cover1_1 w), View.canon_unit_zero (S := S512x128) hz1]
private theorem read1_two {κ : Kind} {sp : Space} (v : View sig κ sp S512x128 .f32) (f : v.ty.Contents (Elt F)) (w w' : Vec F S512x128 .f32) :
    v.read (Elt F) (v.writes (Elt F) f [⟨r1_h, w⟩, ⟨r1_h, w'⟩]) = w := by
  rw [View.read_writes_eq_canon _ _ _ (cover1_2 w w'), View.canon_cons_unit_zero (S := S512x128) hz1]

/-! # Region 1, the case k = 0: zero both accumulators, then accumulate -/

set_option maxHeartbeats 1000000 in
/-- The body at a point whose reduction index is 0, on whole memrefs: the inputs' at read contents, the two outputs'
    (untouched) at what they held, the accumulators at anything. It runs to the continuation with every buffer as it was
    but the accumulators, which hold the zero block plus the product of the first operand block with the rounded `h` block,
    and the zero block plus that of the second. -/
theorem kernelRun1_A (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (hc0 : cond1_0 i) (hc1 : ¬cond1_1 i)
    (x0 x1 : Vec F S512x512 .f32) (x2 x3 xi4 xi5 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k1_pay4 x2 x0 k1_pay1) ∗ owns (c : Thread nD τ) arg9 fullShare (k1_pay5 x2 x1 k1_pay2)) -∗ K ⟨⟩))
      ⊢ wp frame (wpE (defs₀ (F := F)) Variants.none c none) E (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
  subst hf0 hf1 hf2 hf3 hf4 hf5
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    refine (read1_two _ _ _ _).trans ?_
    sl_unfold_run_names
    simp only [View.readCov_unit_zero (S := S512x128) _ hz1, View.readAt_eq_ld, View.ld_unit_zero (S := S512x128) hz1, View.ld_unit_zero (S := S512x512) hz1]
  iexists _; isplitr
  swap; · iexact HS1
  ipureintro
  refine (read1_two _ _ _ _).trans ?_
  sl_unfold_run_names
  simp only [View.readCov_unit_zero (S := S512x128) _ hz1, View.readAt_eq_ld, View.ld_unit_zero (S := S512x128) hz1, View.ld_unit_zero (S := S512x512) hz1]

end Cert.KernelIdeal.Hand

end
-- ==== Proof.KI.Reg1RunB.lean ====
import proofs.«171258_g71622874628668_fold_wed_m_490_3_alg».proof.Proof.KI.Reg1Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One whole-buffer store reads back as its payload; two, as the later one's. -/
private theorem cover1_1 (p0 : Vec F S512x128 .f32) (y : S512x128.Idx) :
    ∃ pc ∈ ([⟨r1_h, p0⟩] : List (View.Piece (Elt F) S512x128 .f32)), y ∈ pc.1.set :=
  ⟨⟨r1_h, p0⟩, List.mem_singleton_self _, View.mem_set_unit_zero (S := S512x128) hz1 inb_S512x128_S512x128_0_0 y⟩
private theorem cover1_2 (p0 p1 : Vec F S512x128 .f32) (y : S512x128.Idx) :
    ∃ pc ∈ ([⟨r1_h, p0⟩, ⟨r1_h, p1⟩] : List (View.Piece (Elt F) S512x128 .f32)), y ∈ pc.1.set :=
  ⟨⟨r1_h, p0⟩, List.mem_cons_self, View.mem_set_unit_zero (S := S512x128) hz1 inb_S512x128_S512x128_0_0 y⟩
private theorem read1_one {κ : Kind} {sp : Space} (v : View sig κ sp S512x128 .f32) (f : v.ty.Contents (Elt F)) (w : Vec F S512x128 .f32) :
    v.read (Elt F) (v.writes (Elt F) f [⟨r1_h, w⟩]) = w := by
  rw [View.read_writes_eq_canon _ _ _ (cover1_1 w), View.canon_unit_zero (S := S512x128) hz1]
private theorem read1_two {κ : Kind} {sp : Space} (v : View sig κ sp S512x128 .f32) (f : v.ty.Contents (Elt F)) (w w' : Vec F S512x128 .f32) :
    v.read (Elt F) (v.writes (Elt F) f [⟨r1_h, w⟩, ⟨r1_h, w'⟩]) = w := by
  rw [View.read_writes_eq_canon _ _ _ (cover1_2 w w'), View.canon_cons_unit_zero (S := S512x128) hz1]

/-! # Region 1, the case 0 < k < 15: accumulate only -/

set_option maxHeartbeats 1000000 in
/-- The body at a point whose reduction index is neither 0 nor 15, on whole memrefs: the inputs' at read contents, the two
    outputs' (untouched) at what they held, the accumulators at `xs0`, `xs1`. It runs to the continuation with every buffer
    as it was but the accumulators, which hold `xs0` plus the product of the first operand block with the rounded `h` block,
    and `xs1` plus that of the second. -/
theorem kernelRun1_B (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (hc0 : ¬cond1_0 i) (hc1 : ¬cond1_1 i)
    (x0 x1 : Vec F S512x512 .f32) (x2 x3 xi4 xi5 xs0 xs1 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare xi5
            ∗ owns (c : Thread nD τ) arg8 fullShare (k1_pay4 x2 x0 xs0) ∗ owns (c : Thread nD τ) arg9 fullShare (k1_pay5 x2 x1 xs1)) -∗ K ⟨⟩))
      ⊢ wp frame (wpE (defs₀ (F := F)) Variants.none c none) E (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
  subst hf0 hf1 hf2 hf3 hf4 hf5 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [HS0]
  · iexists _; isplitr
    swap; · iexact HS0
    ipureintro
    refine (read1_one _ _ _).trans ?_
    simp only [View.readAt_eq_ld, View.ld_unit_zero (S := S512x128) hz1, View.ld_unit_zero (S := S512x512) hz1]
  iexists _; isplitr
  swap; · iexact HS1
  ipureintro
  refine (read1_one _ _ _).trans ?_
  simp only [View.readAt_eq_ld, View.ld_unit_zero (S := S512x128) hz1, View.ld_unit_zero (S := S512x512) hz1]

end Cert.KernelIdeal.Hand

end
-- ==== Proof.KI.Reg1RunC.lean ====
import proofs.«171258_g71622874628668_fold_wed_m_490_3_alg».proof.Proof.KI.Reg1Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- One whole-buffer store reads back as its payload; two, as the later one's. -/
private theorem cover1_1 (p0 : Vec F S512x128 .f32) (y : S512x128.Idx) :
    ∃ pc ∈ ([⟨r1_h, p0⟩] : List (View.Piece (Elt F) S512x128 .f32)), y ∈ pc.1.set :=
  ⟨⟨r1_h, p0⟩, List.mem_singleton_self _, View.mem_set_unit_zero (S := S512x128) hz1 inb_S512x128_S512x128_0_0 y⟩
private theorem cover1_2 (p0 p1 : Vec F S512x128 .f32) (y : S512x128.Idx) :
    ∃ pc ∈ ([⟨r1_h, p0⟩, ⟨r1_h, p1⟩] : List (View.Piece (Elt F) S512x128 .f32)), y ∈ pc.1.set :=
  ⟨⟨r1_h, p0⟩, List.mem_cons_self, View.mem_set_unit_zero (S := S512x128) hz1 inb_S512x128_S512x128_0_0 y⟩
private theorem read1_one {κ : Kind} {sp : Space} (v : View sig κ sp S512x128 .f32) (f : v.ty.Contents (Elt F)) (w : Vec F S512x128 .f32) :
    v.read (Elt F) (v.writes (Elt F) f [⟨r1_h, w⟩]) = w := by
  rw [View.read_writes_eq_canon _ _ _ (cover1_1 w), View.canon_unit_zero (S := S512x128) hz1]
private theorem read1_two {κ : Kind} {sp : Space} (v : View sig κ sp S512x128 .f32) (f : v.ty.Contents (Elt F)) (w w' : Vec F S512x128 .f32) :
    v.read (Elt F) (v.writes (Elt F) f [⟨r1_h, w⟩, ⟨r1_h, w'⟩]) = w := by
  rw [View.read_writes_eq_canon _ _ _ (cover1_2 w w'), View.canon_cons_unit_zero (S := S512x128) hz1]

/-! # Region 1, the case k = 15: accumulate, then store the two outputs -/

set_option maxHeartbeats 1000000 in
/-- The body at a point whose reduction index is 15, on whole memrefs: the inputs' at read contents, the two outputs' at
    anything, the accumulators at `xs0`, `xs1`. It runs to the continuation with the inputs as they were, the accumulators
    advanced by this point's products, the second output at the second accumulator and the first output at half the `h` row
    block plus half of each accumulator. -/
theorem kernelRun1_C (c : Dev nD) (i : grid1.Coords) (arg2 : Memref sig .tc .vmem S512x512 .f32) (harg2 : arg2.IsWhole) (arg3 : Memref sig .tc .vmem S512x512 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole)
    (hc0 : ¬cond1_0 i) (hc1 : cond1_1 i)
    (x0 x1 : Vec F S512x512 .f32) (x2 x3 xs0 xs1 : Vec F S512x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ (∃ d, owns (c : Thread nD τ) arg7 fullShare d) ∗ owns (c : Thread nD τ) arg8 fullShare xs0 ∗ owns (c : Thread nD τ) arg9 fullShare xs1
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k1_pay6 (k1_pay5 x2 x1 xs1) x3 (k1_pay4 x2 x0 xs0)) ∗ owns (c : Thread nD τ) arg7 fullShare (k1_pay5 x2 x1 xs1)
            ∗ owns (c : Thread nD τ) arg8 fullShare (k1_pay4 x2 x0 xs0) ∗ owns (c : Thread nD τ) arg9 fullShare (k1_pay5 x2 x1 xs1)) -∗ K ⟨⟩))
      ⊢ wp frame (wpE (defs₀ (F := F)) Variants.none c none) E (cc1__pass1_kernel i arg2 harg2 arg3 harg3 arg4 harg4 arg5 harg5 arg6 harg6 arg7 harg7 arg8 harg8 arg9 harg9) K := by
  simp only [cc1__pass1_kernel_eq_skeleton]; unfold cc1__pass1_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
  subst hf0 hf1 hf2 hf3 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (read1_one _ _ _).trans ?_
    sl_unfold_run_names
    simp only [View.readCov_unit_zero (S := S512x128) _ hz1, View.readAt_eq_ld, View.ld_unit_zero (S := S512x128) hz1, View.ld_unit_zero (S := S512x512) hz1]
  isplitl [H5]
  · iexists _; isplitr
    swap; · iexact H5
    ipureintro
    refine (read1_one _ _ _).trans ?_
    sl_unfold_run_names
    simp only [View.readCov_unit_zero (S := S512x128) _ hz1, View.readAt_eq_ld, View.ld_unit_zero (S := S512x128) hz1, View.ld_unit_zero (S := S512x512) hz1]
  isplitl [HS0]
  · iexists _; isplitr
    swap; · iexact HS0
    ipureintro
    refine (read1_one _ _ _).trans ?_
    simp only [View.readCov_unit_zero (S := S512x128) _ hz1, View.readAt_eq_ld, View.ld_unit_zero (S := S512x128) hz1, View.ld_unit_zero (S := S512x512) hz1]
  iexists _; isplitr
  swap; · iexact HS1
  ipureintro
  refine (read1_one _ _ _).trans ?_
  simp only [View.readCov_unit_zero (S := S512x128) _ hz1, View.readAt_eq_ld, View.ld_unit_zero (S := S512x128) hz1, View.ld_unit_zero (S := S512x512) hz1]

end Cert.KernelIdeal.Hand

end
-- ==== Proof.KI.Reg1.lean ====
import proofs.«171258_g71622874628668_fold_wed_m_490_3_alg».proof.Proof.KI.Reg1RunA
import proofs.«171258_g71622874628668_fold_wed_m_490_3_alg».proof.Proof.KI.Reg1RunB
import proofs.«171258_g71622874628668_fold_wed_m_490_3_alg».proof.Proof.KI.Reg1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1 of @main (`cc1__pass1_kernel`, grid 16 x 16), at the entry contents `V`

Point `t` has row block `i = t / 16` and reduction index `k = t % 16`. The two scratch accumulators are carried from point to
point: zeroed at `k = 0`, advanced at every point, read out into the two outputs at `k = 15`. -/

section Region1
variable (V : (c : Dev nD) → (b : Ref sig .tc) → Buf (Elt F) ((c : Thread nD τ).loc b))

/-! ## The carried accumulators, point by point -/

/-- One point's advance of the pair of accumulators `z`: each plus the product of its operand block (window 0, window 1)
    with the `h` block of window 2. -/
abbrev acc1Step (c : Dev nD) (t : Fin cfg1.N) (z : Vec F S512x128 .f32 × Vec F S512x128 .f32) :
    Vec F S512x128 .f32 × Vec F S512x128 .f32 :=
  (k1_pay4 (iblk1 V c 2 t) (iblk1 V c 0 t) z.1, k1_pay5 (iblk1 V c 2 t) (iblk1 V c 1 t) z.2)

/-- What the two accumulators hold after the body at point `n`: the advance of the zero blocks where `n ≡ 0 (mod 16)`, of
    what point `n - 1` left elsewhere. -/
def acc1 (c : Dev nD) : (n : ℕ) → n < cfg1.N → Vec F S512x128 .f32 × Vec F S512x128 .f32
  | 0, hn => acc1Step V c ⟨0, hn⟩ (k1_pay1, k1_pay2)
  | n + 1, hn =>
    if (n + 1) % 16 = 0 then acc1Step V c ⟨n + 1, hn⟩ (k1_pay1, k1_pay2)
    else acc1Step V c ⟨n + 1, hn⟩ (acc1 c n (Nat.lt_of_succ_lt hn))

/-- At a point ≡ 0 (mod 16) the accumulators restart from the zero blocks. -/
theorem acc1_zero (c : Dev nD) (t : Fin cfg1.N) (h : t.val % 16 = 0) :
    acc1 V c t.val t.isLt = (k1_pay4 (iblk1 V c 2 t) (iblk1 V c 0 t) k1_pay1, k1_pay5 (iblk1 V c 2 t) (iblk1 V c 1 t) k1_pay2) := by
  obtain ⟨n, hn⟩ := t
  cases n with
  | zero => rfl
  | succ n => exact (if_pos h).trans rfl

/-- At any other point they advance what the point before left. -/
theorem acc1_succ (c : Dev nD) (t : Fin cfg1.N) (h : ¬t.val % 16 = 0) :
    acc1 V c t.val t.isLt
      = (k1_pay4 (iblk1 V c 2 t) (iblk1 V c 0 t) (acc1 V c (t.val - 1) (Nat.lt_of_le_of_lt (Nat.sub_le _ _) t.isLt)).1,
         k1_pay5 (iblk1 V c 2 t) (iblk1 V c 1 t) (acc1 V c (t.val - 1) (Nat.lt_of_le_of_lt (Nat.sub_le _ _) t.isLt)).2) := by
  obtain ⟨n, hn⟩ := t
  cases n with
  | zero => exact absurd (Nat.zero_mod _) h
  | succ n => exact (if_neg h).trans rfl

/-! ## The region invariant -/

/-- Before point 0 the class's invariant (every scoped buffer at anything); before point `n + 1` the two accumulators at what
    point `n` left, the other scoped buffers at anything, the generator register at some state. -/
def PhiS1 (c : Dev nD) : (n : ℕ) → n ≤ cfg1.N → sProp 𝕄
  | 0, _ => Pipeline.ΦA spec1 c
  | n + 1, hn => iprop(owns (c : Thread nD τ) scM1_0 fullShare (acc1 V c n hn).1 ∗ owns (c : Thread nD τ) scM1_1 fullShare (acc1 V c n hn).2
      ∗ rest1 (F := F) c ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(owns (c : Thread nD τ) scM1_0 fullShare (acc1 V c n hn).1 ∗ owns (c : Thread nD τ) scM1_1 fullShare (acc1 V c n hn).2
      ∗ rest1 (F := F) c ∗ (∃ r, prngReg c r)) := rfl

theorem PhiS1_pos (c : Dev nD) (n : ℕ) (h : n ≤ cfg1.N) (hz : n ≠ 0) :
    PhiS1 V c n h = iprop(owns (c : Thread nD τ) scM1_0 fullShare (acc1 V c (n - 1) (by omega)).1 ∗ owns (c : Thread nD τ) scM1_1 fullShare (acc1 V c (n - 1) (by omega)).2
      ∗ rest1 (F := F) c ∗ (∃ r, prngReg c r)) := by
  cases n with
  | zero => exact absurd rfl hz
  | succ n => rfl

/-! ## The pipeline's proof data -/

/-- The proof data of pipeline 1 on core `c`: the arrays as the region finds them (`V`); after the body at point `t` each
    input's buffer at its block, output 5's at the second accumulator and output 4's at half the `h` row block plus half of
    each accumulator (what the body stores where `t ≡ 15 (mod 16)`; elsewhere the outputs are idle and this is not consulted);
    the invariant `PhiS1`; nothing owed; the array the windows 2 and 3 share split in two halves, the others whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay6 (acc1 V c t.val t.isLt).2 (iblk1 V c 3 t) (acc1 V c t.val t.isLt).1
    | ⟨5, _⟩ => (acc1 V c t.val t.isLt).2
  Φ t := PhiS1 V c t.val (Nat.le_of_lt_succ t.isLt)
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4_any (c : Dev nD) (t : Fin cfg1.N) :
    (dat1 V c).after 4 t = k1_pay6 (acc1 V c t.val t.isLt).2 (iblk1 V c 3 t) (acc1 V c t.val t.isLt).1 := by dsimp only [dat1]
theorem after1_5_any (c : Dev nD) (t : Fin cfg1.N) : (dat1 V c).after 5 t = (acc1 V c t.val t.isLt).2 := by dsimp only [dat1]
/-- At the points ≡ 15 (mod 16), where the outputs are stored and written back. -/
theorem after1_4 (c : Dev nD) (t : Fin cfg1.N) (h : t.val % 16 = 15) :
    (dat1 V c).after 4 t = k1_pay6 (acc1 V c t.val t.isLt).2 (iblk1 V c 3 t) (acc1 V c t.val t.isLt).1 := after1_4_any V c t
theorem after1_5 (c : Dev nD) (t : Fin cfg1.N) (h : t.val % 16 = 15) : (dat1 V c).after 5 t = (acc1 V c t.val t.isLt).2 :=
  after1_5_any V c t

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms of the two conditions say which case the
    point is in, and that case's run applies; the invariant hands the body the accumulators at what the point before left (at
    anything at the first point) and takes them back at this point's contents; where the outputs are idle their buffers are
    handed back as found; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 256 := lt_of_lt_of_eq t.isLt (show cfg1.N = 256 from N_1)
  by_cases h0 : t.val % 16 = 0
  · by_cases h1 : t.val % 16 = 15
    · exfalso; omega
    · -- k = 0
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t h1) (noFlush1_4 t h1)]
      rw [Dat.leavesExact_idle (dat1 V c) 5 t (idleAt1_5 t h1) (noFlush1_5 t h1)]
      rw [acc1_zero V c t h0]
      by_cases hz : t.val = 0
      · rw [PhiS1_castSucc V c t, PhiS1_zero V c _ _ hz, PhiA1_eq]
        iintro ⟨⟨HS0, HS1, HR, Hg⟩, Ho, ⟨%d0, H0⟩, ⟨%d1, H1⟩, ⟨%d2, H2⟩, ⟨%d3, H3⟩, ⟨%d4, H4⟩, ⟨%d5, H5⟩⟩
        iapply (kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1 HR Hg]
        · isplitl [HS0]; · iexact HS0
          isplitl [HS1]; · iexact HS1
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
      · rw [PhiS1_castSucc V c t, PhiS1_pos V c _ _ hz]
        iintro ⟨⟨HS0, HS1, HR, Hg⟩, Ho, ⟨%d0, H0⟩, ⟨%d1, H1⟩, ⟨%d2, H2⟩, ⟨%d3, H3⟩, ⟨%d4, H4⟩, ⟨%d5, H5⟩⟩
        iapply (kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t) _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexists _; iexact HS0
        isplitl [HS1]; · iexists _; iexact HS1
        iintro ⟨H0, H1, H2, H3, H4, H5, HS0, HS1⟩
        isplitl [HS0 HS1 HR Hg]
        · isplitl [HS0]; · iexact HS0
          isplitl [HS1]; · iexact HS1
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5
  · have hz : t.val ≠ 0 := fun e => h0 (by rw [e])
    by_cases h1 : t.val % 16 = 15
    · -- k = 15
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [show (dat1 V c).leavesExact 4 t = owns (c : Thread nD τ) (ms1_4 t) fullShare ((dat1 V c).after 4 t) from by
        unfold Dat.leavesExact; rw [liveAt1_4 t h1], after1_4_any]
      rw [show (dat1 V c).leavesExact 5 t = owns (c : Thread nD τ) (ms1_5 t) fullShare ((dat1 V c).after 5 t) from by
        unfold Dat.leavesExact; rw [liveAt1_5 t h1], after1_5_any]
      rw [acc1_succ V c t h0]
      · rw [PhiS1_castSucc V c t, PhiS1_pos V c _ _ hz]
        iintro ⟨⟨HS0, HS1, HR, Hg⟩, Ho, ⟨%d0, H0⟩, ⟨%d1, H1⟩, ⟨%d2, H2⟩, ⟨%d3, H3⟩, ⟨%d4, H4⟩, ⟨%d5, H5⟩⟩
        iapply (kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _ Set.univ _)
        isplitl [H0]; · iexact H0
        isplitl [H1]; · iexact H1
        isplitl [H2]; · iexact H2
        isplitl [H3]; · iexact H3
        isplitl [H4]; · iexists _; iexact H4
        isplitl [H5]; · iexists _; iexact H5
        isplitl [HS0]; · iexact HS0
        isplitl [HS1]; · iexact HS1
        iintro ⟨H0, H1, H2, H3, H4, H5, HS0, HS1⟩
        isplitl [HS0 HS1 HR Hg]
        · isplitl [HS0]; · iexact HS0
          isplitl [HS1]; · iexact HS1
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexact H4
        iexact H5
    · -- 0 < k < 15
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t], after1_3]
      rw [Dat.leavesExact_idle (dat1 V c) 4 t (idleAt1_4 t h1) (noFlush1_4 t h1)]
      rw [Dat.leavesExact_idle (dat1 V c) 5 t (idleAt1_5 t h1) (noFlush1_5 t h1)]
      rw [acc1_succ V c t h0]
      · rw [PhiS1_castSucc V c t, PhiS1_pos V c _ _ hz]
        iintro ⟨⟨HS0, HS1, HR, Hg⟩, Ho, ⟨%d0, H0⟩, ⟨%d1, H1⟩, ⟨%d2, H2⟩, ⟨%d3, H3⟩, ⟨%d4, H4⟩, ⟨%d5, H5⟩⟩
        iapply (kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _ _ _ Set.univ _)
        isplitl [H0]; · iexact H0
        isplitl [H1]; · iexact H1
        isplitl [H2]; · iexact H2
        isplitl [H3]; · iexact H3
        isplitl [H4]; · iexact H4
        isplitl [H5]; · iexact H5
        isplitl [HS0]; · iexact HS0
        isplitl [HS1]; · iexact HS1
        iintro ⟨H0, H1, H2, H3, H4, H5, HS0, HS1⟩
        isplitl [HS0 HS1 HR Hg]
        · isplitl [HS0]; · iexact HS0
          isplitl [HS1]; · iexact HS1
          isplitl [HR]; · iexact HR
          iexact Hg
        isplitl [Ho]; · iexact Ho
        isplitl [H0]; · iexact H0
        isplitl [H1]; · iexact H1
        isplitl [H2]; · iexact H2
        isplitl [H3]; · iexact H3
        isplitl [H4]; · iexists _; iexact H4
        iexists _; iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the class's back: the accumulators' contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, HS1, HR, Hg⟩
  isplitl [HS0]; · iexists _; iexact HS0
  isplitl [HS1]; · iexists _; iexact HS1
  isplitl [HR]; · iexact HR
  iexact Hg

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Region1

end Cert.KernelIdeal.Hand

end
-- ==== Proof.KI.Reg2Conds.lean ====
import proofs.«171258_g71622874628668_fold_wed_m_490_3_alg».proof.Proof.Gen.KernelIdeal.Launch
import proofs.«171258_g71622874628668_fold_wed_m_490_3_alg».proof.Proof.Gen.KernelIdeal.Skeleton
import proofs.«171258_g71622874628668_fold_wed_m_490_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when region 2 is entered: the parameter the region's half is stated at
variable (V : (c : Dev nD) → (b : Ref sig .tc) → Buf (Elt F) ((c : Thread nD τ).loc b))

/-! # REGION 2 of @main: custom_call 2, `cc2__pass2_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (unfetched, the
    block index has not moved), for any proof data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (unfetched, the
    block index has not moved), for any proof data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (unfetched, the
    block index has not moved), for any proof data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (unfetched, the
    block index has not moved), for any proof data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (unfetched, the
    block index has not moved), for any proof data whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not (unfetched, the
    block index has not moved), for any proof data whose array is `V`'s and whose body leaves the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first `scf.if` (the reduction coordinate is 0), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 16) — decided over the grid. -/
theorem hcond2_0 : ∀ t : Fin cfg2.N, cond2_0 (grid2.coords t) ↔ t.val % 16 = 0 :=
  (by decide +kernel : ∀ t : Fin grid2.N, cond2_0 (grid2.coords t) ↔ t.val % 16 = 0)

/-- The condition of the body's second `scf.if` (the reduction coordinate is 15). -/
abbrev cond2_1 (i : grid2.Coords) : Prop := k2_cond2 i = 1#1
/-- It holds at the points ≡ 15 (mod 16) — decided over the grid. -/
theorem hcond2_1 : ∀ t : Fin cfg2.N, cond2_1 (grid2.coords t) ↔ t.val % 16 = 15 :=
  (by decide +kernel : ∀ t : Fin grid2.N, cond2_1 (grid2.coords t) ↔ t.val % 16 = 15)

/-! ## Where the windows are idle -/

/-- Window 0 is never idle (an input). -/
theorem liveAt2_0 : ∀ t : Fin cfg2.N, cfg2.idle 0 (grid2.coords t) = false := by decide +kernel
/-- Window 1 is never idle (an input). -/
theorem liveAt2_1 : ∀ t : Fin cfg2.N, cfg2.idle 1 (grid2.coords t) = false := by decide +kernel
/-- Window 2 is never idle (an input). -/
theorem liveAt2_2 : ∀ t : Fin cfg2.N, cfg2.idle 2 (grid2.coords t) = false := by decide +kernel
/-- Window 3 is never idle (an input). -/
theorem liveAt2_3 : ∀ t : Fin cfg2.N, cfg2.idle 3 (grid2.coords t) = false := by decide +kernel
/-- Window 4 is never idle (an input). -/
theorem liveAt2_4 : ∀ t : Fin cfg2.N, cfg2.idle 4 (grid2.coords t) = false := by decide +kernel
/-- Window 5 is never idle (an input). -/
theorem liveAt2_5 : ∀ t : Fin cfg2.N, cfg2.idle 5 (grid2.coords t) = false := by decide +kernel
/-- Where the second condition fails output 6 is idle: nothing is stored into it there, -/
theorem idleAt2_6 : ∀ t : Fin cfg2.N, ¬cond2_1 (grid2.coords t) → cfg2.idle 6 (grid2.coords t) = true := by decide +kernel
/-- and its block is not written back there. -/
theorem noFlush2_6 : ∀ t : Fin cfg2.N, ¬cond2_1 (grid2.coords t) → (cfg2.win 6).flush t = false := by decide +kernel
/-- Where it holds output 6 is live: the epilogue stores into it. -/
theorem liveAt2_6 : ∀ t : Fin cfg2.N, cond2_1 (grid2.coords t) → cfg2.idle 6 (grid2.coords t) = false := by decide +kernel

/-! ## The memrefs the body is called with -/

abbrev ms2_0 (t : Fin cfg2.N) : Memref sig .tc .vmem S512x512 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x64 .f32 := win2_6.stage (cfg2.slots t 6)
abbrev hs2_6 (t : Fin cfg2.N) : (ms2_6 t).IsWhole := hstage2_6 ((cfg2.slots t 6).cast nbuf2_6)
/-- The scratch operand: a whole scoped buffer of the kernel's own, carried between points. -/
abbrev scM2_0 : Memref sig .tc .vmem S512x128 .f32 := Memref.whole cc2_scratch0

/-! ## The scoped rest, the carried scratch apart -/

/-- The core's scoped buffers that are neither a staging buffer of this pipeline nor its scratch, each whole at
    some contents. -/
def rest2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The class's invariant with the scratch operand as a memref owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ d, owns (c : Thread nD τ) scM2_0 fullShare d)) ∗ (∃ r, prngReg c r)) := by
  unfold Pipeline.ΦA; rw [scopedRest2_eq]; simp only [scM2_0, owns_whole]; try rfl

/-- The invariant hands out the scratch at some contents beside the rest, -/
theorem PhiA2_split (c : Dev nD) :
    (Pipeline.ΦA spec2 c : sProp 𝕄) ⊢ iprop(iprop(rest2 (F := F) c ∗ (∃ d, owns (c : Thread nD τ) scM2_0 fullShare d)) ∗ (∃ r, prngReg c r)) := by
  rw [PhiA2_eq]; unfold rest2
  iintro ⟨⟨E0, E1, E2, E3, E4, E5, E6, E7, E8, E9, E10, E11, E12, E13, E14, E15, E16, E17, HS⟩, Hg⟩
  isplitr [Hg]
  · isplitr [HS]
    · isplitl [E0]; · iexact E0
      isplitl [E1]; · iexact E1
      isplitl [E2]; · iexact E2
      isplitl [E3]; · iexact E3
      isplitl [E4]; · iexact E4
      isplitl [E5]; · iexact E5
      isplitl [E6]; · iexact E6
      isplitl [E7]; · iexact E7
      isplitl [E8]; · iexact E8
      isplitl [E9]; · iexact E9
      isplitl [E10]; · iexact E10
      isplitl [E11]; · iexact E11
      isplitl [E12]; · iexact E12
      isplitl [E13]; · iexact E13
      isplitl [E14]; · iexact E14
      isplitl [E15]; · iexact E15
      isplitl [E16]; · iexact E16
      iexact E17
    · iexact HS
  · iexact Hg

/-- and takes it back. -/
theorem PhiA2_join (c : Dev nD) :
    iprop(iprop(rest2 (F := F) c ∗ (∃ d, owns (c : Thread nD τ) scM2_0 fullShare d)) ∗ (∃ r, prngReg c r)) ⊢ (Pipeline.ΦA spec2 c : sProp 𝕄) := by
  rw [PhiA2_eq]; unfold rest2
  iintro ⟨⟨⟨E0, E1, E2, E3, E4, E5, E6, E7, E8, E9, E10, E11, E12, E13, E14, E15, E16, E17⟩, HS⟩, Hg⟩
  isplitr [Hg]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    isplitl [E9]; · iexact E9
    isplitl [E10]; · iexact E10
    isplitl [E11]; · iexact E11
    isplitl [E12]; · iexact E12
    isplitl [E13]; · iexact E13
    isplitl [E14]; · iexact E14
    isplitl [E15]; · iexact E15
    isplitl [E16]; · iexact E16
    isplitl [E17]; · iexact E17
    iexact HS
  · iexact Hg

end Cert.KernelIdeal.Hand

end
-- ==== Proof.KI.Reg2Dat.lean ====
import proofs.«171258_g71622874628668_fold_wed_m_490_3_alg».proof.Proof.KI.Reg2Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## What the carried scratch holds after each point -/

/-- THE ACCUMULATION. What the scratch accumulator holds after the body at position `n`: the body's accumulating
    store (`k2_pay2`) of the point's blocks of windows 0 and 1 over what it read from the scratch — the zero fill
    (`k2_pay1`) where the reduction coordinate is 0, else what the point before left. -/
def acc2 (c : Dev nD) : (n : ℕ) → n < cfg2.N → Vec F S512x128 .f32
  | 0, hn => k2_pay2 (k2_pay1 (F := F)) (iblk2 V c 0 ⟨0, hn⟩) (iblk2 V c 1 ⟨0, hn⟩)
  | n + 1, hn => k2_pay2 (if (n + 1) % 16 = 0 then k2_pay1 (F := F) else acc2 c n (Nat.lt_of_succ_lt hn))
      (iblk2 V c 0 ⟨n + 1, hn⟩) (iblk2 V c 1 ⟨n + 1, hn⟩)

/-- At a point whose reduction coordinate is 0 the accumulation restarts from the zero fill. -/
theorem acc2_zero (c : Dev nD) (t : Fin cfg2.N) (h0 : t.val % 16 = 0) :
    acc2 V c t.val t.isLt = k2_pay2 (k2_pay1 (F := F)) (iblk2 V c 0 t) (iblk2 V c 1 t) := by
  obtain ⟨n, hn⟩ := t
  cases n with
  | zero => rfl
  | succ n => exact congrArg (fun z => k2_pay2 z (iblk2 V c 0 ⟨n + 1, hn⟩) (iblk2 V c 1 ⟨n + 1, hn⟩)) (if_pos h0)

/-- At any other point it continues from what the point before left. -/
theorem acc2_succ (c : Dev nD) (t : Fin cfg2.N) (h0 : ¬t.val % 16 = 0) :
    acc2 V c t.val t.isLt = k2_pay2 (acc2 V c (t.val - 1) (Nat.lt_of_le_of_lt (Nat.sub_le _ _) t.isLt)) (iblk2 V c 0 t) (iblk2 V c 1 t) := by
  obtain ⟨n, hn⟩ := t
  cases n with
  | zero => exact absurd (Nat.zero_mod _) h0
  | succ n => exact congrArg (fun z => k2_pay2 z (iblk2 V c 0 ⟨n + 1, hn⟩) (iblk2 V c 1 ⟨n + 1, hn⟩)) (if_neg h0)

/-! ## The region invariant -/

/-- The region invariant before position `n`: the scoped rest and the generator register at some state throughout;
    the carried scratch at anything before the first point, afterwards at what the point before left (`acc2`). -/
def PhiS2 (c : Dev nD) : (n : ℕ) → n ≤ cfg2.N → sProp 𝕄
  | 0, _ => iprop(iprop(rest2 (F := F) c ∗ (∃ d, owns (c : Thread nD τ) scM2_0 fullShare d)) ∗ (∃ r, prngReg c r))
  | n + 1, hn => iprop(iprop(rest2 (F := F) c ∗ owns (c : Thread nD τ) scM2_0 fullShare (acc2 V c n hn)) ∗ (∃ r, prngReg c r))

theorem PhiS2_zero (c : Dev nD) (n : ℕ) (h : n ≤ cfg2.N) (hz : n = 0) :
    PhiS2 V c n h = iprop(iprop(rest2 (F := F) c ∗ (∃ d, owns (c : Thread nD τ) scM2_0 fullShare d)) ∗ (∃ r, prngReg c r)) := by
  subst hz; rfl

/-- After point `n` (before point `n + 1`): the carried scratch at that point's contents. -/
theorem PhiS2_succ (c : Dev nD) (n : ℕ) (hn : n < cfg2.N) :
    PhiS2 V c (n + 1) hn = iprop(iprop(rest2 (F := F) c ∗ owns (c : Thread nD τ) scM2_0 fullShare (acc2 V c n hn)) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(rest2 (F := F) c ∗ owns (c : Thread nD τ) scM2_0 fullShare (acc2 V c (n - 1) (by omega))) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block, the output's at the epilogue's payload of the blocks and the accumulation
    (consulted only where the reduction coordinate is 15: elsewhere the window is idle and not written back); the
    invariant `PhiS2`; nothing owed; the two windows of the shared array at the halves of the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => k2_pay3 (iblk2 V c 2 t) (acc2 V c t.val t.isLt) (iblk2 V c 3 t) (iblk2 V c 4 t) (iblk2 V c 5 t)
  Φ t := PhiS2 V c t.val (Nat.le_of_lt_succ t.isLt)
  q w := match w with
    | ⟨1, _⟩ => fullShare.left
    | ⟨2, _⟩ => fullShare.right
    | _ => fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
/-- The output's buffer after the epilogue (the reduction coordinate is 15): the epilogue's payload of window 2's,
    3's, 4's and 5's blocks and the accumulation at the point. -/
theorem after2_6 (c : Dev nD) (t : Fin cfg2.N) (h : t.val % 16 = 15) :
    (dat2 V c).after 6 t = k2_pay3 (iblk2 V c 2 t) (acc2 V c t.val t.isLt) (iblk2 V c 3 t) (iblk2 V c 4 t) (iblk2 V c 5 t) := by
  dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

end Cert.KernelIdeal.Hand

end
-- ==== Proof.KI.Reg2RunA.lean ====
import proofs.«171258_g71622874628668_fold_wed_m_490_3_alg».proof.Proof.KI.Reg2Conds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of the whole-buffer rectangles, as a constant function. -/
theorem hz2_A : (![0, 0] : Fin 2 → Nat) = fun _ => 0 := funext fun a => by fin_cases a <;> rfl

set_option maxHeartbeats 1000000 in
/-- The body where the reduction coordinate is 0 (first `scf.if` taken, second not): on whole memrefs, the inputs' at
    their contents, the idle output's at contents handed back untouched, the scratch at anything, it runs to the
    continuation holding the inputs' and the output's as they were and the scratch at the accumulating store's
    payload over the zero fill: the fill covers the scratch, so the load after it reads the fill, and the last
    store, covering too, reads back as its payload. -/
theorem kernelRun2_A (c : Dev nD) (E : Set ℕ) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : cond2_0 i) (hc1 : ¬cond2_1 i)
    (x0 : Vec F S512x512 .f32) (x1 : Vec F S512x128 .f32) (x2 : Vec F S512x128 .f32) (x3 : Vec F S512x128 .f32) (x4 : Vec F S128x64 .f32) (x5 : Vec F S1x64 .f32) (xi6 : Vec F S512x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ (∃ d, owns (c : Thread nD τ) arg9 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare (k2_pay2 (k2_pay1 (F := F)) x0 x1)) -∗ K ⟨⟩))
      ⊢ wp frame (wpE (defs₀ (F := F)) Variants.none c none) E (cc2__pass2_kernel i arg2 harg2 arg3 harg3 arg4 harg4 arg5 harg5 arg6 harg6 arg7 harg7 arg8 harg8 arg9 harg9) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds, %fs, -, HS⟩, Hk⟩
  subst hf0 hf1 hf2 hf3 hf4 hf5 hf6
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  sl_unfold_run_names
  rw [View.read_writes_eq_canon _ _ _ (fun y => ⟨_, List.mem_cons_self, View.mem_set_unit_zero hz2_A inb_S512x128_S512x128_0_0 y⟩), View.canon_cons_unit_zero hz2_A]
  rw [View.readCov_unit_zero (S := S512x128) _ hz2_A]
  simp only [View.readAt_eq_ld, View.ld_unit_zero (S := S512x128) hz2_A, View.ld_unit_zero (S := S512x512) hz2_A, View.ld_unit_zero (S := S128x64) hz2_A, View.ld_unit_zero (S := S1x64) hz2_A]

end Cert.KernelIdeal.Hand

end
-- ==== Proof.KI.Reg2RunB.lean ====
import proofs.«171258_g71622874628668_fold_wed_m_490_3_alg».proof.Proof.KI.Reg2Conds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of the whole-buffer rectangles, as a constant function. -/
theorem hz2_B : (![0, 0] : Fin 2 → Nat) = fun _ => 0 := funext fun a => by fin_cases a <;> rfl

set_option maxHeartbeats 1000000 in
/-- The body where the reduction coordinate is neither 0 nor 15 (neither `scf.if` taken): on whole memrefs, the
    inputs' at their contents, the idle output's at contents handed back untouched, the scratch at what the point
    before left (`xs`), it runs to the continuation holding the inputs' and the output's as they were and the scratch
    at the accumulating store's payload over `xs`. -/
theorem kernelRun2_B (c : Dev nD) (E : Set ℕ) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : ¬cond2_1 i)
    (x0 : Vec F S512x512 .f32) (x1 : Vec F S512x128 .f32) (x2 : Vec F S512x128 .f32) (x3 : Vec F S512x128 .f32) (x4 : Vec F S128x64 .f32) (x5 : Vec F S1x64 .f32) (xi6 : Vec F S512x64 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare (k2_pay2 xs x0 x1)) -∗ K ⟨⟩))
      ⊢ wp frame (wpE (defs₀ (F := F)) Variants.none c none) E (cc2__pass2_kernel i arg2 harg2 arg3 harg3 arg4 harg4 arg5 harg5 arg6 harg6 arg7 harg7 arg8 harg8 arg9 harg9) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  subst hf0 hf1 hf2 hf3 hf4 hf5 hf6 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact HS
  ipureintro
  sl_unfold_run_names
  rw [View.read_writes_eq_canon _ _ _ (fun y => ⟨_, List.mem_cons_self, View.mem_set_unit_zero hz2_B inb_S512x128_S512x128_0_0 y⟩), View.canon_cons_unit_zero hz2_B]
  simp only [View.readAt_eq_ld, View.ld_unit_zero (S := S512x128) hz2_B, View.ld_unit_zero (S := S512x512) hz2_B, View.ld_unit_zero (S := S128x64) hz2_B, View.ld_unit_zero (S := S1x64) hz2_B]

end Cert.KernelIdeal.Hand

end
-- ==== Proof.KI.Reg2RunC.lean ====
import proofs.«171258_g71622874628668_fold_wed_m_490_3_alg».proof.Proof.KI.Reg2Conds
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of the whole-buffer rectangles, as a constant function. -/
theorem hz2_C : (![0, 0] : Fin 2 → Nat) = fun _ => 0 := funext fun a => by fin_cases a <;> rfl

set_option maxHeartbeats 1000000 in
/-- The body where the reduction coordinate is 15 (first `scf.if` not taken, second taken): on whole memrefs, the
    inputs' at their contents, the output's at anything, the scratch at what the point before left (`xs`), it runs to
    the continuation holding the inputs' as they were, the scratch at the accumulating store's payload over `xs` and
    the output's at the epilogue's payload of the inputs and that accumulation (the epilogue's load of the scratch
    reads the covering store before it). -/
theorem kernelRun2_C (c : Dev nD) (E : Set ℕ) (i : grid2.Coords) (arg2 : Memref sig .tc .vmem S512x512 .f32) (harg2 : arg2.IsWhole) (arg3 : Memref sig .tc .vmem S512x128 .f32) (harg3 : arg3.IsWhole) (arg4 : Memref sig .tc .vmem S512x128 .f32) (harg4 : arg4.IsWhole) (arg5 : Memref sig .tc .vmem S512x128 .f32) (harg5 : arg5.IsWhole) (arg6 : Memref sig .tc .vmem S128x64 .f32) (harg6 : arg6.IsWhole) (arg7 : Memref sig .tc .vmem S1x64 .f32) (harg7 : arg7.IsWhole) (arg8 : Memref sig .tc .vmem S512x64 .f32) (harg8 : arg8.IsWhole) (arg9 : Memref sig .tc .vmem S512x128 .f32) (harg9 : arg9.IsWhole) (hc0 : ¬cond2_0 i) (hc1 : cond2_1 i)
    (x0 : Vec F S512x512 .f32) (x1 : Vec F S512x128 .f32) (x2 : Vec F S512x128 .f32) (x3 : Vec F S512x128 .f32) (x4 : Vec F S128x64 .f32) (x5 : Vec F S1x64 .f32) (xs : Vec F S512x128 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (k2_pay3 x2 (k2_pay2 xs x0 x1) x3 x4 x5) ∗ owns (c : Thread nD τ) arg9 fullShare (k2_pay2 xs x0 x1)) -∗ K ⟨⟩))
      ⊢ wp frame (wpE (defs₀ (F := F)) Variants.none c none) E (cc2__pass2_kernel i arg2 harg2 arg3 harg3 arg4 harg4 arg5 harg5 arg6 harg6 arg7 harg7 arg8 harg8 arg9 harg9) K := by
  simp only [cc2__pass2_kernel_eq_skeleton]; unfold cc2__pass2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs, %hfs, HS⟩, Hk⟩
  subst hf0 hf1 hf2 hf3 hf4 hf5 hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    sl_unfold_run_names
    rw [View.read_writes_eq_canon _ _ _ (fun y => ⟨_, List.mem_cons_self, View.mem_set_unit_zero hz2_C inb_S512x64_S512x64_0_0 y⟩), View.canon_cons_unit_zero hz2_C]
    rw [View.readCov_unit_zero (S := S512x128) _ hz2_C]
    simp only [View.readAt_eq_ld, View.ld_unit_zero (S := S512x128) hz2_C, View.ld_unit_zero (S := S512x512) hz2_C, View.ld_unit_zero (S := S128x64) hz2_C, View.ld_unit_zero (S := S1x64) hz2_C]
  iexists _; isplitr
  swap; · iexact HS
  ipureintro
  sl_unfold_run_names
  rw [View.read_writes_eq_canon _ _ _ (fun y => ⟨_, List.mem_cons_self, View.mem_set_unit_zero hz2_C inb_S512x128_S512x128_0_0 y⟩), View.canon_cons_unit_zero hz2_C]
  simp only [View.readAt_eq_ld, View.ld_unit_zero (S := S512x128) hz2_C, View.ld_unit_zero (S := S512x512) hz2_C, View.ld_unit_zero (S := S128x64) hz2_C, View.ld_unit_zero (S := S1x64) hz2_C]

end Cert.KernelIdeal.Hand

end
-- ==== Proof.KI.Reg2.lean ====
import proofs.«171258_g71622874628668_fold_wed_m_490_3_alg».proof.Proof.KI.Reg2Dat
import proofs.«171258_g71622874628668_fold_wed_m_490_3_alg».proof.Proof.KI.Reg2RunA
import proofs.«171258_g71622874628668_fold_wed_m_490_3_alg».proof.Proof.KI.Reg2RunB
import proofs.«171258_g71622874628668_fold_wed_m_490_3_alg».proof.Proof.KI.Reg2RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The body obligation of pipeline 2, at a generic point -/

/-- What the body is called with at point `t` (the body obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' memrefs hold their blocks; the closed forms of the two conditions say which of
    the three cases the point is in; the invariant hands the body the carried scratch at what the point before left
    (at anything at the first point) and takes it back at this point's accumulation (`acc2_zero` where the reduction
    coordinate is 0, `acc2_succ` elsewhere); the output window is handed back untouched where the epilogue does not run
    (idle there and not written back) and holds the epilogue's payload where it does; the core owes nothing
    throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  have hN : t.val < 256 := lt_of_lt_of_eq t.isLt (show cfg2.N = 256 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  rw [show (dat2 V c).leavesExact 3 t = owns (c : Thread nD τ) (ms2_3 t) fullShare ((dat2 V c).after 3 t) from by
    unfold Dat.leavesExact; rw [liveAt2_3 t], after2_3]
  rw [show (dat2 V c).leavesExact 4 t = owns (c : Thread nD τ) (ms2_4 t) fullShare ((dat2 V c).after 4 t) from by
    unfold Dat.leavesExact; rw [liveAt2_4 t], after2_4]
  rw [show (dat2 V c).leavesExact 5 t = owns (c : Thread nD τ) (ms2_5 t) fullShare ((dat2 V c).after 5 t) from by
    unfold Dat.leavesExact; rw [liveAt2_5 t], after2_5]
  by_cases h0 : t.val % 16 = 0
  · have h1 : ¬t.val % 16 = 15 := by omega
    rw [Dat.leavesExact_idle (dat2 V c) 6 t (idleAt2_6 t (fun h => h1 ((hcond2_1 t).mp h))) (noFlush2_6 t (fun h => h1 ((hcond2_1 t).mp h)))]
    rw [acc2_zero V c t h0]
    by_cases hz : t.val = 0
    · rw [PhiS2_castSucc V c t, PhiS2_zero V c _ _ hz]
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun2_A c Set.univ (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS2_castSucc V c t, PhiS2_pos V c _ _ hz]
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun2_A c Set.univ (grid2.coords t) _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexists _; iexact HS0
      iintro ⟨H0, H1, H2, H3, H4, H5, H6, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun e => h0 (by rw [e])
    rw [acc2_succ V c t h0]
    rw [PhiS2_castSucc V c t, PhiS2_pos V c _ _ hz]
    by_cases h1 : t.val % 16 = 15
    · rw [show (dat2 V c).leavesExact 6 t = owns (c : Thread nD τ) (ms2_6 t) fullShare ((dat2 V c).after 6 t) from by
        unfold Dat.leavesExact; rw [liveAt2_6 t ((hcond2_1 t).mpr h1)], after2_6 V c t h1, acc2_succ V c t h0]
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun2_C c Set.univ (grid2.coords t) _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      iintro ⟨H0, H1, H2, H3, H4, H5, H6, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dat2 V c) 6 t (idleAt2_6 t (fun h => h1 ((hcond2_1 t).mp h))) (noFlush2_6 t (fun h => h1 ((hcond2_1 t).mp h)))]
      iintro ⟨⟨⟨HR, HS0⟩, Hg⟩, Ho, ⟨%d0, H0⟩, ⟨%d1, H1⟩, ⟨%d2, H2⟩, ⟨%d3, H3⟩, ⟨%d4, H4⟩, ⟨%d5, H5⟩, ⟨%d6, H6⟩⟩
      iapply (kernelRun2_B c Set.univ (grid2.coords t) _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      iintro ⟨H0, H1, H2, H3, H4, H5, H6, HS0⟩
      isplitl [HR HS0 Hg]
      · isplitl [HR HS0]
        · isplitl [HR]; · iexact HR
          iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point: the scratch split off the scoped rest. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  exact PhiA2_split c

/-- After any point but the first the invariant gives the class's back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht]
  refine Idealize.SL.BI.BIBase.Entails.trans ?_ (PhiA2_join c)
  iintro ⟨⟨HR, HS0⟩, Hg⟩
  isplitl [HR HS0]
  · isplitl [HR]; · iexact HR
    iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 256 := N_2; omega)

end Cert.KernelIdeal.Hand

end
-- ==== Proof.KI.Frame.lean ====
/- The three regions' halves put into the run of @main: every weakly fair execution terminates, nothing faults, and
   every unscoped buffer ends at the last boundary's contents — in particular the seven argument arrays end as
   launched (the frame), and the result array ends at what region 2's write-backs leave. -/
import proofs.«171258_g71622874628668_fold_wed_m_490_3_alg».proof.Proof.KI.Run
import proofs.«171258_g71622874628668_fold_wed_m_490_3_alg».proof.Proof.KI.Reg0
import proofs.«171258_g71622874628668_fold_wed_m_490_3_alg».proof.Proof.KI.Reg1
import proofs.«171258_g71622874628668_fold_wed_m_490_3_alg».proof.Proof.KI.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-- Region 0's half meets what the run asks of it. -/
theorem half0 : Half0 (F := F) dat0 :=
  ⟨fun V c w => A_eq0 V c w, fun _ _ _ => rfl, fun _ _ _ => rfl, fun _ _ => rfl,
    fun V c => body_obligation0 V c, fun V c => hin0 V c, fun V c => hout0 V c⟩

/-- Region 1's half: windows 2 and 3 hold the array they share in halves. -/
theorem half1 : Half1 (F := F) dat1 :=
  ⟨fun V c w => A_eq1 V c w, fun _ _ => rfl, fun _ _ => rfl, fun _ _ => rfl, fun _ _ => rfl, fun _ _ _ => rfl, fun _ _ => rfl,
    fun V c => body_obligation1 V c, fun V c => hin1 V c, fun V c => hout1 V c⟩

/-- Region 2's half: windows 1 and 2 hold the array they share in halves. -/
theorem half2 : Half2 (F := F) dat2 :=
  ⟨fun V c w => A_eq2 V c w, fun _ _ => rfl, fun _ _ => rfl, fun _ _ => rfl, fun _ _ => rfl, fun _ _ => rfl, fun _ _ => rfl,
    fun _ _ _ => rfl, fun _ _ => rfl, fun V c => body_obligation2 V c, fun V c => hin2 V c, fun V c => hout2 V c⟩

variable (m : (ℓ : Loc nD τ sig) → Buf (Elt F) ℓ) (ρ : Dev nD → PrngReg)

/-- The run with every unscoped buffer's final contents named. -/
theorem run_named : θ_run defs (onTc (τ := τ) (main (F := F))) ⟨m, fun _ => 0, ρ⟩ (fun r => ∀ c : Dev nD,
      ∀ b ∈ Pipeline.ucRefs τ sig, r.2.mem ((c : Thread nD τ).1, b) = W5 dat0 dat1 dat2 m ρ c b) :=
  run_main dat0 dat1 dat2 m ρ half0 half1 half2

/-- The run with the result array and the seven argument arrays read off. -/
theorem run_value : θ_run defs (onTc (τ := τ) (main (F := F))) ⟨m, fun _ => 0, ρ⟩ (fun r => ∀ c : Dev nD,
      r.2.mem ((c.tc : Thread nD τ).loc main_v4) = (dat2 (V4 dat0 dat1 m ρ) c).arrAt 6 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v4 (by decide))).trans (W5_main_v4 _ _ _ m ρ c),
     (h c _ (mem_uc main_arg0 (by decide))).trans (W5_main_arg0 _ _ _ m ρ half0 c),
     (h c _ (mem_uc main_arg1 (by decide))).trans (W5_main_arg1 _ _ _ m ρ c),
     (h c _ (mem_uc main_arg2 (by decide))).trans (W5_main_arg2 _ _ _ m ρ c),
     (h c _ (mem_uc main_arg3 (by decide))).trans (W5_main_arg3 _ _ _ m ρ half0 c),
     (h c _ (mem_uc main_arg4 (by decide))).trans (W5_main_arg4 _ _ _ m ρ c),
     (h c _ (mem_uc main_arg5 (by decide))).trans (W5_main_arg5 _ _ _ m ρ c),
     (h c _ (mem_uc main_arg6 (by decide))).trans (W5_main_arg6 _ _ _ m ρ c)⟩)
    (run_named m ρ)

/-- THE FRAME: the program runs to the end, faults nowhere, and leaves its seven argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_value m ρ)

end Cert.KernelIdeal.Hand

end
-- ==== Proof.KI.RunVals.lean ====
/-
  The two bias rows as the regions find them: `hostOps0` reshapes the launch's `main_arg4` (128 entries) into the one-row
  array `main_v0` region 0 reads, and `hostOps2` reshapes `main_arg6` (64 entries) into the one-row array `main_v3` region 2
  reads; no region and no earlier stretch writes either argument. A reshape that adds a leading unit axis reads, at
  `(0, q)`, the operand at `q`.
-/
import proofs.«171258_g71622874628668_fold_wed_m_490_3_alg».proof.Proof.KI.Run
import Idealize.ShloMosaic.Lib.ValueLayout
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

variable {F : FTy → Type} [FloatOps F]

variable (dat0 : VT F → (c : Dev nD) → Dat τ (Elt F) Unit ℕ (UR sig nD τ) ℕ cfg0 c)
variable (dat1 : VT F → (c : Dev nD) → Dat τ (Elt F) Unit ℕ (UR sig nD τ) ℕ cfg1 c)
variable (m : (ℓ : Loc nD τ sig) → Buf (Elt F) ℓ) (ρ : Dev nD → PrngReg)

/-- Region 0's bias row: `main_v0` at `(0, q)` is the launch's `main_arg4` at `q`. -/
theorem V1_bias (c : Dev nD) (q : Fin 128) :
    V1 m ρ c main_v0 (ix2 (0 : Fin 1) q) = m ((c : Thread nD τ).loc main_arg4) (ix1 q) := by
  have h : V1 m ρ c main_v0 = fun i => (rfl : main_arg4.ty.elt = main_v0.ty.elt) ▸
      shapeCast main_v0.ty.shape (W0 m ρ c (Proc.devRef .tc main_arg4)) shapeCasts_S128_S1x128 i :=
    (show V1 m ρ c main_v0 = (StableHlo.reshape main_arg4 main_v0 rfl shapeCasts_S128_S1x128).result (W0 m ρ c) (Proc.devRef .tc main_v0)
      from rfl).trans (StableHlo.reshape_result main_arg4 main_v0 rfl shapeCasts_S128_S1x128 _ _ (W0 m ρ c))
  refine (congrFun h (ix2 (0 : Fin 1) q)).trans ?_
  exact shapeCast_a_1a_apply (a := 128) _ _ (0 : Fin 1) q

/-- Region 2's bias row: `main_v3` at `(0, q)` is the launch's `main_arg6` at `q`. -/
theorem V4_bias (c : Dev nD) (q : Fin 64) :
    V4 dat0 dat1 m ρ c main_v3 (ix2 (0 : Fin 1) q) = m ((c : Thread nD τ).loc main_arg6) (ix1 q) := by
  have hsrc : W3 dat0 dat1 m ρ c (Proc.devRef .tc main_arg6) = m ((c : Thread nD τ).loc main_arg6) :=
    (W3_of_ne dat0 dat1 m ρ c main_arg6 (by decide) (by decide)).trans <| (W2_of_ne dat0 m ρ c main_arg6 (by decide)).trans <|
      (W1_of m ρ c main_arg6 (by decide)).trans rfl
  have h : V4 dat0 dat1 m ρ c main_v3 = fun i => (rfl : main_arg6.ty.elt = main_v3.ty.elt) ▸
      shapeCast main_v3.ty.shape (W3 dat0 dat1 m ρ c (Proc.devRef .tc main_arg6)) shapeCasts_S64_S1x64 i :=
    (show V4 dat0 dat1 m ρ c main_v3 = (StableHlo.reshape main_arg6 main_v3 rfl shapeCasts_S64_S1x64).result (W3 dat0 dat1 m ρ c) (Proc.devRef .tc main_v3)
      from rfl).trans (StableHlo.reshape_result main_arg6 main_v3 rfl shapeCasts_S64_S1x64 _ _ (W3 dat0 dat1 m ρ c))
  rw [hsrc] at h
  refine (congrFun h (ix2 (0 : Fin 1) q)).trans ?_
  exact shapeCast_a_1a_apply (a := 64) _ _ (0 : Fin 1) q

end Cert.KernelIdeal.Hand

end
-- ==== Proof.KI.Arr0.lean ====
/- Region 0 has one grid point and every window's block is its whole array: the output array after the region is
   the body's result of the three input arrays as the region finds them. -/
import proofs.«171258_g71622874628668_fold_wed_m_490_3_alg».proof.Proof.KI.Reg0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- The one point's block indices are all zero. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- Each input window's block at the point is the whole array. -/
theorem iblk0_0 (c : Dev nD) (t : Fin cfg0.N) : iblk0 V c 0 t = V c main_arg0 := by
  obtain ⟨e0, e1, -⟩ := idx_facts0 t
  funext j
  show V c main_arg0 (((cfg0.win 0).blk t).view.emb j) = V c main_arg0 j
  refine congrArg _ ?_
  funext a; apply Fin.ext
  match a with
  | ⟨0, _⟩ => show win0_0.index t (0 : Fin 2) * 8192 + 1 * (j 0).val = (j 0).val; omega
  | ⟨1, _⟩ => show win0_0.index t (1 : Fin 2) * 256 + 1 * (j 1).val = (j 1).val; omega

theorem iblk0_1 (c : Dev nD) (t : Fin cfg0.N) : iblk0 V c 1 t = V c main_arg3 := by
  obtain ⟨-, -, e0, e1, -⟩ := idx_facts0 t
  funext j
  show V c main_arg3 (((cfg0.win 1).blk t).view.emb j) = V c main_arg3 j
  refine congrArg _ ?_
  funext a; apply Fin.ext
  match a with
  | ⟨0, _⟩ => show win0_1.index t (0 : Fin 2) * 256 + 1 * (j 0).val = (j 0).val; omega
  | ⟨1, _⟩ => show win0_1.index t (1 : Fin 2) * 128 + 1 * (j 1).val = (j 1).val; omega

theorem iblk0_2 (c : Dev nD) (t : Fin cfg0.N) : iblk0 V c 2 t = V c main_v0 := by
  obtain ⟨-, -, -, -, e0, e1, -⟩ := idx_facts0 t
  funext j
  show V c main_v0 (((cfg0.win 2).blk t).view.emb j) = V c main_v0 j
  refine congrArg _ ?_
  funext a; apply Fin.ext
  match a with
  | ⟨0, _⟩ => show win0_2.index t (0 : Fin 2) * 1 + 1 * (j 0).val = (j 0).val; omega
  | ⟨1, _⟩ => show win0_2.index t (1 : Fin 2) * 128 + 1 * (j 1).val = (j 1).val; omega

/-- What the point writes back is the block of the body's result of the whole input arrays. -/
theorem flushed0_3_eq (c : Dev nD) (t : Fin cfg0.N) :
    (dat0 V c).flushed 3 t = ((cfg0.win 3).blk t).view.read (Elt F) (out0_3 (V c main_arg0) (V c main_arg3) (V c main_v0)) := by
  show (cfg0.win 3).cut (grid0.coords t) ((dat0 V c).after 3 t) = _
  rw [after0_3, iblk0_0, iblk0_1, iblk0_2]
  generalize out0_3 (V c main_arg0) (V c main_arg3) (V c main_v0) = G
  obtain ⟨-, -, -, -, -, -, e0, e1⟩ := idx_facts0 t
  funext j
  show G j = G (((cfg0.win 3).blk t).view.emb j)
  refine congrArg G ?_
  funext a; apply Fin.ext
  match a with
  | ⟨0, _⟩ => show (j 0).val = win0_3.index t (0 : Fin 2) * 8192 + 1 * (j 0).val; omega
  | ⟨1, _⟩ => show (j 1).val = win0_3.index t (1 : Fin 2) * 128 + 1 * (j 1).val; omega

theorem mem_blk0_3 (t : Fin cfg0.N) (i : S8192x128.Idx) :
    i ∈ ((cfg0.win 3).blk t).view.set ↔ ∀ a : Fin 2, win0_3.index t a * S8192x128.size a ≤ (i a).val ∧ (i a).val < win0_3.index t a * S8192x128.size a + S8192x128.size a := by
  show i ∈ ((View.whole main_v1).slice (win0_3.rect t)).set ↔ _
  rw [View.set_slice_whole, Rect.mem_set_unit]
  exact Iff.rfl

/-- THE ARRAY region 0 leaves: the body's result of the input arrays as the region finds them. -/
theorem arr0_3 (c : Dev nD) :
    (dat0 V c).arrAt 3 cfg0.N = out0_3 (V c main_arg0) (V c main_arg3) (V c main_v0) :=
  (dat0 V c).arrAt_eq_of_cover 3 _ (fun t _ => flushed0_3_eq V c t) (fun i => by
    refine ⟨t0_0, flush0_3 t0_0, ?_⟩
    rw [mem_blk0_3]
    obtain ⟨-, -, -, -, -, -, e0, e1⟩ := idx_facts0 t0_0
    intro a
    match a with
    | ⟨0, _⟩ => show win0_3.index t0_0 (0 : Fin 2) * 8192 ≤ (i 0).val ∧ (i 0).val < win0_3.index t0_0 (0 : Fin 2) * 8192 + 8192; have hi : (i 0).val < 8192 := (i 0).isLt; omega
    | ⟨1, _⟩ => show win0_3.index t0_0 (1 : Fin 2) * 128 ≤ (i 1).val ∧ (i 1).val < win0_3.index t0_0 (1 : Fin 2) * 128 + 128; have hi : (i 1).val < 128 := (i 1).isLt; omega)

end Cert.KernelIdeal.Hand

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.KI.Val0.lean ====
/- Region 0's output block read at an index, at the extended reals: what the body leaves in the output window's
   buffer, from the three input blocks x0 (8192×256), x1 (256×128), x2 (1×128), is at (p, q) the sum over k of
   x0[p, k] · x1[k, q], plus x2[0, q]. -/
import proofs.«171258_g71622874628668_fold_wed_m_490_3_alg».proof.Proof.KI.Reg0
import proofs.«171258_g71622874628668_fold_wed_m_490_3_alg».proof.Proof.LibMatmul
import Idealize.ShloMosaic.Lib.Pipeline.Value
import Idealize.ShloMosaic.Lib.ValueIdx

noncomputable section

open scoped BigOperators

namespace Cert.KernelIdeal.HandVal

open Idealize.ShloMosaic Idealize.ShloMosaic.ValueIdx
open Cert.KernelIdeal Cert.KernelIdeal.Gen Cert.KernelIdeal.Hand

/-- The zero offsets, as the constant function. -/
theorem hz0 : (![0, 0] : Fin 2 → Nat) = fun _ => 0 := funext fun a => by fin_cases a <;> rfl

/-- The body's product contracts the left operand's second axis with the right operand's first. -/
theorem dot0_eq_plain : dot_S8192x256_S256x128_S8192x128_1_0_0_1_n_n = DotDims.plain 8192 256 128 := rfl

/-- The row vector broadcast over the rows, read at (p, q), is its element (0, q). -/
theorem bias0_apply (v3 : Vec Ideal S1x128 .f32) (p : Fin 8192) (q : Fin 128) :
    broadcastTo S8192x128 (shapeCast S1x128 v3 shapeCasts_S1x128_S1x128) broadcasts_S1x128_S8192x128 (ix2 p q) = v3 (ix2 0 q) := by
  rw [shapeCast_self]
  exact broadcastTo_apply v3 broadcasts_S1x128_S8192x128 (ix2 p q) (ix2 0 q)
    (fun a => by match a with | ⟨0, _⟩ => rfl | ⟨1, _⟩ => rfl)

/-- The stored payload at (p, q): the product's sum plus the broadcast row. -/
theorem k0_pay1_apply (v0 : Vec Ideal S8192x256 .f32) (v1 : Vec Ideal S256x128 .f32) (v3 : Vec Ideal S1x128 .f32)
    (p : Fin 8192) (q : Fin 128) :
    k0_pay1 (F := Ideal) v0 v1 v3 (ix2 p q) = (∑ k : Fin 256, v0 (ix2 p k) * v1 (ix2 k q)) + v3 (ix2 0 q) := by
  show addf (F := Ideal) (FloatOps.matmul (DotDims.plain 8192 256 128) none v0 v1 (constant S8192x128 .f32 0x00000000#32))
      (broadcastTo S8192x128 (shapeCast S1x128 v3 shapeCasts_S1x128_S1x128) broadcasts_S1x128_S8192x128) (ix2 p q) = _
  rw [addf_apply, bias0_apply, Cert.Bridge.LibMatmul.matmul_zero_apply]

/-- The output window's buffer after the body, read at (p, q). -/
theorem out0_3_apply (x0 : Vec Ideal S8192x256 .f32) (x1 : Vec Ideal S256x128 .f32) (x2 : Vec Ideal S1x128 .f32)
    (p : Fin 8192) (q : Fin 128) :
    out0_3 (F := Ideal) x0 x1 x2 (ix2 p q) = (∑ k : Fin 256, x0 (ix2 p k) * x1 (ix2 k q)) + x2 (ix2 0 q) := by
  unfold out0_3
  rw [View.canon_unit_zero hz0, View.ld_unit_zero (S := S8192x256) hz0, View.ld_unit_zero (S := S256x128) hz0,
    View.ld_unit_zero (S := S1x128) hz0]
  exact k0_pay1_apply x0 x1 x2 p q

end Cert.KernelIdeal.HandVal

end
-- ==== Proof.KI.ValBlk1.lean ====
/-
  The first accumulation pass's windows, read entry by entry off the arrays as the pass finds them: at grid point t,
  with row block t / 16 and reduction block t % 16, the two 512×512 operand blocks are rows (t/16)·512 + p and columns
  (t%16)·512 + j of their 8192×8192 arrays, the moving 512×128 block is rows (t%16)·512 + j of the 8192×128 array, and
  the row block of that same array and the two output blocks are rows (t/16)·512 + p.
-/
import proofs.«171258_g71622874628668_fold_wed_m_490_3_alg».proof.Proof.KI.Reg1Conds
import Idealize.ShloMosaic.Lib.ValueIdx
import Idealize.ShloMosaic.Lib.Pipeline.Value

noncomputable section

namespace Cert.KernelIdeal.HandVal

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The printed index maps over the 256 grid points: row block t / 16, reduction block t % 16. -/
theorem idx_facts1 : ∀ t : Fin cfg1.N,
    win1_0.index t (0 : Fin 2) = t.val / 16 ∧ win1_0.index t (1 : Fin 2) = t.val % 16
    ∧ win1_1.index t (0 : Fin 2) = t.val / 16 ∧ win1_1.index t (1 : Fin 2) = t.val % 16
    ∧ win1_2.index t (0 : Fin 2) = t.val % 16 ∧ win1_2.index t (1 : Fin 2) = 0
    ∧ win1_3.index t (0 : Fin 2) = t.val / 16 ∧ win1_3.index t (1 : Fin 2) = 0
    ∧ win1_4.index t (0 : Fin 2) = t.val / 16 ∧ win1_4.index t (1 : Fin 2) = 0
    ∧ win1_5.index t (0 : Fin 2) = t.val / 16 ∧ win1_5.index t (1 : Fin 2) = 0 :=
  (by decide +kernel : ∀ t : Fin grid1.N, _)

/-- Window 0's block: rows (t/16)·512 + p, columns (t%16)·512 + j of the first 8192×8192 array. -/
theorem iblk1_0_apply (c : Dev nD) (t : Fin cfg1.N) (p j : Fin 512) (P J : Fin 8192)
    (hP : P.val = t.val / 16 * 512 + p.val) (hJ : J.val = t.val % 16 * 512 + j.val) :
    (iblk1 V c 0 t : S512x512.Idx → Ideal .f32) (ix2 p j) = V c main_arg1 (ix2 P J) := by
  obtain ⟨e0, e1, -⟩ := idx_facts1 t
  show V c main_arg1 (((cfg1.win 0).blk t).view.emb (ix2 p j)) = V c main_arg1 (ix2 P J)
  refine congrArg _ ?_
  funext a; apply Fin.ext
  match a with
  | ⟨0, _⟩ => show win1_0.index t (0 : Fin 2) * 512 + 1 * p.val = P.val; omega
  | ⟨1, _⟩ => show win1_0.index t (1 : Fin 2) * 512 + 1 * j.val = J.val; omega

/-- Window 1's block: the same rows and columns of the second 8192×8192 array. -/
theorem iblk1_1_apply (c : Dev nD) (t : Fin cfg1.N) (p j : Fin 512) (P J : Fin 8192)
    (hP : P.val = t.val / 16 * 512 + p.val) (hJ : J.val = t.val % 16 * 512 + j.val) :
    (iblk1 V c 1 t : S512x512.Idx → Ideal .f32) (ix2 p j) = V c main_arg2 (ix2 P J) := by
  obtain ⟨-, -, e0, e1, -⟩ := idx_facts1 t
  show V c main_arg2 (((cfg1.win 1).blk t).view.emb (ix2 p j)) = V c main_arg2 (ix2 P J)
  refine congrArg _ ?_
  funext a; apply Fin.ext
  match a with
  | ⟨0, _⟩ => show win1_1.index t (0 : Fin 2) * 512 + 1 * p.val = P.val; omega
  | ⟨1, _⟩ => show win1_1.index t (1 : Fin 2) * 512 + 1 * j.val = J.val; omega

/-- Window 2's block: rows (t%16)·512 + j of the 8192×128 array. -/
theorem iblk1_2_apply (c : Dev nD) (t : Fin cfg1.N) (j : Fin 512) (q : Fin 128) (J : Fin 8192)
    (hJ : J.val = t.val % 16 * 512 + j.val) :
    (iblk1 V c 2 t : S512x128.Idx → Ideal .f32) (ix2 j q) = V c main_v1 (ix2 J q) := by
  obtain ⟨-, -, -, -, e0, e1, -⟩ := idx_facts1 t
  show V c main_v1 (((cfg1.win 2).blk t).view.emb (ix2 j q)) = V c main_v1 (ix2 J q)
  refine congrArg _ ?_
  funext a; apply Fin.ext
  match a with
  | ⟨0, _⟩ => show win1_2.index t (0 : Fin 2) * 512 + 1 * j.val = J.val; omega
  | ⟨1, _⟩ => show win1_2.index t (1 : Fin 2) * 128 + 1 * q.val = q.val; omega

/-- Window 3's block: rows (t/16)·512 + p of the same 8192×128 array. -/
theorem iblk1_3_apply (c : Dev nD) (t : Fin cfg1.N) (p : Fin 512) (q : Fin 128) (P : Fin 8192)
    (hP : P.val = t.val / 16 * 512 + p.val) :
    (iblk1 V c 3 t : S512x128.Idx → Ideal .f32) (ix2 p q) = V c main_v1 (ix2 P q) := by
  obtain ⟨-, -, -, -, -, -, e0, e1, -⟩ := idx_facts1 t
  show V c main_v1 (((cfg1.win 3).blk t).view.emb (ix2 p q)) = V c main_v1 (ix2 P q)
  refine congrArg _ ?_
  funext a; apply Fin.ext
  match a with
  | ⟨0, _⟩ => show win1_3.index t (0 : Fin 2) * 512 + 1 * p.val = P.val; omega
  | ⟨1, _⟩ => show win1_3.index t (1 : Fin 2) * 128 + 1 * q.val = q.val; omega

end Cert.KernelIdeal.HandVal

end
-- ==== Proof.KI.ValPay1.lean ====
/-
  The first accumulation pass's stored values, read index by index on the extended reals: each running total takes
  one more 512-term row-by-column product of the block pair; the zeroing value is the zero word's; the flushed value
  is half the sum of the three 512×128 blocks, in the printed association.
-/
import proofs.«171258_g71622874628668_fold_wed_m_490_3_alg».proof.Proof.Gen.KernelIdeal.Skeleton
import proofs.«171258_g71622874628668_fold_wed_m_490_3_alg».proof.Proof.LibMatmul
import Idealize.ShloMosaic.Lib.ValueIdx
import Idealize.ShloMosaic.Lib.Pipeline.Value

noncomputable section

open scoped BigOperators

namespace Cert.KernelIdeal.HandVal

open Idealize.ShloMosaic Idealize.ShloMosaic.ValueIdx Cert.KernelIdeal Cert.KernelIdeal.Gen

/-- The 512×512 by 512×128 product's dimension numbers are the plain ones. -/
theorem dot512_eq : dot_S512x512_S512x128_S512x128_1_0_0_1_n_n = DotDims.plain 512 512 128 := rfl

/-- The product of a 512×512 block and a 512×128 block into the zero accumulator, at (p, q). -/
theorem matmul512_apply {φ₁ φ₂ : FTy} (L : FVec Ideal S512x512 φ₁) (R : FVec Ideal S512x128 φ₂) (p : Fin 512) (q : Fin 128) :
    matmul dot_S512x512_S512x128_S512x128_1_0_0_1_n_n none L R (constant (F := Ideal) S512x128 .f32 0x00000000#32) (ix2 p q)
      = ∑ j : Fin 512, L (ix2 p j) * R (ix2 j q) := by
  rw [dot512_eq]
  exact Cert.Bridge.LibMatmul.matmul_zero_apply none L R p q

/-- The first running total after a point: what it held plus the row-by-column product. -/
theorem k1_pay4_apply (v3 v10 : Vec Ideal S512x128 .f32) (v6 : Vec Ideal S512x512 .f32) (p : Fin 512) (q : Fin 128) :
    k1_pay4 (F := Ideal) v3 v6 v10 (ix2 p q) = v10 (ix2 p q) + ∑ j : Fin 512, v6 (ix2 p j) * v3 (ix2 j q) := by
  unfold k1_pay4 k1_pay3
  simp only [shapeCast_self]
  rw [addf_apply, matmul512_apply]
  rfl

/-- The second running total after a point, likewise. -/
theorem k1_pay5_apply (v3 v16 : Vec Ideal S512x128 .f32) (v8 : Vec Ideal S512x512 .f32) (p : Fin 512) (q : Fin 128) :
    k1_pay5 (F := Ideal) v3 v8 v16 (ix2 p q) = v16 (ix2 p q) + ∑ j : Fin 512, v8 (ix2 p j) * v3 (ix2 j q) := by
  unfold k1_pay5 k1_pay3
  simp only [shapeCast_self]
  rw [addf_apply, matmul512_apply]
  rfl

/-- The value the first running total is reset to is the zero word's. -/
theorem k1_pay1_apply (p : Fin 512) (q : Fin 128) :
    k1_pay1 (F := Ideal) (ix2 p q) = Ideal.ofBits .f32 0x00000000#32 := by
  unfold k1_pay1
  simp only [shapeCast_self]
  rfl

/-- The value the second running total is reset to is the zero word's. -/
theorem k1_pay2_apply (p : Fin 512) (q : Fin 128) :
    k1_pay2 (F := Ideal) (ix2 p q) = Ideal.ofBits .f32 0x00000000#32 := by
  unfold k1_pay2
  simp only [shapeCast_self]
  rfl

/-- The flushed value: half of each of the three blocks, summed in the printed association. -/
theorem k1_pay6_apply (v25 v27 v31 : Vec Ideal S512x128 .f32) (p : Fin 512) (q : Fin 128) :
    k1_pay6 (F := Ideal) v25 v27 v31 (ix2 p q)
      = (Ideal.ofBits .f32 0x3F000000#32 * v27 (ix2 p q) + Ideal.ofBits .f32 0x3F000000#32 * v31 (ix2 p q))
          + Ideal.ofBits .f32 0x3F000000#32 * v25 (ix2 p q) := by
  unfold k1_pay6
  simp only [shapeCast_self]
  rfl

end Cert.KernelIdeal.HandVal

end
-- ==== Proof.LibTileSum.lean ====
/- Regrouping a sum over n = a · b consecutive positions into a tiles of b, and the running sum over the tiles:
   only associativity and commutativity of + (any additive commutative monoid; used on the extended reals). -/
import Mathlib.Algebra.BigOperators.Fin
import Mathlib.Algebra.BigOperators.Intervals

open scoped BigOperators

namespace Cert.Lib.TileSum

variable {M : Type*} [AddCommMonoid M]

/-- Position c of tile j is below a · b. -/
theorem tile_lt {a b : ℕ} {j c : ℕ} (hj : j < a) (hc : c < b) : j * b + c < a * b :=
  calc j * b + c < j * b + b := Nat.add_lt_add_left hc _
    _ = (j + 1) * b := (Nat.succ_mul j b).symm
    _ ≤ a * b := Nat.mul_le_mul_right b hj

/-- The first a · b positions, tile by tile: position j · b + c is place c of tile j. -/
theorem sum_range_tiles (a b : ℕ) (h : ℕ → M) :
    ∑ i ∈ Finset.range (a * b), h i = ∑ j ∈ Finset.range a, ∑ c : Fin b, h (j * b + c.val) := by
  induction a with
  | zero => simp
  | succ a ih =>
    rw [Nat.succ_mul, Finset.sum_range_add, ih, Finset.sum_range_succ,
      Fin.sum_univ_eq_sum_range (fun x => h (a * b + x)) b]

/-- A sum over Fin (a · b) of a function of the position is the sum over the a tiles of the tile's b places. -/
theorem sum_tiles (a b : ℕ) (h : ℕ → M) :
    ∑ q : Fin (a * b), h q.val = ∑ j ∈ Finset.range a, ∑ c : Fin b, h (j * b + c.val) := by
  rw [Fin.sum_univ_eq_sum_range h (a * b)]; exact sum_range_tiles a b h

/-- The same over Fin n for n = a · b given as an equation (so that a literal n need not be spelt as a product). -/
theorem sum_tiles_of_eq (n a b : ℕ) (hn : n = a * b) (h : ℕ → M) :
    ∑ q : Fin n, h q.val = ∑ j ∈ Finset.range a, ∑ c : Fin b, h (j * b + c.val) := by
  subst hn; exact sum_tiles a b h

/-- The same with both sides indexed by Fin: f at place c of tile j is f at position j · b + c. -/
theorem sum_tiles_fin (n a b : ℕ) (hn : n = a * b) (f : Fin n → M) :
    ∑ q : Fin n, f q = ∑ j : Fin a, ∑ c : Fin b, f ⟨j.val * b + c.val, hn ▸ tile_lt j.isLt c.isLt⟩ := by
  subst hn
  have key := sum_tiles a b (fun i => if hi : i < a * b then f ⟨i, hi⟩ else 0)
  rw [← Fin.sum_univ_eq_sum_range (fun j => ∑ c : Fin b, (fun i => if hi : i < a * b then f ⟨i, hi⟩ else 0) (j * b + c.val)) a] at key
  refine (Finset.sum_congr rfl fun q _ => ?_).trans (key.trans (Finset.sum_congr rfl fun j _ => Finset.sum_congr rfl fun c _ => ?_))
  · rw [dif_pos q.isLt]
  · exact dif_pos (tile_lt j.isLt c.isLt)

/-- A running sum from z over a list of tiles, each tile's own sum started from z too, is z plus the tiles' sums,
    when z is the zero (as the zero word of a float format is, read as an extended real). -/
theorem foldl_tiles_list {ι : Type*} (z : M) (hz : z = 0) (G : ι → M) (L : List ι) :
    L.foldl (fun acc j => acc + (z + G j)) z = z + (L.map G).sum := by
  subst hz
  suffices H : ∀ acc : M, L.foldl (fun acc j => acc + (0 + G j)) acc = acc + (L.map G).sum from H 0
  induction L with
  | nil => intro acc; simp
  | cons j L ih => intro acc; rw [List.foldl_cons, ih, List.map_cons, List.sum_cons, zero_add, add_assoc]

/-- The running sum over the tiles 0 … a − 1 in order. -/
theorem foldl_tiles_range (z : M) (hz : z = 0) (a : ℕ) (G : ℕ → M) :
    (List.range a).foldl (fun acc j => acc + (z + G j)) z = z + ∑ j ∈ Finset.range a, G j := by
  rw [foldl_tiles_list z hz G, ← Fin.sum_univ_eq_sum_range G a, Fin.sum_univ_def,
    ← List.map_coe_finRange_eq_range, List.map_map]
  rfl

/-- The tiled running sum is the whole sum: folding, over the tiles j = 0 … a − 1, acc + (z + Σ_c h (j·b + c))
    from z gives z + Σ_q h q over all n = a · b positions. -/
theorem foldl_tiles (n a b : ℕ) (hn : n = a * b) (z : M) (hz : z = 0) (h : ℕ → M) :
    (List.range a).foldl (fun acc j => acc + (z + ∑ c : Fin b, h (j * b + c.val))) z = z + ∑ q : Fin n, h q.val := by
  rw [foldl_tiles_range z hz a (fun j => ∑ c : Fin b, h (j * b + c.val)), sum_tiles_of_eq n a b hn h]

end Cert.Lib.TileSum
-- ==== Proof.LibAccFold.lean ====
/-
  Running totals over a counted range.

  A total that starts at z + T 0 and takes T (j + 1) more at each step is z plus the sum of the T's so far; a running maximum of 0/1 indicators that starts from 0 is the indicator of
  "some step so far had it".
-/
import Idealize.ShloMosaic.PureOps.Ideal

open scoped BigOperators

namespace Cert.Lib.AccFold

/-- A running sum started at z + T 0 that takes T (j + 1) more at each step: after step j (below n) it is
    z + T 0 + … + T j. -/
theorem add_fold {M : Type} [AddCommMonoid M] (z : M) (n : ℕ) (a T : ℕ → M)
    (h0 : a 0 = z + T 0) (hs : ∀ j, j + 1 < n → a (j + 1) = a j + T (j + 1)) :
    ∀ j, j < n → a j = z + ∑ i ∈ Finset.range (j + 1), T i
  | 0, _ => by rw [h0, Finset.sum_range_one]
  | j + 1, h => by
    rw [hs j h, add_fold z n a T h0 hs j (Nat.lt_of_succ_lt h), Finset.sum_range_succ _ (j + 1), add_assoc]

/-- The indicator of a proposition as an extended real. -/
noncomputable def ind (p : Prop) [Decidable p] : EReal := if p then 1 else 0

theorem ind_pos {p : Prop} [Decidable p] (h : p) : ind p = 1 := if_pos h
theorem ind_neg {p : Prop} [Decidable p] (h : ¬p) : ind p = 0 := if_neg h

/-- A running maximum of indicators started from 0: after step j it is the indicator that some step i ≤ j had P. -/
theorem max_fold (P : ℕ → Prop) [DecidablePred P] (n : ℕ) (a : ℕ → EReal)
    (h0 : a 0 = max 0 (ind (P 0)))
    (hs : ∀ j, j + 1 < n → a (j + 1) = max (a j) (ind (P (j + 1)))) :
    ∀ j, j < n → a j = ind (∃ i, i ≤ j ∧ P i)
  | 0, _ => by
    rw [h0]
    by_cases hp : P 0
    · rw [ind_pos hp, ind_pos (⟨0, le_rfl, hp⟩ : ∃ i, i ≤ 0 ∧ P i)]; exact max_eq_right zero_le_one
    · have hn : ¬∃ i, i ≤ 0 ∧ P i := by
        rintro ⟨i, hi, hpi⟩
        obtain rfl : i = 0 := by omega
        exact hp hpi
      rw [ind_neg hp, ind_neg hn]; exact max_self _
  | j + 1, h => by
    rw [hs j h, max_fold P n a h0 hs j (Nat.lt_of_succ_lt h)]
    by_cases hq : ∃ i, i ≤ j ∧ P i
    · obtain ⟨i, hi, hpi⟩ := hq
      rw [ind_pos (⟨i, hi, hpi⟩ : ∃ i, i ≤ j ∧ P i), ind_pos (⟨i, Nat.le_succ_of_le hi, hpi⟩ : ∃ i, i ≤ j + 1 ∧ P i)]
      by_cases hp : P (j + 1)
      · rw [ind_pos hp]; exact max_self _
      · rw [ind_neg hp]; exact max_eq_left zero_le_one
    · rw [ind_neg hq]
      by_cases hp : P (j + 1)
      · rw [ind_pos hp, ind_pos (⟨j + 1, le_rfl, hp⟩ : ∃ i, i ≤ j + 1 ∧ P i)]; exact max_eq_right zero_le_one
      · have hn : ¬∃ i, i ≤ j + 1 ∧ P i := by
          rintro ⟨i, hi, hpi⟩
          rcases Nat.lt_or_ge i (j + 1) with hlt | hge
          · exact hq ⟨i, Nat.lt_succ_iff.mp hlt, hpi⟩
          · obtain rfl : i = j + 1 := by omega
            exact hp hpi
        rw [ind_neg hp, ind_neg hn]; exact max_self _

end Cert.Lib.AccFold
-- ==== Proof.Spec.lean ====
/-
  The specification: the result as one function of the seven argument arrays, entry by entry, over the extended reals.

    h   = x · W + b                                  (8192 × 128; the bias added to every row)
    Y1  = (½ h  + ½ (A · h))  + ½ (D · h)
    Y2  = (½ Y1 + ½ (A · Y1)) + ½ (D · h)
    Out = max(Y2, 0) · Waft + baft                   (8192 × 64)

  The one half is kept as the single-precision word 0x3F000000 and the zero of the maximum as the word 0x00000000:
  the same words stand on both sides of the comparison and are never evaluated (only the zero word is, where a sum
  starts from it). Sums are written over the textbook index (k : Fin 256, j : Fin 8192, k : Fin 128), and every
  addition is associated as written above.

  Last, the one law that a product computed tile by tile needs: a sum over 8192 positions is the running total over
  16 tiles of 512 consecutive positions, started from zero. Only associativity and commutativity of + are used, so
  it holds in any additive commutative monoid, the extended reals included, with no finiteness assumption.
-/
import Idealize.ShloMosaic.PureOps.Ideal
import Idealize.ShloMosaic.PureOps.Ideal.Laws
import Idealize.ShloMosaic.Lib.ValueIdx
import proofs.«171258_g71622874628668_fold_wed_m_490_3_alg».proof.Proof.LibTileSum
import proofs.«171258_g71622874628668_fold_wed_m_490_3_alg».proof.Proof.LibAccFold

noncomputable section

open scoped BigOperators

namespace Cert.Spec

open Idealize.ShloMosaic Idealize.ShloMosaic.ValueIdx

/-- A matrix of extended reals with n0 rows and n1 columns, as a function of its rank-2 index. -/
abbrev Mat (n0 n1 : Nat) : Type := (⟨2, ![n0, n1]⟩ : Shape).Idx → EReal
/-- A vector of n extended reals, as a function of its rank-1 index. -/
abbrev Row (n : Nat) : Type := (⟨1, ![n]⟩ : Shape).Idx → EReal

/-- One half, as the single-precision word both programs print. -/
abbrev HALF : EReal := Ideal.ofBits .f32 0x3F000000#32
/-- Zero, as the single-precision word. -/
abbrev ZERO : EReal := Ideal.ofBits .f32 0x00000000#32
theorem ZERO_eq : ZERO = 0 := Ideal.ofBits_zero_f32

/-- The matrix whose entry (p, q) is f p q. -/
def mat {n0 n1 : Nat} (f : Fin n0 → Fin n1 → EReal) : Mat n0 n1 := fun i => f (i 0) (i 1)
theorem mat_ix2 {n0 n1 : Nat} (f : Fin n0 → Fin n1 → EReal) (p : Fin n0) (q : Fin n1) : mat f (ix2 p q) = f p q := rfl
theorem mat_apply {n0 n1 : Nat} (f : Fin n0 → Fin n1 → EReal) (i : (⟨2, ![n0, n1]⟩ : Shape).Idx) : mat f i = f (i 0) (i 1) := rfl

/-- h = x · W + b at (p, q). -/
def Hm (x : Mat 8192 256) (W : Mat 256 128) (b : Row 128) (p : Fin 8192) (q : Fin 128) : EReal :=
  (∑ k : Fin 256, x (ix2 p k) * W (ix2 k q)) + b (ix1 q)

/-- (A · Y) at (p, q), for an 8192 × 8192 matrix A and an 8192 × 128 matrix Y. -/
def MM (A : Mat 8192 8192) (Y : Mat 8192 128) (p : Fin 8192) (q : Fin 128) : EReal :=
  ∑ j : Fin 8192, A (ix2 p j) * Y (ix2 j q)

theorem MM_mat (A : Mat 8192 8192) (f : Fin 8192 → Fin 128 → EReal) (p : Fin 8192) (q : Fin 128) :
    MM A (mat f) p q = ∑ j : Fin 8192, A (ix2 p j) * f j q := rfl

/-- The product's column q depends on column q of the right factor only. -/
theorem MM_congr (A : Mat 8192 8192) {Y Y' : Mat 8192 128} (p : Fin 8192) (q : Fin 128)
    (h : ∀ j : Fin 8192, Y (ix2 j q) = Y' (ix2 j q)) : MM A Y p q = MM A Y' p q :=
  Finset.sum_congr rfl fun j _ => by rw [h j]

/-- The first propagation step: Y1 = (½ h + ½ (A · h)) + ½ (D · h). -/
def Y1 (x : Mat 8192 256) (W : Mat 256 128) (b : Row 128) (A D : Mat 8192 8192) (p : Fin 8192) (q : Fin 128) : EReal :=
  (HALF * Hm x W b p q + HALF * MM A (mat (Hm x W b)) p q) + HALF * MM D (mat (Hm x W b)) p q

/-- The second propagation step: Y2 = (½ Y1 + ½ (A · Y1)) + ½ (D · h). -/
def Y2 (x : Mat 8192 256) (W : Mat 256 128) (b : Row 128) (A D : Mat 8192 8192) (p : Fin 8192) (q : Fin 128) : EReal :=
  (HALF * Y1 x W b A D p q + HALF * MM A (mat (Y1 x W b A D)) p q) + HALF * MM D (mat (Hm x W b)) p q

/-- The result: max(Y2, 0) · Waft + baft at (p, q). -/
def Out (x : Mat 8192 256) (W : Mat 256 128) (b : Row 128) (A D : Mat 8192 8192) (Waft : Mat 128 64) (baft : Row 64)
    (p : Fin 8192) (q : Fin 64) : EReal :=
  (∑ k : Fin 128, max (Y2 x W b A D p k) ZERO * Waft (ix2 k q)) + baft (ix1 q)

/-- The same with the zero word read as the number 0. -/
theorem Out_eq (x : Mat 8192 256) (W : Mat 256 128) (b : Row 128) (A D : Mat 8192 8192) (Waft : Mat 128 64) (baft : Row 64)
    (p : Fin 8192) (q : Fin 64) :
    Out x W b A D Waft baft p q = (∑ k : Fin 128, max (Y2 x W b A D p k) 0 * Waft (ix2 k q)) + baft (ix1 q) := by
  unfold Out; rw [ZERO_eq]

/-! ## A sum over 8192 positions as the running total over 16 tiles of 512 -/

section TileLaw

variable {M : Type} [AddCommMonoid M]

/-- Position r of tile k: the 8192 positions are 16 tiles of 512 consecutive ones. -/
def tile (k : Fin 16) (r : Fin 512) : Fin 8192 := ⟨k.val * 512 + r.val, by have := k.isLt; have := r.isLt; omega⟩

theorem tile_val (k : Fin 16) (r : Fin 512) : (tile k r).val = k.val * 512 + r.val := rfl

/-- The sum over all positions, tile by tile. -/
theorem sum_tiles16 (f : Fin 8192 → M) : ∑ j : Fin 8192, f j = ∑ k : Fin 16, ∑ r : Fin 512, f (tile k r) :=
  Cert.Lib.TileSum.sum_tiles_fin 8192 16 512 (by norm_num) f

/-- A running total that starts at z + (tile 0's sum), with z the zero, and takes tile k + 1's sum at step k + 1,
    is after the last step the sum over all 8192 positions. -/
theorem acc_eq_sum (f : Fin 8192 → M) (z : M) (hz : z = 0) (acc : ℕ → M)
    (h0 : acc 0 = z + ∑ r : Fin 512, f (tile 0 r))
    (hs : ∀ k (hk : k + 1 < 16), acc (k + 1) = acc k + ∑ r : Fin 512, f (tile ⟨k + 1, hk⟩ r)) :
    acc 15 = ∑ j : Fin 8192, f j := by
  let T : ℕ → M := fun k => if hk : k < 16 then ∑ r : Fin 512, f (tile ⟨k, hk⟩ r) else 0
  have hT : ∀ k (hk : k < 16), T k = ∑ r : Fin 512, f (tile ⟨k, hk⟩ r) := fun k hk => dif_pos hk
  have h0' : acc 0 = z + T 0 := by rw [hT 0 (by norm_num)]; exact h0
  have hs' : ∀ j, j + 1 < 16 → acc (j + 1) = acc j + T (j + 1) := fun j hj => by rw [hT (j + 1) hj]; exact hs j hj
  have key : acc 15 = z + ∑ i ∈ Finset.range 16, T i := Cert.Lib.AccFold.add_fold z 16 acc T h0' hs' 15 (by norm_num)
  rw [key, hz, zero_add, sum_tiles16 f, ← Fin.sum_univ_eq_sum_range T 16]
  exact Finset.sum_congr rfl fun k _ => hT k.val k.isLt

/-- The same for the extended reals' zero word: a total started from the zero word. -/
theorem acc_eq_sum_ZERO (f : Fin 8192 → EReal) (acc : ℕ → EReal)
    (h0 : acc 0 = ZERO + ∑ r : Fin 512, f (tile 0 r))
    (hs : ∀ k (hk : k + 1 < 16), acc (k + 1) = acc k + ∑ r : Fin 512, f (tile ⟨k + 1, hk⟩ r)) :
    acc 15 = ∑ j : Fin 8192, f j :=
  acc_eq_sum f ZERO ZERO_eq acc h0 hs

end TileLaw

end Cert.Spec

end
-- ==== Proof.KI.ValAcc1.lean ====
/-
  The first accumulation pass's two running totals over a row of sixteen grid points. At point 16·i + k each total
  takes the product of the (i, k) block of its 8192×8192 array with block k of the 8192×128 array; reset to the zero
  word at k = 0, after k = 15 they hold rows i·512 … i·512 + 511 of the two full products. Stated for any family of
  pairs that satisfies the two equations of the totals (the reset at the points ≡ 0 mod 16, the advance elsewhere).
-/
import proofs.«171258_g71622874628668_fold_wed_m_490_3_alg».proof.Proof.KI.ValBlk1
import proofs.«171258_g71622874628668_fold_wed_m_490_3_alg».proof.Proof.KI.ValPay1
import proofs.«171258_g71622874628668_fold_wed_m_490_3_alg».proof.Proof.Spec

noncomputable section

open scoped BigOperators

namespace Cert.KernelIdeal.HandVal

open Idealize.ShloMosaic Idealize.ShloMosaic.TcCoe Idealize.ShloMosaic.ValueIdx
open Idealize.SL.Sem
open Cert.KernelIdeal Cert.KernelIdeal.Gen Cert.KernelIdeal.Hand Cert.Spec

variable (V : (c : Dev nD) → (b : Ref sig .tc) → Buf (Elt Ideal) ((c : Thread nD τ).loc b))

/-- The three arrays the pass reads, as it finds them, as matrices of extended reals. -/
abbrev A1 (c : Dev nD) : Mat 8192 8192 := V c main_arg1
abbrev D1 (c : Dev nD) : Mat 8192 8192 := V c main_arg2
abbrev H1 (c : Dev nD) : Mat 8192 128 := V c main_v1

/-- Point 16·i + k is one of the 256 grid points. -/
theorem pt1_lt (i k : ℕ) (hi : i < 16) (hk : k < 16) : 16 * i + k < cfg1.N := by
  rw [show cfg1.N = 256 from N_1]; omega

/-- One point's advance of the first total, at (p, q): block (i, k) of the first array against block k. -/
theorem step1_a (c : Dev nD) (t : Fin cfg1.N) (i k : Fin 16) (ht : t.val = 16 * i.val + k.val)
    (z : Vec Ideal S512x128 .f32) (p : Fin 512) (q : Fin 128) :
    k1_pay4 (F := Ideal) (iblk1 V c 2 t) (iblk1 V c 0 t) z (ix2 p q)
      = z (ix2 p q) + ∑ j : Fin 512, A1 V c (ix2 (tile i p) (tile k j)) * H1 V c (ix2 (tile k j) q) := by
  refine (k1_pay4_apply (iblk1 V c 2 t) z (iblk1 V c 0 t) p q).trans ?_
  refine congrArg (fun x : EReal => z (ix2 p q) + x) (Finset.sum_congr rfl fun j _ => ?_)
  have hi := i.isLt
  have hk := k.isLt
  refine congrArg₂ (fun x y : EReal => x * y)
    (iblk1_0_apply V c t p j (tile i p) (tile k j) ?_ ?_) (iblk1_2_apply V c t j q (tile k j) ?_)
  · show i.val * 512 + p.val = t.val / 16 * 512 + p.val; omega
  · show k.val * 512 + j.val = t.val % 16 * 512 + j.val; omega
  · show k.val * 512 + j.val = t.val % 16 * 512 + j.val; omega

/-- One point's advance of the second total, at (p, q): block (i, k) of the second array against block k. -/
theorem step1_d (c : Dev nD) (t : Fin cfg1.N) (i k : Fin 16) (ht : t.val = 16 * i.val + k.val)
    (z : Vec Ideal S512x128 .f32) (p : Fin 512) (q : Fin 128) :
    k1_pay5 (F := Ideal) (iblk1 V c 2 t) (iblk1 V c 1 t) z (ix2 p q)
      = z (ix2 p q) + ∑ j : Fin 512, D1 V c (ix2 (tile i p) (tile k j)) * H1 V c (ix2 (tile k j) q) := by
  refine (k1_pay5_apply (iblk1 V c 2 t) z (iblk1 V c 1 t) p q).trans ?_
  refine congrArg (fun x : EReal => z (ix2 p q) + x) (Finset.sum_congr rfl fun j _ => ?_)
  have hi := i.isLt
  have hk := k.isLt
  refine congrArg₂ (fun x y : EReal => x * y)
    (iblk1_1_apply V c t p j (tile i p) (tile k j) ?_ ?_) (iblk1_2_apply V c t j q (tile k j) ?_)
  · show i.val * 512 + p.val = t.val / 16 * 512 + p.val; omega
  · show k.val * 512 + j.val = t.val % 16 * 512 + j.val; omega
  · show k.val * 512 + j.val = t.val % 16 * 512 + j.val; omega

/-- The family depends on the point number only. -/
theorem acc_congr (acc : (n : ℕ) → n < cfg1.N → Vec Ideal S512x128 .f32 × Vec Ideal S512x128 .f32)
    {n m : ℕ} (h : n = m) (hn : n < cfg1.N) (hm : m < cfg1.N) : acc n hn = acc m hm := by
  subst h; rfl

section Totals

variable (c : Dev nD)
  (acc : (n : ℕ) → n < cfg1.N → Vec Ideal S512x128 .f32 × Vec Ideal S512x128 .f32)
  (hzero : ∀ t : Fin cfg1.N, t.val % 16 = 0 → acc t.val t.isLt
      = (k1_pay4 (iblk1 V c 2 t) (iblk1 V c 0 t) (k1_pay1 (F := Ideal)), k1_pay5 (iblk1 V c 2 t) (iblk1 V c 1 t) (k1_pay2 (F := Ideal))))
  (hsucc : ∀ t : Fin cfg1.N, ¬t.val % 16 = 0 → acc t.val t.isLt
      = (k1_pay4 (iblk1 V c 2 t) (iblk1 V c 0 t) (acc (t.val - 1) (Nat.lt_of_le_of_lt (Nat.sub_le _ _) t.isLt)).1,
         k1_pay5 (iblk1 V c 2 t) (iblk1 V c 1 t) (acc (t.val - 1) (Nat.lt_of_le_of_lt (Nat.sub_le _ _) t.isLt)).2))

include hzero hsucc

/-- After the sixteenth point of row block i the first total holds the rows of the first full product. -/
theorem total1_a (i : Fin 16) (p : Fin 512) (q : Fin 128) :
    (acc (16 * i.val + 15) (pt1_lt i.val 15 i.isLt (by norm_num))).1 (ix2 p q)
      = MM (A1 V c) (H1 V c) (tile i p) q := by
  have hi := i.isLt
  let a : ℕ → EReal := fun k => if hk : k < 16 then (acc (16 * i.val + k) (pt1_lt i.val k hi hk)).1 (ix2 p q) else 0
  have ha : ∀ k (hk : k < 16), a k = (acc (16 * i.val + k) (pt1_lt i.val k hi hk)).1 (ix2 p q) := fun k hk => dif_pos hk
  have key : a 15 = ∑ j : Fin 8192, A1 V c (ix2 (tile i p) j) * H1 V c (ix2 j q) := by
    refine acc_eq_sum_ZERO (fun j : Fin 8192 => A1 V c (ix2 (tile i p) j) * H1 V c (ix2 j q)) a ?_ ?_
    · rw [ha 0 (by norm_num)]
      have e := hzero ⟨16 * i.val + 0, pt1_lt i.val 0 hi (by norm_num)⟩ (by show (16 * i.val + 0) % 16 = 0; omega)
      have e1 := congrArg (fun z => z.1 (ix2 p q)) e
      refine e1.trans ?_
      refine (step1_a V c ⟨16 * i.val + 0, pt1_lt i.val 0 hi (by norm_num)⟩ i 0 rfl (k1_pay1 (F := Ideal)) p q).trans ?_
      rw [k1_pay1_apply]
    · intro k hk
      rw [ha (k + 1) hk, ha k (by omega)]
      have e := hsucc ⟨16 * i.val + (k + 1), pt1_lt i.val (k + 1) hi hk⟩ (by show ¬(16 * i.val + (k + 1)) % 16 = 0; omega)
      have e1 := congrArg (fun z => z.1 (ix2 p q)) e
      refine e1.trans ?_
      refine (step1_a V c ⟨16 * i.val + (k + 1), pt1_lt i.val (k + 1) hi hk⟩ i ⟨k + 1, hk⟩ rfl _ p q).trans ?_
      refine congrArg (fun x : EReal => x + _) ?_
      exact congrArg (fun z => z.1 (ix2 p q)) (acc_congr acc (by show 16 * i.val + (k + 1) - 1 = 16 * i.val + k; omega) _ _)
  rw [← ha 15 (by norm_num), key]
  rfl

/-- After the sixteenth point of row block i the second total holds the rows of the second full product. -/
theorem total1_d (i : Fin 16) (p : Fin 512) (q : Fin 128) :
    (acc (16 * i.val + 15) (pt1_lt i.val 15 i.isLt (by norm_num))).2 (ix2 p q)
      = MM (D1 V c) (H1 V c) (tile i p) q := by
  have hi := i.isLt
  let a : ℕ → EReal := fun k => if hk : k < 16 then (acc (16 * i.val + k) (pt1_lt i.val k hi hk)).2 (ix2 p q) else 0
  have ha : ∀ k (hk : k < 16), a k = (acc (16 * i.val + k) (pt1_lt i.val k hi hk)).2 (ix2 p q) := fun k hk => dif_pos hk
  have key : a 15 = ∑ j : Fin 8192, D1 V c (ix2 (tile i p) j) * H1 V c (ix2 j q) := by
    refine acc_eq_sum_ZERO (fun j : Fin 8192 => D1 V c (ix2 (tile i p) j) * H1 V c (ix2 j q)) a ?_ ?_
    · rw [ha 0 (by norm_num)]
      have e := hzero ⟨16 * i.val + 0, pt1_lt i.val 0 hi (by norm_num)⟩ (by show (16 * i.val + 0) % 16 = 0; omega)
      have e1 := congrArg (fun z => z.2 (ix2 p q)) e
      refine e1.trans ?_
      refine (step1_d V c ⟨16 * i.val + 0, pt1_lt i.val 0 hi (by norm_num)⟩ i 0 rfl (k1_pay2 (F := Ideal)) p q).trans ?_
      rw [k1_pay2_apply]
    · intro k hk
      rw [ha (k + 1) hk, ha k (by omega)]
      have e := hsucc ⟨16 * i.val + (k + 1), pt1_lt i.val (k + 1) hi hk⟩ (by show ¬(16 * i.val + (k + 1)) % 16 = 0; omega)
      have e1 := congrArg (fun z => z.2 (ix2 p q)) e
      refine e1.trans ?_
      refine (step1_d V c ⟨16 * i.val + (k + 1), pt1_lt i.val (k + 1) hi hk⟩ i ⟨k + 1, hk⟩ rfl _ p q).trans ?_
      refine congrArg (fun x : EReal => x + _) ?_
      exact congrArg (fun z => z.2 (ix2 p q)) (acc_congr acc (by show 16 * i.val + (k + 1) - 1 = 16 * i.val + k; omega) _ _)
  rw [← ha 15 (by norm_num), key]
  rfl

end Totals

end Cert.KernelIdeal.HandVal

end
-- ==== Proof.KI.ValArr1.lean ====
/-
  The two arrays the first accumulation pass leaves, entry by entry, as functions of the arrays it finds: the second
  output is the full product of the second 8192×8192 array with the 8192×128 array, the first is half that array plus
  half of each of the two full products. Row r is written back by the last point of its row block, 16·(r/512) + 15.
-/
import proofs.«171258_g71622874628668_fold_wed_m_490_3_alg».proof.Proof.KI.Reg1
import proofs.«171258_g71622874628668_fold_wed_m_490_3_alg».proof.Proof.KI.ValAcc1

noncomputable section

open scoped BigOperators

namespace Cert.KernelIdeal.HandVal

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.Spec

variable (V : (c : Dev nD) → (b : Ref sig .tc) → Buf (Elt Ideal) ((c : Thread nD τ).loc b))

/-- The second output array: the full product D · h. -/
abbrev G1_5 (c : Dev nD) : Mat 8192 128 := mat (fun p q => MM (D1 V c) (H1 V c) p q)

/-- The first output array: (½ h + ½ (A · h)) + ½ (D · h). -/
abbrev G1_4 (c : Dev nD) : Mat 8192 128 :=
  mat (fun p q => (HALF * H1 V c (ix2 p q) + HALF * MM (A1 V c) (H1 V c) p q)
    + HALF * MM (D1 V c) (H1 V c) p q)

/-- A point ≡ 15 (mod 16) is the sixteenth point of its row block. -/
theorem pt15 (t : Fin cfg1.N) (h : t.val % 16 = 15) : t.val / 16 < 16 ∧ t.val = 16 * (t.val / 16) + 15 := by
  have hN : t.val < 256 := lt_of_lt_of_eq t.isLt (show cfg1.N = 256 from N_1)
  omega

/-- Where entry (p, q) of output window 5's block at point t sits in its array. -/
theorem emb1_5 (t : Fin cfg1.N) (i : Fin 16) (hi : i.val = t.val / 16) (p : Fin 512) (q : Fin 128) :
    (((cfg1.win 5).blk t).view.emb (ix2 p q) : S8192x128.Idx) = ix2 (tile i p) q := by
  obtain ⟨-, -, -, -, -, -, -, -, -, -, e0, e1⟩ := idx_facts1 t
  funext a; apply Fin.ext
  match a with
  | ⟨0, _⟩ => show win1_5.index t (0 : Fin 2) * 512 + 1 * p.val = i.val * 512 + p.val; omega
  | ⟨1, _⟩ => show win1_5.index t (1 : Fin 2) * 128 + 1 * q.val = q.val; omega

/-- Where entry (p, q) of output window 4's block at point t sits in its array. -/
theorem emb1_4 (t : Fin cfg1.N) (i : Fin 16) (hi : i.val = t.val / 16) (p : Fin 512) (q : Fin 128) :
    (((cfg1.win 4).blk t).view.emb (ix2 p q) : S8192x128.Idx) = ix2 (tile i p) q := by
  obtain ⟨-, -, -, -, -, -, -, -, e0, e1, -⟩ := idx_facts1 t
  funext a; apply Fin.ext
  match a with
  | ⟨0, _⟩ => show win1_4.index t (0 : Fin 2) * 512 + 1 * p.val = i.val * 512 + p.val; omega
  | ⟨1, _⟩ => show win1_4.index t (1 : Fin 2) * 128 + 1 * q.val = q.val; omega

/-- The two totals at a point ≡ 15 (mod 16), at (p, q): the rows of the two full products. -/
theorem acc1_at15 (c : Dev nD) (t : Fin cfg1.N) (h : t.val % 16 = 15) (i : Fin 16) (hi : i.val = t.val / 16)
    (p : Fin 512) (q : Fin 128) :
    (acc1 V c t.val t.isLt).1 (ix2 p q) = MM (A1 V c) (H1 V c) (tile i p) q
    ∧ (acc1 V c t.val t.isLt).2 (ix2 p q) = MM (D1 V c) (H1 V c) (tile i p) q := by
  have ht : t.val = 16 * i.val + 15 := by rw [hi]; exact (pt15 t h).2
  have e : acc1 V c t.val t.isLt = acc1 V c (16 * i.val + 15) (pt1_lt i.val 15 i.isLt (by norm_num)) :=
    acc_congr (acc1 V c) ht _ _
  rw [e]
  exact ⟨total1_a V c (acc1 V c) (acc1_zero V c) (acc1_succ V c) i p q,
    total1_d V c (acc1 V c) (acc1_zero V c) (acc1_succ V c) i p q⟩

/-- What a point ≡ 15 (mod 16) leaves in output window 5's buffer, entry by entry, is the array's block. -/
theorem after1_5_val (c : Dev nD) (t : Fin cfg1.N) (h : t.val % 16 = 15) (j : S512x128.Idx) :
    (acc1 V c t.val t.isLt).2 j = G1_5 V c (((cfg1.win 5).blk t).view.emb j) := by
  obtain ⟨p, q, rfl⟩ : ∃ (p : Fin 512) (q : Fin 128), j = ix2 p q := ⟨j 0, j 1, eq_ix2 j⟩
  have hi := (pt15 t h).1
  rw [emb1_5 t ⟨t.val / 16, hi⟩ rfl p q]
  show _ = MM (D1 V c) (H1 V c) (tile ⟨t.val / 16, hi⟩ p) q
  exact (acc1_at15 V c t h ⟨t.val / 16, hi⟩ rfl p q).2

/-- What a point ≡ 15 (mod 16) leaves in output window 4's buffer, entry by entry, is the array's block. -/
theorem after1_4_val (c : Dev nD) (t : Fin cfg1.N) (h : t.val % 16 = 15) (j : S512x128.Idx) :
    k1_pay6 (F := Ideal) (acc1 V c t.val t.isLt).2 (iblk1 V c 3 t) (acc1 V c t.val t.isLt).1 j
      = G1_4 V c (((cfg1.win 4).blk t).view.emb j) := by
  obtain ⟨p, q, rfl⟩ : ∃ (p : Fin 512) (q : Fin 128), j = ix2 p q := ⟨j 0, j 1, eq_ix2 j⟩
  have hi := (pt15 t h).1
  rw [emb1_4 t ⟨t.val / 16, hi⟩ rfl p q]
  show _ = (HALF * H1 V c (ix2 (tile ⟨t.val / 16, hi⟩ p) q) + HALF * MM (A1 V c) (H1 V c) (tile ⟨t.val / 16, hi⟩ p) q)
    + HALF * MM (D1 V c) (H1 V c) (tile ⟨t.val / 16, hi⟩ p) q
  refine (k1_pay6_apply (acc1 V c t.val t.isLt).2 (iblk1 V c 3 t) (acc1 V c t.val t.isLt).1 p q).trans ?_
  obtain ⟨ea, ed⟩ := acc1_at15 V c t h ⟨t.val / 16, hi⟩ rfl p q
  rw [ea, ed, iblk1_3_apply V c t p q (tile ⟨t.val / 16, hi⟩ p) rfl]

/-- WHAT A FLUSHING POINT WRITES BACK to output window 5's array is its block of the full product. -/
theorem flushed1_5_eq (c : Dev nD) (t : Fin cfg1.N) (h : t.val % 16 = 15) :
    (dat1 V c).flushed 5 t = ((cfg1.win 5).blk t).view.read (Elt Ideal) (G1_5 V c) := by
  show (cfg1.win 5).cut (grid1.coords t) ((dat1 V c).after 5 t) = _
  rw [after1_5 V c t h]
  funext j
  exact after1_5_val V c t h j

/-- WHAT A FLUSHING POINT WRITES BACK to output window 4's array is its block of the half-sum. -/
theorem flushed1_4_eq (c : Dev nD) (t : Fin cfg1.N) (h : t.val % 16 = 15) :
    (dat1 V c).flushed 4 t = ((cfg1.win 4).blk t).view.read (Elt Ideal) (G1_4 V c) := by
  show (cfg1.win 4).cut (grid1.coords t) ((dat1 V c).after 4 t) = _
  rw [after1_4 V c t h]
  funext j
  exact after1_4_val V c t h j

theorem mem_blk1_5 (t : Fin cfg1.N) (i : S8192x128.Idx) :
    i ∈ ((cfg1.win 5).blk t).view.set ↔ ∀ a : Fin 2, win1_5.index t a * S512x128.size a ≤ (i a).val ∧ (i a).val < win1_5.index t a * S512x128.size a + S512x128.size a := by
  show i ∈ ((View.whole main_v2_1).slice (win1_5.rect t)).set ↔ _
  rw [View.set_slice_whole, Rect.mem_set_unit]
  exact Iff.rfl

theorem mem_blk1_4 (t : Fin cfg1.N) (i : S8192x128.Idx) :
    i ∈ ((cfg1.win 4).blk t).view.set ↔ ∀ a : Fin 2, win1_4.index t a * S512x128.size a ≤ (i a).val ∧ (i a).val < win1_4.index t a * S512x128.size a + S512x128.size a := by
  show i ∈ ((View.whole main_v2_0).slice (win1_4.rect t)).set ↔ _
  rw [View.set_slice_whole, Rect.mem_set_unit]
  exact Iff.rfl

/-- The point that writes row r back: the sixteenth of row block r / 512. -/
def lastPt1 (r : Fin 8192) : Fin cfg1.N :=
  ⟨16 * (r.val / 512) + 15, pt1_lt (r.val / 512) 15 (by have := r.isLt; omega) (by norm_num)⟩

theorem lastPt1_mod (r : Fin 8192) : (lastPt1 r).val % 16 = 15 := by
  show (16 * (r.val / 512) + 15) % 16 = 15; omega

/-- Every entry of output window 5's array is in the block of the point that writes its row back. -/
theorem cover1_5 (i : S8192x128.Idx) :
    ∃ t : Fin cfg1.N, (cfg1.win 5).flush t = true ∧ i ∈ ((cfg1.win 5).blk t).view.set := by
  have h0 : (i 0).val < 8192 := idx2_lt0 i
  have h1 : (i 1).val < 128 := idx2_lt1 i
  refine ⟨lastPt1 (i 0), (flush1_5 _).mpr (lastPt1_mod (i 0)), ?_⟩
  rw [mem_blk1_5]
  obtain ⟨-, -, -, -, -, -, -, -, -, -, e0, e1⟩ := idx_facts1 (lastPt1 (i 0))
  have hv : (lastPt1 (i 0)).val = 16 * ((i 0).val / 512) + 15 := rfl
  intro a
  match a with
  | ⟨0, _⟩ => show win1_5.index (lastPt1 (i 0)) (0 : Fin 2) * 512 ≤ (i 0).val ∧ (i 0).val < win1_5.index (lastPt1 (i 0)) (0 : Fin 2) * 512 + 512; omega
  | ⟨1, _⟩ => show win1_5.index (lastPt1 (i 0)) (1 : Fin 2) * 128 ≤ (i 1).val ∧ (i 1).val < win1_5.index (lastPt1 (i 0)) (1 : Fin 2) * 128 + 128; omega

/-- Every entry of output window 4's array is in the block of the point that writes its row back. -/
theorem cover1_4 (i : S8192x128.Idx) :
    ∃ t : Fin cfg1.N, (cfg1.win 4).flush t = true ∧ i ∈ ((cfg1.win 4).blk t).view.set := by
  have h0 : (i 0).val < 8192 := idx2_lt0 i
  have h1 : (i 1).val < 128 := idx2_lt1 i
  refine ⟨lastPt1 (i 0), (flush1_4 _).mpr (lastPt1_mod (i 0)), ?_⟩
  rw [mem_blk1_4]
  obtain ⟨-, -, -, -, -, -, -, -, e0, e1, -⟩ := idx_facts1 (lastPt1 (i 0))
  have hv : (lastPt1 (i 0)).val = 16 * ((i 0).val / 512) + 15 := rfl
  intro a
  match a with
  | ⟨0, _⟩ => show win1_4.index (lastPt1 (i 0)) (0 : Fin 2) * 512 ≤ (i 0).val ∧ (i 0).val < win1_4.index (lastPt1 (i 0)) (0 : Fin 2) * 512 + 512; omega
  | ⟨1, _⟩ => show win1_4.index (lastPt1 (i 0)) (1 : Fin 2) * 128 ≤ (i 1).val ∧ (i 1).val < win1_4.index (lastPt1 (i 0)) (1 : Fin 2) * 128 + 128; omega

/-- THE ARRAY the pass leaves under output window 5: the full product D · h. -/
theorem arr1_5 (c : Dev nD) : (dat1 V c).arrAt 5 cfg1.N = G1_5 V c :=
  (dat1 V c).arrAt_eq_of_cover 5 _ (fun t hf => flushed1_5_eq V c t ((flush1_5 t).mp hf)) (fun i => cover1_5 i)

/-- THE ARRAY the pass leaves under output window 4: (½ h + ½ (A · h)) + ½ (D · h). -/
theorem arr1_4 (c : Dev nD) : (dat1 V c).arrAt 4 cfg1.N = G1_4 V c :=
  (dat1 V c).arrAt_eq_of_cover 4 _ (fun t hf => flushed1_4_eq V c t ((flush1_4 t).mp hf)) (fun i => cover1_4 i)

end Cert.KernelIdeal.HandVal

end
-- ==== Proof.KI.ValPay2.lean ====
/-
  The second accumulation pass's stored values, read index by index on the extended reals: the running total takes one
  more 512-term row-by-column product; the flushed value is the 128-term product of the rectified half-sum of three
  blocks with the 128×64 matrix, plus the bias row.
-/
import proofs.«171258_g71622874628668_fold_wed_m_490_3_alg».proof.Proof.Gen.KernelIdeal.Skeleton
import proofs.«171258_g71622874628668_fold_wed_m_490_3_alg».proof.Proof.LibMatmul
import proofs.«171258_g71622874628668_fold_wed_m_490_3_alg».proof.Proof.KI.ValPay1
import Idealize.ShloMosaic.Lib.ValueIdx
import Idealize.ShloMosaic.Lib.Pipeline.Value

noncomputable section

open scoped BigOperators

namespace Cert.KernelIdeal.HandVal

open Idealize.ShloMosaic Idealize.ShloMosaic.ValueIdx Cert.KernelIdeal Cert.KernelIdeal.Gen

/-- The 512×128 by 128×64 product's dimension numbers are the plain ones. -/
theorem dot128_eq : dot_S512x128_S128x64_S512x64_1_0_0_1_n_n = DotDims.plain 512 128 64 := rfl

/-- The product of a 512×128 block and the 128×64 matrix into the zero accumulator, at (p, q). -/
theorem matmul128_apply {φ₁ φ₂ : FTy} (L : FVec Ideal S512x128 φ₁) (R : FVec Ideal S128x64 φ₂) (p : Fin 512) (q : Fin 64) :
    matmul dot_S512x128_S128x64_S512x64_1_0_0_1_n_n none L R (constant (F := Ideal) S512x64 .f32 0x00000000#32) (ix2 p q)
      = ∑ k : Fin 128, L (ix2 p k) * R (ix2 k q) := by
  rw [dot128_eq]
  exact Cert.Bridge.LibMatmul.matmul_zero_apply none L R p q

/-- A 1×64 row broadcast down 512 rows reads the row's entry of the same column. -/
theorem bcast_row64_apply {α : Type} (x : S1x64.Idx → α) (p : Fin 512) (q : Fin 64) :
    broadcastTo S512x64 x broadcasts_S1x64_S512x64 (ix2 p q) = x (ix2 (0 : Fin 1) q) := by
  refine broadcastTo_apply x broadcasts_S1x64_S512x64 (ix2 p q) (ix2 (0 : Fin 1) q) ?_
  intro a
  match a with
  | ⟨0, _⟩ => rfl
  | ⟨1, _⟩ => rfl

/-- The value the running total is reset to is the zero word's. -/
theorem k2_pay1_apply (p : Fin 512) (q : Fin 128) :
    k2_pay1 (F := Ideal) (ix2 p q) = Ideal.ofBits .f32 0x00000000#32 := by
  unfold k2_pay1
  simp only [shapeCast_self]
  rfl

/-- The running total after a point: what it held plus the row-by-column product. -/
theorem k2_pay2_apply (v3 v6 : Vec Ideal S512x128 .f32) (v4 : Vec Ideal S512x512 .f32) (p : Fin 512) (q : Fin 128) :
    k2_pay2 (F := Ideal) v3 v4 v6 (ix2 p q) = v3 (ix2 p q) + ∑ j : Fin 512, v4 (ix2 p j) * v6 (ix2 j q) := by
  unfold k2_pay2
  simp only [shapeCast_self]
  rw [addf_apply, matmul512_apply]
  rfl

/-- The flushed value: the rectified half-sum of the three blocks times the matrix, plus the bias row. -/
theorem k2_pay3_apply (v17 v21 v25 : Vec Ideal S512x128 .f32) (v32 : Vec Ideal S128x64 .f32) (v34 : Vec Ideal S1x64 .f32)
    (p : Fin 512) (q : Fin 64) :
    k2_pay3 (F := Ideal) v17 v21 v25 v32 v34 (ix2 p q)
      = (∑ k : Fin 128,
            max ((Ideal.ofBits .f32 0x3F000000#32 * v17 (ix2 p k) + Ideal.ofBits .f32 0x3F000000#32 * v21 (ix2 p k))
                  + Ideal.ofBits .f32 0x3F000000#32 * v25 (ix2 p k)) (Ideal.ofBits .f32 0x00000000#32)
              * v32 (ix2 k q))
          + v34 (ix2 (0 : Fin 1) q) := by
  unfold k2_pay3
  simp only [shapeCast_self]
  rw [addf_apply, matmul128_apply, bcast_row64_apply]
  rfl

end Cert.KernelIdeal.HandVal

end
-- ==== Proof.KI.ValArr2.lean ====
/-
  The value of the second accumulation pass's result array, on the extended reals. The 256 grid points are
  16 row blocks × 16 reduction steps, point 16 · i + k working on rows 512 · i … 512 · i + 511 with the k-th tile of
  512 contraction positions. The scratch accumulator, restarted from the zero word at k = 0 and taking one tile's
  row-by-column products at every step, holds after step 15 the full 8192-term product (A · Y) on those rows: the sum
  over 8192 positions is the running total over 16 tiles of 512 (Cert.Spec.acc_eq_sum_ZERO; associativity and
  commutativity of + only). The epilogue at k = 15 then stores max((½ Y + ½ (A · Y)) + ½ Dh, 0) · Waft + baft on those
  rows, and the 16 flushed blocks tile the result array.
-/
import proofs.«171258_g71622874628668_fold_wed_m_490_3_alg».proof.Proof.KI.Reg2Dat
import proofs.«171258_g71622874628668_fold_wed_m_490_3_alg».proof.Proof.KI.ValPay2
import proofs.«171258_g71622874628668_fold_wed_m_490_3_alg».proof.Proof.Spec
import Idealize.ShloMosaic.Lib.Pipeline.Value
import Idealize.ShloMosaic.Lib.ValueIdx

set_option maxRecDepth 16384

noncomputable section

open scoped BigOperators

namespace Cert.KernelIdeal.HandVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand

variable (V : (c : Dev nD) → (b : Ref sig .tc) → Buf (Elt Ideal) ((c : Thread nD τ).loc b))

/-! ## The grid: point t = 16 · i + k is row block i, reduction step k -/

theorem N2 : cfg2.N = 256 := N_2

/-- The block index maps, decided once over the 256 points: the matrix's block is (i, k); the contraction's right
    factor's is (k, 0); the epilogue's three blocks and the output's are (i, 0); the small matrix and the bias row are
    whole. -/
theorem idx2_0 : ∀ t : Fin cfg2.N, win2_0.index t (0 : Fin 2) = t.val / 16 ∧ win2_0.index t (1 : Fin 2) = t.val % 16 :=
  (by decide +kernel : ∀ t : Fin grid2.N, _)
theorem idx2_1 : ∀ t : Fin cfg2.N, win2_1.index t (0 : Fin 2) = t.val % 16 ∧ win2_1.index t (1 : Fin 2) = 0 :=
  (by decide +kernel : ∀ t : Fin grid2.N, _)
theorem idx2_2 : ∀ t : Fin cfg2.N, win2_2.index t (0 : Fin 2) = t.val / 16 ∧ win2_2.index t (1 : Fin 2) = 0 :=
  (by decide +kernel : ∀ t : Fin grid2.N, _)
theorem idx2_3 : ∀ t : Fin cfg2.N, win2_3.index t (0 : Fin 2) = t.val / 16 ∧ win2_3.index t (1 : Fin 2) = 0 :=
  (by decide +kernel : ∀ t : Fin grid2.N, _)
theorem idx2_4 : ∀ t : Fin cfg2.N, win2_4.index t (0 : Fin 2) = 0 ∧ win2_4.index t (1 : Fin 2) = 0 :=
  (by decide +kernel : ∀ t : Fin grid2.N, _)
theorem idx2_5 : ∀ t : Fin cfg2.N, win2_5.index t (0 : Fin 2) = 0 ∧ win2_5.index t (1 : Fin 2) = 0 :=
  (by decide +kernel : ∀ t : Fin grid2.N, _)
theorem idx2_6 : ∀ t : Fin cfg2.N, win2_6.index t (0 : Fin 2) = t.val / 16 ∧ win2_6.index t (1 : Fin 2) = 0 :=
  (by decide +kernel : ∀ t : Fin grid2.N, _)

/-! ## The arrays the region finds and the points' blocks, as matrices of extended reals -/

/-- The 8192 × 8192 matrix. -/
abbrev arrA (c : Dev nD) : Cert.Spec.Mat 8192 8192 := V c main_arg1
/-- The first step's result. -/
abbrev arrY (c : Dev nD) : Cert.Spec.Mat 8192 128 := V c main_v2_0
/-- The second product, computed by the first pass. -/
abbrev arrDh (c : Dev nD) : Cert.Spec.Mat 8192 128 := V c main_v2_1
/-- The 128 × 64 matrix. -/
abbrev arrW (c : Dev nD) : Cert.Spec.Mat 128 64 := V c main_arg5
/-- The bias, as a 1 × 64 row. -/
abbrev arrB (c : Dev nD) : Cert.Spec.Mat 1 64 := V c main_v3

abbrev blkA (c : Dev nD) (t : Fin cfg2.N) : Vec Ideal S512x512 .f32 := iblk2 V c 0 t
abbrev blkYk (c : Dev nD) (t : Fin cfg2.N) : Vec Ideal S512x128 .f32 := iblk2 V c 1 t
abbrev blkYi (c : Dev nD) (t : Fin cfg2.N) : Vec Ideal S512x128 .f32 := iblk2 V c 2 t
abbrev blkDh (c : Dev nD) (t : Fin cfg2.N) : Vec Ideal S512x128 .f32 := iblk2 V c 3 t
abbrev blkW (c : Dev nD) (t : Fin cfg2.N) : Vec Ideal S128x64 .f32 := iblk2 V c 4 t
abbrev blkB (c : Dev nD) (t : Fin cfg2.N) : Vec Ideal S1x64 .f32 := iblk2 V c 5 t

/-! ## The blocks, entry by entry: row r of row block i is row 512 · i + r of the array (Cert.Spec.tile i r) -/

/-- The matrix's block at point 16 · i + k is its rows of row block i and columns of column block k. -/
theorem iblk2_0_apply (c : Dev nD) (t : Fin cfg2.N) (i k : Fin 16) (ht : t.val = 16 * i.val + k.val) (p j : Fin 512) :
    blkA V c t (ix2 p j) = arrA V c (ix2 (Cert.Spec.tile i p) (Cert.Spec.tile k j)) := by
  obtain ⟨e0, e1⟩ := idx2_0 t
  show V c main_arg1 (((cfg2.win 0).blk t).view.emb (ix2 p j)) = _
  refine congrArg _ ?_
  funext a; apply Fin.ext
  match a with
  | ⟨0, _⟩ => show win2_0.index t (0 : Fin 2) * 512 + 1 * p.val = i.val * 512 + p.val; have := k.isLt; omega
  | ⟨1, _⟩ => show win2_0.index t (1 : Fin 2) * 512 + 1 * j.val = k.val * 512 + j.val; have := k.isLt; omega

/-- The contraction's right factor at point 16 · i + k is rows of row block k of the first step's result. -/
theorem iblk2_1_apply (c : Dev nD) (t : Fin cfg2.N) (i k : Fin 16) (ht : t.val = 16 * i.val + k.val) (j : Fin 512) (q : Fin 128) :
    blkYk V c t (ix2 j q) = arrY V c (ix2 (Cert.Spec.tile k j) q) := by
  obtain ⟨e0, e1⟩ := idx2_1 t
  show V c main_v2_0 (((cfg2.win 1).blk t).view.emb (ix2 j q)) = _
  refine congrArg _ ?_
  funext a; apply Fin.ext
  match a with
  | ⟨0, _⟩ => show win2_1.index t (0 : Fin 2) * 512 + 1 * j.val = k.val * 512 + j.val; have := k.isLt; omega
  | ⟨1, _⟩ => show win2_1.index t (1 : Fin 2) * 128 + 1 * q.val = q.val; omega

/-- The epilogue's block of the first step's result is rows of row block i. -/
theorem iblk2_2_apply (c : Dev nD) (t : Fin cfg2.N) (i k : Fin 16) (ht : t.val = 16 * i.val + k.val) (p : Fin 512) (q : Fin 128) :
    blkYi V c t (ix2 p q) = arrY V c (ix2 (Cert.Spec.tile i p) q) := by
  obtain ⟨e0, e1⟩ := idx2_2 t
  show V c main_v2_0 (((cfg2.win 2).blk t).view.emb (ix2 p q)) = _
  refine congrArg _ ?_
  funext a; apply Fin.ext
  match a with
  | ⟨0, _⟩ => show win2_2.index t (0 : Fin 2) * 512 + 1 * p.val = i.val * 512 + p.val; have := k.isLt; omega
  | ⟨1, _⟩ => show win2_2.index t (1 : Fin 2) * 128 + 1 * q.val = q.val; omega

/-- The epilogue's block of the second product is rows of row block i. -/
theorem iblk2_3_apply (c : Dev nD) (t : Fin cfg2.N) (i k : Fin 16) (ht : t.val = 16 * i.val + k.val) (p : Fin 512) (q : Fin 128) :
    blkDh V c t (ix2 p q) = arrDh V c (ix2 (Cert.Spec.tile i p) q) := by
  obtain ⟨e0, e1⟩ := idx2_3 t
  show V c main_v2_1 (((cfg2.win 3).blk t).view.emb (ix2 p q)) = _
  refine congrArg _ ?_
  funext a; apply Fin.ext
  match a with
  | ⟨0, _⟩ => show win2_3.index t (0 : Fin 2) * 512 + 1 * p.val = i.val * 512 + p.val; have := k.isLt; omega
  | ⟨1, _⟩ => show win2_3.index t (1 : Fin 2) * 128 + 1 * q.val = q.val; omega

/-- The small matrix's block is the whole matrix. -/
theorem iblk2_4_apply (c : Dev nD) (t : Fin cfg2.N) (k : Fin 128) (q : Fin 64) :
    blkW V c t (ix2 k q) = arrW V c (ix2 k q) := by
  obtain ⟨e0, e1⟩ := idx2_4 t
  show V c main_arg5 (((cfg2.win 4).blk t).view.emb (ix2 k q)) = _
  refine congrArg _ ?_
  funext a; apply Fin.ext
  match a with
  | ⟨0, _⟩ => show win2_4.index t (0 : Fin 2) * 128 + 1 * k.val = k.val; omega
  | ⟨1, _⟩ => show win2_4.index t (1 : Fin 2) * 64 + 1 * q.val = q.val; omega

/-- The bias row's block is the whole row. -/
theorem iblk2_5_apply (c : Dev nD) (t : Fin cfg2.N) (q : Fin 64) :
    blkB V c t (ix2 (0 : Fin 1) q) = arrB V c (ix2 (0 : Fin 1) q) := by
  obtain ⟨e0, e1⟩ := idx2_5 t
  show V c main_v3 (((cfg2.win 5).blk t).view.emb (ix2 (0 : Fin 1) q)) = _
  refine congrArg _ ?_
  funext a; apply Fin.ext
  match a with
  | ⟨0, _⟩ => show win2_5.index t (0 : Fin 2) * 1 + 1 * (0 : Fin 1).val = (0 : Fin 1).val; omega
  | ⟨1, _⟩ => show win2_5.index t (1 : Fin 2) * 64 + 1 * q.val = q.val; omega

/-- An index of the result array is in point t's block iff each coordinate is in the block's range on its axis. -/
theorem mem_blk2_6 (t : Fin cfg2.N) (i : S8192x64.Idx) :
    i ∈ ((cfg2.win 6).blk t).view.set ↔ ∀ a : Fin 2, win2_6.index t a * S512x64.size a ≤ (i a).val ∧ (i a).val < win2_6.index t a * S512x64.size a + S512x64.size a := by
  show i ∈ ((View.whole main_v4).slice (win2_6.rect t)).set ↔ _
  rw [View.set_slice_whole, Rect.mem_set_unit]
  exact Iff.rfl

/-! ## The accumulation: after the 16 steps of row block i the scratch holds rows of (A · Y) -/

/-- The accumulator's entry (p, q) after the body at position n (zero past the grid). -/
def accAt (c : Dev nD) (p : Fin 512) (q : Fin 128) (n : ℕ) : EReal :=
  if h : n < cfg2.N then acc2 V c n h (ix2 p q) else 0

theorem accAt_of_lt (c : Dev nD) (p : Fin 512) (q : Fin 128) (n : ℕ) (h : n < cfg2.N) :
    accAt V c p q n = acc2 V c n h (ix2 p q) := dif_pos h

/-- One term of the product's entry (512 · i + p, q). -/
def term (c : Dev nD) (i : Fin 16) (p : Fin 512) (q : Fin 128) (j : Fin 8192) : EReal :=
  arrA V c (ix2 (Cert.Spec.tile i p) j) * arrY V c (ix2 j q)

/-- A step's tile of terms, from the step's two blocks. -/
theorem tile_terms (c : Dev nD) (t : Fin cfg2.N) (i k : Fin 16) (ht : t.val = 16 * i.val + k.val) (p : Fin 512) (q : Fin 128) :
    ∑ r : Fin 512, blkA V c t (ix2 p r) * blkYk V c t (ix2 r q) = ∑ r : Fin 512, term V c i p q (Cert.Spec.tile k r) :=
  Finset.sum_congr rfl fun r _ => by
    rw [iblk2_0_apply V c t i k ht p r, iblk2_1_apply V c t i k ht r q]
    rfl

/-- At the first step of a row block the accumulator restarts from the zero word and takes tile 0's terms. -/
theorem accAt_first (c : Dev nD) (i : Fin 16) (p : Fin 512) (q : Fin 128) :
    accAt V c p q (16 * i.val) = Cert.Spec.ZERO + ∑ r : Fin 512, term V c i p q (Cert.Spec.tile 0 r) := by
  have hn : 16 * i.val < cfg2.N := by rw [N2]; have := i.isLt; omega
  have h0 : (⟨16 * i.val, hn⟩ : Fin cfg2.N).val % 16 = 0 := by show 16 * i.val % 16 = 0; omega
  refine (accAt_of_lt V c p q (16 * i.val) hn).trans ?_
  refine (congrFun (acc2_zero V c ⟨16 * i.val, hn⟩ h0) (ix2 p q)).trans ?_
  refine (k2_pay2_apply (k2_pay1 (F := Ideal)) (blkYk V c ⟨16 * i.val, hn⟩) (blkA V c ⟨16 * i.val, hn⟩) p q).trans ?_
  rw [k2_pay1_apply, tile_terms V c ⟨16 * i.val, hn⟩ i 0 (by show 16 * i.val = 16 * i.val + 0; rfl) p q]

/-- The accumulator's contents do not depend on how the position is written. -/
theorem acc2_congr (c : Dev nD) {n n' : ℕ} (e : n = n') (h : n < cfg2.N) (h' : n' < cfg2.N) :
    acc2 V c n h = acc2 V c n' h' := by subst e; rfl

/-- At every later step it takes the step's tile of terms. -/
theorem accAt_next (c : Dev nD) (i : Fin 16) (p : Fin 512) (q : Fin 128) (k : ℕ) (hk : k + 1 < 16) :
    accAt V c p q (16 * i.val + (k + 1)) = accAt V c p q (16 * i.val + k) + ∑ r : Fin 512, term V c i p q (Cert.Spec.tile ⟨k + 1, hk⟩ r) := by
  have hn : 16 * i.val + (k + 1) < cfg2.N := by rw [N2]; have := i.isLt; omega
  have hn' : 16 * i.val + k < cfg2.N := by rw [N2]; have := i.isLt; omega
  have h0 : ¬(⟨16 * i.val + (k + 1), hn⟩ : Fin cfg2.N).val % 16 = 0 := by show ¬(16 * i.val + (k + 1)) % 16 = 0; omega
  have hprev : acc2 V c ((16 * i.val + (k + 1)) - 1) (Nat.lt_of_le_of_lt (Nat.sub_le _ _) hn) (ix2 p q) = accAt V c p q (16 * i.val + k) :=
    (congrFun (acc2_congr V c (show (16 * i.val + (k + 1)) - 1 = 16 * i.val + k by omega) _ hn') (ix2 p q)).trans
      (accAt_of_lt V c p q (16 * i.val + k) hn').symm
  refine (accAt_of_lt V c p q (16 * i.val + (k + 1)) hn).trans ?_
  refine (congrFun (acc2_succ V c ⟨16 * i.val + (k + 1), hn⟩ h0) (ix2 p q)).trans ?_
  refine (k2_pay2_apply (acc2 V c ((16 * i.val + (k + 1)) - 1) (Nat.lt_of_le_of_lt (Nat.sub_le _ _) hn))
    (blkYk V c ⟨16 * i.val + (k + 1), hn⟩) (blkA V c ⟨16 * i.val + (k + 1), hn⟩) p q).trans ?_
  rw [hprev, tile_terms V c ⟨16 * i.val + (k + 1), hn⟩ i ⟨k + 1, hk⟩ rfl p q]

/-- After the last step of row block i the accumulator's entry (p, q) is the product's entry (512 · i + p, q):
    the sum over all 8192 terms is the running total over the 16 tiles. -/
theorem acc2_last (c : Dev nD) (t : Fin cfg2.N) (i : Fin 16) (ht : t.val = 16 * i.val + 15) (p : Fin 512) (q : Fin 128) :
    acc2 V c t.val t.isLt (ix2 p q) = Cert.Spec.MM (arrA V c) (arrY V c) (Cert.Spec.tile i p) q := by
  have hn : 16 * i.val + 15 < cfg2.N := by rw [N2]; have := i.isLt; omega
  refine (congrFun (acc2_congr V c ht t.isLt hn) (ix2 p q)).trans ((accAt_of_lt V c p q (16 * i.val + 15) hn).symm.trans ?_)
  exact Cert.Spec.acc_eq_sum_ZERO (term V c i p q) (fun k => accAt V c p q (16 * i.val + k))
    (accAt_first V c i p q) (fun k hk => accAt_next V c i p q k hk)

/-! ## What the region leaves in the result array -/

/-- The second step and the projection of the arrays the region finds: entry (p, q) of
    max((½ Y + ½ (A · Y)) + ½ Dh, 0) · Waft + baft, for Y the first step's result and Dh the second product. -/
def out2 (c : Dev nD) (p : Fin 8192) (q : Fin 64) : EReal :=
  (∑ k : Fin 128,
      max ((Cert.Spec.HALF * arrY V c (ix2 p k) + Cert.Spec.HALF * Cert.Spec.MM (arrA V c) (arrY V c) p k)
            + Cert.Spec.HALF * arrDh V c (ix2 p k)) Cert.Spec.ZERO
        * arrW V c (ix2 k q))
    + arrB V c (ix2 (0 : Fin 1) q)

/-- The block a flushing point leaves, entry by entry. -/
theorem pay3_at (c : Dev nD) (t : Fin cfg2.N) (i : Fin 16) (ht : t.val = 16 * i.val + 15) (p : Fin 512) (q : Fin 64) :
    k2_pay3 (F := Ideal) (blkYi V c t) (acc2 V c t.val t.isLt) (blkDh V c t) (blkW V c t) (blkB V c t) (ix2 p q)
      = out2 V c (Cert.Spec.tile i p) q := by
  refine (k2_pay3_apply (blkYi V c t) (acc2 V c t.val t.isLt) (blkDh V c t) (blkW V c t) (blkB V c t) p q).trans ?_
  unfold out2
  rw [iblk2_5_apply V c t q]
  refine congrArg (fun s => s + arrB V c (ix2 (0 : Fin 1) q)) (Finset.sum_congr rfl fun k _ => ?_)
  rw [iblk2_2_apply V c t i 15 ht p k, iblk2_3_apply V c t i 15 ht p k, iblk2_4_apply V c t k q, acc2_last V c t i ht p k]

/-- What a flushing point writes back is its block of the array out2. -/
theorem flushed2_6_eq (c : Dev nD) (t : Fin cfg2.N) (hf : (cfg2.win 6).flush t = true) :
    (dat2 V c).flushed 6 t = ((cfg2.win 6).blk t).view.read (Elt Ideal) (Cert.Spec.mat (out2 V c)) := by
  have h15 : t.val % 16 = 15 := (flush2_6 t).mp hf
  have ht256 : t.val < 256 := lt_of_lt_of_eq t.isLt N2
  have hi : t.val / 16 < 16 := by omega
  have ht : t.val = 16 * (⟨t.val / 16, hi⟩ : Fin 16).val + 15 := by show t.val = 16 * (t.val / 16) + 15; omega
  show (cfg2.win 6).cut (grid2.coords t) ((dat2 V c).after 6 t) = _
  rw [after2_6 V c t h15]
  obtain ⟨e0, e1⟩ := idx2_6 t
  funext j
  obtain ⟨p, q, rfl⟩ : ∃ (p : Fin 512) (q : Fin 64), j = ix2 p q := ⟨j 0, j 1, eq_ix2 j⟩
  show k2_pay3 (F := Ideal) (blkYi V c t) (acc2 V c t.val t.isLt) (blkDh V c t) (blkW V c t) (blkB V c t) (ix2 p q)
    = Cert.Spec.mat (out2 V c) (((cfg2.win 6).blk t).view.emb (ix2 p q))
  have hemb : ((cfg2.win 6).blk t).view.emb (ix2 p q) = ix2 (Cert.Spec.tile ⟨t.val / 16, hi⟩ p) q := by
    funext a; apply Fin.ext
    match a with
    | ⟨0, _⟩ => show win2_6.index t (0 : Fin 2) * 512 + 1 * p.val = t.val / 16 * 512 + p.val; omega
    | ⟨1, _⟩ => show win2_6.index t (1 : Fin 2) * 64 + 1 * q.val = q.val; omega
  rw [hemb, Cert.Spec.mat_ix2]
  exact pay3_at V c t ⟨t.val / 16, hi⟩ ht p q

/-- THE ARRAY region 2 leaves: out2 of the arrays the region finds. -/
theorem arr2_6 (c : Dev nD) : (dat2 V c).arrAt 6 cfg2.N = Cert.Spec.mat (out2 V c) :=
  (dat2 V c).arrAt_eq_of_cover 6 _ (fun t hf => flushed2_6_eq V c t hf) (fun (i : S8192x64.Idx) => by
    have hi0 : (i 0).val < 8192 := (i 0).isLt
    have hi1 : (i 1).val < 64 := (i 1).isLt
    have hn : 16 * ((i 0).val / 512) + 15 < cfg2.N := by rw [N2]; omega
    refine ⟨⟨16 * ((i 0).val / 512) + 15, hn⟩, (flush2_6 _).mpr (by show (16 * ((i 0).val / 512) + 15) % 16 = 15; omega), ?_⟩
    rw [mem_blk2_6]
    obtain ⟨e0, e1⟩ := idx2_6 ⟨16 * ((i 0).val / 512) + 15, hn⟩
    have e0' : win2_6.index ⟨16 * ((i 0).val / 512) + 15, hn⟩ (0 : Fin 2) = (16 * ((i 0).val / 512) + 15) / 16 := e0
    intro a
    match a with
    | ⟨0, _⟩ => show win2_6.index ⟨16 * ((i 0).val / 512) + 15, hn⟩ (0 : Fin 2) * 512 ≤ (i 0).val ∧ (i 0).val < win2_6.index ⟨16 * ((i 0).val / 512) + 15, hn⟩ (0 : Fin 2) * 512 + 512; omega
    | ⟨1, _⟩ => show win2_6.index ⟨16 * ((i 0).val / 512) + 15, hn⟩ (1 : Fin 2) * 64 ≤ (i 1).val ∧ (i 1).val < win2_6.index ⟨16 * ((i 0).val / 512) + 15, hn⟩ (1 : Fin 2) * 64 + 64; omega)

end Cert.KernelIdeal.HandVal

end
-- ==== Proof.KI.ValOut2.lean ====
/-
  The second accumulation pass computes the specification's last stage: if the arrays it finds are the matrix A, the
  first step's result Y1, the product D · h, the small matrix and the bias (as a 1 × 64 row), then what it leaves,
  max((½ Y1 + ½ (A · Y1)) + ½ (D · h), 0) · Waft + baft, is the specification's result entry by entry. Nothing is used
  but the definitions: the pass's formula is the specification's with arrays in place of the functions they hold.
-/
import proofs.«171258_g71622874628668_fold_wed_m_490_3_alg».proof.Proof.KI.ValArr2

noncomputable section

open scoped BigOperators

namespace Cert.KernelIdeal.HandVal

open Idealize.ShloMosaic Idealize.ShloMosaic.TcCoe Idealize.ShloMosaic.ValueIdx
open Cert.Spec Cert.KernelIdeal Cert.KernelIdeal.Gen

theorem out2_eq_Out (V : (c : Dev nD) → (b : Ref sig .tc) → Buf (Elt Ideal) ((c : Thread nD τ).loc b)) (c : Dev nD)
    (x : Mat 8192 256) (W : Mat 256 128) (b : Row 128) (A D : Mat 8192 8192) (Waft : Mat 128 64) (baft : Row 64)
    (hA : arrA V c = A) (hY : arrY V c = mat (Y1 x W b A D)) (hDh : arrDh V c = mat (MM D (mat (Hm x W b))))
    (hW : arrW V c = Waft) (hB : ∀ q : Fin 64, arrB V c (ix2 (0 : Fin 1) q) = baft (ix1 q)) (p : Fin 8192) (q : Fin 64) :
    out2 V c p q = Out x W b A D Waft baft p q := by
  unfold out2 Cert.Spec.Out
  rw [hB q, hA, hY, hDh, hW]
  rfl

end Cert.KernelIdeal.HandVal

end
-- ==== Proof.SpecSteps.lean ====
/-
  The specification cut at the arrays the three passes hand to one another. The first pass leaves h; the second leaves
  Y1 and the product D · h, both computed from the array h; the third computes the result from the arrays Y1 and D · h
  and a bias given as a 1 × 64 row. Each cut is the specification's own formula with an array in place of the
  function it holds, so each statement is a congruence: a product's column q reads column q of its right factor only.
-/
import proofs.«171258_g71622874628668_fold_wed_m_490_3_alg».proof.Proof.Spec

noncomputable section

open scoped BigOperators

namespace Cert.Spec

open Idealize.ShloMosaic Idealize.ShloMosaic.ValueIdx

/-- The second pass's first output from the array h: (½ h + ½ (A · h)) + ½ (D · h). -/
def step1 (A D : Mat 8192 8192) (H : Mat 8192 128) (p : Fin 8192) (q : Fin 128) : EReal :=
  (HALF * H (ix2 p q) + HALF * MM A H p q) + HALF * MM D H p q

/-- The third pass's output from the arrays Y (the first step's result) and Dh (the product D · h), the small matrix
    and the bias row: max((½ Y + ½ (A · Y)) + ½ Dh, 0) · Waft + baft. -/
def step2 (A : Mat 8192 8192) (Y Dh : Mat 8192 128) (Waft : Mat 128 64) (B : Mat 1 64) (p : Fin 8192) (q : Fin 64) : EReal :=
  (∑ k : Fin 128, max ((HALF * Y (ix2 p k) + HALF * MM A Y p k) + HALF * Dh (ix2 p k)) ZERO * Waft (ix2 k q)) + B (ix2 (0 : Fin 1) q)

variable (x : Mat 8192 256) (W : Mat 256 128) (b : Row 128) (A D : Mat 8192 8192)

/-- A product with the array h is the product with the function it holds. -/
theorem MM_of_h (M : Mat 8192 8192) (H : Mat 8192 128) (hH : ∀ p q, H (ix2 p q) = Hm x W b p q) (p : Fin 8192) (q : Fin 128) :
    MM M H p q = MM M (mat (Hm x W b)) p q :=
  MM_congr M (Y' := mat (Hm x W b)) p q (fun j => hH j q)

/-- From the array h the second pass's first output is Y1. -/
theorem step1_eq_Y1 (H : Mat 8192 128) (hH : ∀ p q, H (ix2 p q) = Hm x W b p q) (p : Fin 8192) (q : Fin 128) :
    step1 A D H p q = Y1 x W b A D p q := by
  unfold step1
  rw [hH p q, MM_of_h x W b A H hH p q, MM_of_h x W b D H hH p q]
  rfl

/-- From the arrays Y1 and D · h, and the bias as a row, the third pass's output is the result. -/
theorem step2_eq_Out (Waft : Mat 128 64) (baft : Row 64) (Y Dh : Mat 8192 128) (B : Mat 1 64)
    (hY : ∀ p q, Y (ix2 p q) = Y1 x W b A D p q) (hDh : ∀ p q, Dh (ix2 p q) = MM D (mat (Hm x W b)) p q)
    (hB : ∀ q : Fin 64, B (ix2 (0 : Fin 1) q) = baft (ix1 q)) (p : Fin 8192) (q : Fin 64) :
    step2 A Y Dh Waft B p q = Out x W b A D Waft baft p q := by
  unfold step2 Out
  rw [hB q]
  refine congrArg (fun s => s + baft (ix1 q)) (Finset.sum_congr rfl fun k _ => ?_)
  rw [hY p k, hDh p k, MM_congr A (Y' := mat (Y1 x W b A D)) p k (fun j => hY j k)]
  rfl

end Cert.Spec

end
-- ==== Proof.KI.ValChain.lean ====
/- The kernel program's result array as the specification's function of the seven argument arrays, on the extended
   reals: region 0 leaves h = x · W + b, region 1 leaves Y1 and D · h, region 2 leaves max(Y2, 0) · Waft + baft; each is
   read off the array its region leaves and substituted into the next region's entry contents. -/
import proofs.«171258_g71622874628668_fold_wed_m_490_3_alg».proof.Proof.KI.RunVals
import proofs.«171258_g71622874628668_fold_wed_m_490_3_alg».proof.Proof.KI.Arr0
import proofs.«171258_g71622874628668_fold_wed_m_490_3_alg».proof.Proof.KI.Val0
import proofs.«171258_g71622874628668_fold_wed_m_490_3_alg».proof.Proof.KI.ValArr1
import proofs.«171258_g71622874628668_fold_wed_m_490_3_alg».proof.Proof.KI.ValArr2
import proofs.«171258_g71622874628668_fold_wed_m_490_3_alg».proof.Proof.KI.ValOut2
import proofs.«171258_g71622874628668_fold_wed_m_490_3_alg».proof.Proof.Spec
import proofs.«171258_g71622874628668_fold_wed_m_490_3_alg».proof.Proof.SpecSteps

set_option maxRecDepth 16384

noncomputable section

open scoped BigOperators

namespace Cert.KernelIdeal.HandVal

open Idealize.ShloMosaic Idealize.ShloMosaic.TcCoe Idealize.ShloMosaic.ValueIdx
open Idealize.SL Idealize.SL.Sem
open Cert.KernelIdeal Cert.KernelIdeal.Gen Cert.KernelIdeal.Hand
open Cert.Spec

variable (m : (ℓ : Loc nD τ sig) → Buf (Elt Ideal) ℓ) (ρ : Dev nD → PrngReg)

/-- Region 1 finds h = x · W + b in the array region 0 wrote. -/
theorem h_value (c : Dev nD) :
    (V2 (F := Ideal) dat0 m ρ c main_v1 : Mat 8192 128)
      = mat (Hm (m ((c.tc : Thread nD τ).loc main_arg0)) (m ((c.tc : Thread nD τ).loc main_arg3)) (m ((c.tc : Thread nD τ).loc main_arg4))) := by
  rw [V2_main_v1, arr0_3]
  funext i
  obtain ⟨p, q, rfl⟩ : ∃ (p : Fin 8192) (q : Fin 128), i = ix2 p q := ⟨i 0, i 1, eq_ix2 i⟩
  rw [out0_3_apply, mat_ix2, V1_main_arg0, V1_main_arg3, V1_bias]
  rfl

/-- Region 2 finds Y1 in the first array region 1 wrote. -/
theorem y1_value (c : Dev nD) :
    (V4 (F := Ideal) dat0 dat1 m ρ c main_v2_0 : Mat 8192 128)
      = mat (Y1 (m ((c.tc : Thread nD τ).loc main_arg0)) (m ((c.tc : Thread nD τ).loc main_arg3)) (m ((c.tc : Thread nD τ).loc main_arg4))
          (m ((c.tc : Thread nD τ).loc main_arg1)) (m ((c.tc : Thread nD τ).loc main_arg2))) := by
  rw [V4_main_v2_0, arr1_4]
  show mat (step1 (V2 (F := Ideal) dat0 m ρ c main_arg1) (V2 (F := Ideal) dat0 m ρ c main_arg2) (V2 (F := Ideal) dat0 m ρ c main_v1)) = _
  rw [V2_main_arg1, V2_main_arg2, h_value m ρ c]
  exact congrArg mat (funext fun p => funext fun q => step1_eq_Y1 _ _ _ _ _ _ (fun _ _ => rfl) p q)

/-- And D · h in the second. -/
theorem dh_value (c : Dev nD) :
    (V4 (F := Ideal) dat0 dat1 m ρ c main_v2_1 : Mat 8192 128)
      = mat (MM (m ((c.tc : Thread nD τ).loc main_arg2))
          (mat (Hm (m ((c.tc : Thread nD τ).loc main_arg0)) (m ((c.tc : Thread nD τ).loc main_arg3)) (m ((c.tc : Thread nD τ).loc main_arg4))))) := by
  rw [V4_main_v2_1, arr1_5]
  show mat (fun p q => MM (V2 (F := Ideal) dat0 m ρ c main_arg2) (V2 (F := Ideal) dat0 m ρ c main_v1) p q) = _
  rw [V2_main_arg2, h_value m ρ c]

/-- THE RESULT ARRAY: what region 2's write-backs leave is the specification's function of the argument arrays. -/
theorem result_value (c : Dev nD) :
    ((dat2 (V4 (F := Ideal) dat0 dat1 m ρ) c).arrAt 6 cfg2.N : Mat 8192 64)
      = mat (Out (m ((c.tc : Thread nD τ).loc main_arg0)) (m ((c.tc : Thread nD τ).loc main_arg3)) (m ((c.tc : Thread nD τ).loc main_arg4))
          (m ((c.tc : Thread nD τ).loc main_arg1)) (m ((c.tc : Thread nD τ).loc main_arg2))
          (m ((c.tc : Thread nD τ).loc main_arg5)) (m ((c.tc : Thread nD τ).loc main_arg6))) := by
  rw [arr2_6]
  refine congrArg mat ?_
  funext p q
  exact out2_eq_Out (V4 (F := Ideal) dat0 dat1 m ρ) c _ _ _ _ _ _ _
    (V4_main_arg1 dat0 dat1 m ρ c) (y1_value m ρ c) (dh_value m ρ c) (V4_main_arg5 dat0 dat1 m ρ c)
    (fun q => V4_bias dat0 dat1 m ρ c q) p q

end Cert.KernelIdeal.HandVal

end
-- ==== Proof.RefIsSpec.lean ====
/-
  The reference program computes the specification. Read at an index, each of its operations is the corresponding
  line of Cert.Spec: the first product and the bias give h; two steps (½ Y + ½ (A · Y)) + ½ (D · h) give Y1 and Y2; the
  maximum with the zero word and the last product and bias give the result. No algebraic law is used: the reference's
  association of every sum is the specification's, and each contraction is already a sum over the textbook index.
  Then the reference's run: it ends with its result array holding the specification and its arguments unchanged.
-/
import proofs.«171258_g71622874628668_fold_wed_m_490_3_alg».proof.Proof.Gen.ReferenceIdeal.Run
import proofs.«171258_g71622874628668_fold_wed_m_490_3_alg».proof.Proof.Gen.ReferenceIdeal.Read
import proofs.«171258_g71622874628668_fold_wed_m_490_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe Idealize.SL.Sem
  Idealize.ShloMosaic.StableHlo Idealize.ShloMosaic.ValueIdx

/-! ## The operands' indices at entry (p, q) -/

theorem lidx_v0 (p : Fin 8192) (q : Fin 128) (k : Fin 256) : lidx_main_v0 (ix2 p q) k = ix2 p k := funext fun a => by match a with | ⟨0, _⟩ => rfl | ⟨1, _⟩ => rfl
theorem ridx_v0 (p : Fin 8192) (q : Fin 128) (k : Fin 256) : ridx_main_v0 (ix2 p q) k = ix2 k q := funext fun a => by match a with | ⟨0, _⟩ => rfl | ⟨1, _⟩ => rfl
/-- The bias is broadcast along the rows: entry (p, q) reads b q. -/
theorem idx_v2 (p : Fin 8192) (q : Fin 128) : idx_main_v1 (idx_main_v2 (ix2 p q)) = ix1 q := funext fun a => by match a with | ⟨0, _⟩ => rfl
theorem lidx_v6 (p : Fin 8192) (q : Fin 128) (k : Fin 8192) : lidx_main_v6 (ix2 p q) k = ix2 p k := funext fun a => by match a with | ⟨0, _⟩ => rfl | ⟨1, _⟩ => rfl
theorem ridx_v6 (p : Fin 8192) (q : Fin 128) (k : Fin 8192) : ridx_main_v6 (ix2 p q) k = ix2 k q := funext fun a => by match a with | ⟨0, _⟩ => rfl | ⟨1, _⟩ => rfl
theorem lidx_v10 (p : Fin 8192) (q : Fin 128) (k : Fin 8192) : lidx_main_v10 (ix2 p q) k = ix2 p k := funext fun a => by match a with | ⟨0, _⟩ => rfl | ⟨1, _⟩ => rfl
theorem ridx_v10 (p : Fin 8192) (q : Fin 128) (k : Fin 8192) : ridx_main_v10 (ix2 p q) k = ix2 k q := funext fun a => by match a with | ⟨0, _⟩ => rfl | ⟨1, _⟩ => rfl
theorem lidx_v16 (p : Fin 8192) (q : Fin 128) (k : Fin 8192) : lidx_main_v16 (ix2 p q) k = ix2 p k := funext fun a => by match a with | ⟨0, _⟩ => rfl | ⟨1, _⟩ => rfl
theorem ridx_v16 (p : Fin 8192) (q : Fin 128) (k : Fin 8192) : ridx_main_v16 (ix2 p q) k = ix2 k q := funext fun a => by match a with | ⟨0, _⟩ => rfl | ⟨1, _⟩ => rfl
theorem lidx_v20 (p : Fin 8192) (q : Fin 128) (k : Fin 8192) : lidx_main_v20 (ix2 p q) k = ix2 p k := funext fun a => by match a with | ⟨0, _⟩ => rfl | ⟨1, _⟩ => rfl
theorem ridx_v20 (p : Fin 8192) (q : Fin 128) (k : Fin 8192) : ridx_main_v20 (ix2 p q) k = ix2 k q := funext fun a => by match a with | ⟨0, _⟩ => rfl | ⟨1, _⟩ => rfl
theorem lidx_v25 (p : Fin 8192) (q : Fin 64) (k : Fin 128) : lidx_main_v25 (ix2 p q) k = ix2 p k := funext fun a => by match a with | ⟨0, _⟩ => rfl | ⟨1, _⟩ => rfl
theorem ridx_v25 (p : Fin 8192) (q : Fin 64) (k : Fin 128) : ridx_main_v25 (ix2 p q) k = ix2 k q := funext fun a => by match a with | ⟨0, _⟩ => rfl | ⟨1, _⟩ => rfl
theorem idx_v27 (p : Fin 8192) (q : Fin 64) : idx_main_v26 (idx_main_v27 (ix2 p q)) = ix1 q := funext fun a => by match a with | ⟨0, _⟩ => rfl

/-! ## The stages -/

/-- h = x · W + b. -/
theorem h_spec (x0 : (⟨S8192x256, .f32⟩ : BufTy).Contents (Elt Ideal)) (x3 : (⟨S256x128, .f32⟩ : BufTy).Contents (Elt Ideal)) (x4 : (⟨S128, .f32⟩ : BufTy).Contents (Elt Ideal)) (p : Fin 8192) (q : Fin 128) :
    val_main_v3 (F := Ideal) x0 x3 x4 (ix2 p q) = Cert.Spec.Hm x0 x3 x4 p q := by
  show _ = (∑ k : Fin 256, x0 (ix2 p k) * x3 (ix2 k q)) + x4 (ix1 q)
  rw [val_main_v3_apply, val_main_v0_apply, val_main_v2_apply, val_main_v1_apply]
  simp only [Ideal.addf_def, lidx_v0, ridx_v0, idx_v2]

/-- Y1 = (½ h + ½ (A · h)) + ½ (D · h). -/
theorem y1_spec (x0 : (⟨S8192x256, .f32⟩ : BufTy).Contents (Elt Ideal)) (x1 x2 : (⟨S8192x8192, .f32⟩ : BufTy).Contents (Elt Ideal)) (x3 : (⟨S256x128, .f32⟩ : BufTy).Contents (Elt Ideal)) (x4 : (⟨S128, .f32⟩ : BufTy).Contents (Elt Ideal)) (p : Fin 8192) (q : Fin 128) :
    val_main_v13 (F := Ideal) x0 x1 x2 x3 x4 (ix2 p q) = Cert.Spec.Y1 x0 x3 x4 x1 x2 p q := by
  show _ = (Ideal.ofBits .f32 0x3F000000#32 * Cert.Spec.Hm x0 x3 x4 p q
      + Ideal.ofBits .f32 0x3F000000#32 * ∑ j : Fin 8192, x1 (ix2 p j) * Cert.Spec.Hm x0 x3 x4 j q)
      + Ideal.ofBits .f32 0x3F000000#32 * ∑ j : Fin 8192, x2 (ix2 p j) * Cert.Spec.Hm x0 x3 x4 j q
  rw [val_main_v13_apply, val_main_v9_apply, val_main_v5_apply, val_main_v8_apply, val_main_v12_apply,
    val_main_v4_apply, val_main_v7_apply, val_main_v11_apply, val_main_cst_apply, val_main_cst_0_apply, val_main_cst_1_apply,
    val_main_v6_apply, val_main_v10_apply, h_spec]
  simp only [Ideal.addf_def, Ideal.mulf_def, Ideal.ofBits_def, lidx_v6, ridx_v6, lidx_v10, ridx_v10, h_spec]

/-- Y2 = (½ Y1 + ½ (A · Y1)) + ½ (D · h). -/
theorem y2_spec (x0 : (⟨S8192x256, .f32⟩ : BufTy).Contents (Elt Ideal)) (x1 x2 : (⟨S8192x8192, .f32⟩ : BufTy).Contents (Elt Ideal)) (x3 : (⟨S256x128, .f32⟩ : BufTy).Contents (Elt Ideal)) (x4 : (⟨S128, .f32⟩ : BufTy).Contents (Elt Ideal)) (p : Fin 8192) (q : Fin 128) :
    val_main_v23 (F := Ideal) x0 x1 x2 x3 x4 (ix2 p q) = Cert.Spec.Y2 x0 x3 x4 x1 x2 p q := by
  show _ = (Ideal.ofBits .f32 0x3F000000#32 * Cert.Spec.Y1 x0 x3 x4 x1 x2 p q
      + Ideal.ofBits .f32 0x3F000000#32 * ∑ j : Fin 8192, x1 (ix2 p j) * Cert.Spec.Y1 x0 x3 x4 x1 x2 j q)
      + Ideal.ofBits .f32 0x3F000000#32 * ∑ j : Fin 8192, x2 (ix2 p j) * Cert.Spec.Hm x0 x3 x4 j q
  rw [val_main_v23_apply, val_main_v19_apply, val_main_v15_apply, val_main_v18_apply, val_main_v22_apply,
    val_main_v14_apply, val_main_v17_apply, val_main_v21_apply, val_main_cst_2_apply, val_main_cst_3_apply, val_main_cst_4_apply,
    val_main_v16_apply, val_main_v20_apply, y1_spec]
  simp only [Ideal.addf_def, Ideal.mulf_def, Ideal.ofBits_def, lidx_v16, ridx_v16, lidx_v20, ridx_v20, h_spec, y1_spec]

/-- The result: max(Y2, 0) · Waft + baft. -/
theorem out_spec (x0 : (⟨S8192x256, .f32⟩ : BufTy).Contents (Elt Ideal)) (x1 x2 : (⟨S8192x8192, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) (p : Fin 8192) (q : Fin 64) :
    val_main_v28 (F := Ideal) x0 x1 x2 x3 x4 x5 x6 (ix2 p q) = Cert.Spec.Out x0 x3 x4 x1 x2 x5 x6 p q := by
  show _ = (∑ k : Fin 128, max (Cert.Spec.Y2 x0 x3 x4 x1 x2 p k) (Ideal.ofBits .f32 0x00000000#32) * x5 (ix2 k q)) + x6 (ix1 q)
  rw [val_main_v28_apply, val_main_v25_apply, val_main_v27_apply, val_main_v26_apply]
  simp only [Ideal.addf_def, Ideal.maximumf_def, Ideal.ofBits_def, lidx_v25, ridx_v25, idx_v27, val_main_v24_apply,
    val_main_call0_v0_apply, val_main_call0_cst_apply, y2_spec]

/-- The reference's last stage, as an array, is the specification. -/
theorem val_eq_spec (x0 : (⟨S8192x256, .f32⟩ : BufTy).Contents (Elt Ideal)) (x1 x2 : (⟨S8192x8192, .f32⟩ : BufTy).Contents (Elt Ideal)) (x3 : (⟨S256x128, .f32⟩ : BufTy).Contents (Elt Ideal)) (x4 : (⟨S128, .f32⟩ : BufTy).Contents (Elt Ideal)) (x5 : (⟨S128x64, .f32⟩ : BufTy).Contents (Elt Ideal)) (x6 : (⟨S64, .f32⟩ : BufTy).Contents (Elt Ideal)) :
    val_main_v28 (F := Ideal) x0 x1 x2 x3 x4 x5 x6 = Cert.Spec.mat (Cert.Spec.Out x0 x3 x4 x1 x2 x5 x6) := by
  funext i
  obtain ⟨p, q, rfl⟩ : ∃ (p : Fin 8192) (q : Fin 64), i = ix2 p q := ⟨i 0, i 1, eq_ix2 i⟩
  exact out_spec x0 x1 x2 x3 x4 x5 x6 p q

/-- The run's result term is the specification of the arguments' launch contents. -/
theorem res_eq_spec (m : (ℓ : Loc nD τ sig) → Buf (Elt Ideal) ℓ) (c : Dev nD) :
    Cert.ReferenceIdeal.Value.res_main_v28 (F := Ideal) m c
      = Cert.Spec.mat (Cert.Spec.Out (m ((c.tc : Thread nD τ).loc main_arg0)) (m ((c.tc : Thread nD τ).loc main_arg3)) (m ((c.tc : Thread nD τ).loc main_arg4))
          (m ((c.tc : Thread nD τ).loc main_arg1)) (m ((c.tc : Thread nD τ).loc main_arg2)) (m ((c.tc : Thread nD τ).loc main_arg5)) (m ((c.tc : Thread nD τ).loc main_arg6))) :=
  (val_main_v28_eq (F := Ideal) m c).trans (val_eq_spec _ _ _ _ _ _ _)

/-! ## The reference's run -/

/-- Every weakly fair execution of the reference terminates with its result array at the specification of the
    arguments' launch contents, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
        = Cert.Spec.mat (Cert.Spec.Out (m ((c.tc : Thread nD τ).loc main_arg0)) (m ((c.tc : Thread nD τ).loc main_arg3)) (m ((c.tc : Thread nD τ).loc main_arg4))
            (m ((c.tc : Thread nD τ).loc main_arg1)) (m ((c.tc : Thread nD τ).loc main_arg2)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (res_eq_spec m c), (h c).2⟩)
    (Cert.ReferenceIdeal.Value.run (F := Ideal) m ρ)

/-- The reference runs to the end and leaves its arguments unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => (h c).2) (Cert.ReferenceIdeal.Value.run (F := Ideal) m ρ)

end Cert.ReferenceIdeal.RefValue

end
-- ==== Proof.lean ====
/- The certificate's five claims for the two-step propagation kernel
       h = x · W + b,   Y1 = (½ h + ½ (A · h)) + ½ (D · h),   Y2 = (½ Y1 + ½ (A · Y1)) + ½ (D · h),   out = max(Y2, 0) · Waft + baft.
   The kernel program computes h in one call, then Y1 and D · h in a second call that walks the 16 × 16 blocks of A and D
   keeping two running sums per row block, then out in a third call that walks A again keeping one running sum. The
   reference computes each product whole. On the extended reals the two agree entry by entry: a product accumulated over
   16 column blocks of 512 started from zero is the whole sum over 8192 (only associativity and commutativity of + are
   used, so no finiteness is needed), and every other operation is the same on both sides.
   Frames: each of the three calls' bodies is run at every grid point (the running sums carried in scratch from one
   point to the next, the outputs stored at the last column block only), the two windows that read one array hold it
   in halves, and no call or host line writes an argument. -/
import proofs.«171258_g71622874628668_fold_wed_m_490_3_alg».proof.Defs
import proofs.«171258_g71622874628668_fold_wed_m_490_3_alg».proof.Proof.Gen.Kernel
import proofs.«171258_g71622874628668_fold_wed_m_490_3_alg».proof.Proof.Gen.KernelIdeal
import proofs.«171258_g71622874628668_fold_wed_m_490_3_alg».proof.Proof.Gen.ReferenceIdeal
import proofs.«171258_g71622874628668_fold_wed_m_490_3_alg».proof.Proof.Gen.Pre_finite_inputs
import proofs.«171258_g71622874628668_fold_wed_m_490_3_alg».proof.Proof.K.Frame
import proofs.«171258_g71622874628668_fold_wed_m_490_3_alg».proof.Proof.KI.Frame
import proofs.«171258_g71622874628668_fold_wed_m_490_3_alg».proof.Proof.KI.ValChain
import proofs.«171258_g71622874628668_fold_wed_m_490_3_alg».proof.Proof.RefIsSpec
import Idealize.ShloMosaic.Adequacy
import Idealize.ShloMosaic.Init

noncomputable section

namespace Cert.Proof

open Idealize.ShloMosaic Idealize.SL.Sem

/-- The word-level program runs to the end and leaves its arguments as launched. -/
theorem frame_k : Cert.frame_Kernel (hKernel := Cert.Kernel.Gen.facts) (hPre_finite_inputs := Cert.Pre_finite_inputs.Gen.facts) :=
  fun m ρ _ => Cert.Kernel.Hand.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- And the reference. -/
theorem frame_ri : Cert.frame_ReferenceIdeal (hReferenceIdeal := Cert.ReferenceIdeal.Gen.facts) (hPre_finite_inputs := Cert.Pre_finite_inputs.Gen.facts) :=
  fun m ρ _ => Cert.ReferenceIdeal.RefValue.frame m ρ

/-- Run from memories that agree on the arguments, the idealized kernel and the idealized reference both end with the
    specification's array of those arguments as their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.mat (Cert.Spec.Out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))), ?_, ?_⟩
  · exact (θ_run Cert.KernelIdeal.defs _ _).mono
      (fun r h c => ⟨(h c).1.trans (Cert.KernelIdeal.HandVal.result_value m ρ c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.RefValue.run m' ρ')
    rw [(hagree c).1, (hagree c).2.1, (hagree c).2.2.1, (hagree c).2.2.2.1, (hagree c).2.2.2.2.1,
      (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
